-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x11 : Shape := ⟨2, ![100000, 11]⟩
abbrev S2x1600000 : Shape := ⟨2, ![2, 1600000]⟩
abbrev S100000 : Shape := ⟨1, ![100000]⟩
abbrev S11x128 : Shape := ⟨2, ![11, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S100000x11 : S_.BroadcastsInDim S100000x11 (![] : Fin 0 → Fin S100000x11.rank)
  reducesTo_S100000x11_S_d0_1 : S100000x11.ReducesTo [0, 1] S_
  h_S_ : 0 < S_.numel
  bcast_S_S11x128 : S_.BroadcastsInDim S11x128 (![] : Fin 0 → Fin S11x128.rank)
  reducesTo_S11x128_S_d0_1 : S11x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part8 {F : FTy → Type} [FloatOps F] (main_arg30 : FVec F S1 .f32) (main_v133 : IVec S_ 1) (main_v136 : IVec S128x1 1) : IVec S_ 1 :=
  let main_c_53 : IVec S_ 1 := constantI S_ 1 1#1
  let main_v137 : IVec S_ 1 := (fun x v => Host.reduce IntOp.andi x v reducesTo_S128x1_S_d0_1 h_S_) main_v136 main_c_53
  let main_v138 : IVec S_ 1 := andi main_v133 main_v137
  let main_v139 : FVec F S1 .f32 := Host.absf main_arg30
  let main_cst_54 : FVec F S_ .f32 := constant S_ .f32 0x7F800000#32
  let main_v140 : FVec F S1 .f32 := broadcastInDim S1 ![] bcast_S_S1 main_cst_54
  let main_v141 : IVec S1 1 := cmpf .olt main_v139 main_v140
  let main_c_55 : IVec S_ 1 := constantI S_ 1 1#1
  let main_v142 : IVec S_ 1 := (fun x v => Host.reduce IntOp.andi x v reducesTo_S1_S_d0 h_S_) main_v141 main_c_55
  let main_v143 : IVec S_ 1 := andi main_v138 main_v142
  main_v143

def fn_part7 {F : FTy → Type} [FloatOps F] (main_arg27 : FVec F S128x128 .f32) (main_arg28 : FVec F S128 .f32) (main_arg29 : FVec F S128x1 .f32) (main_arg30 : FVec F S1 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128x128 .f32 := Host.absf main_arg27
  let main_cst_48 : FVec F S_ .f32 := constant S_ .f32 0x7F800000#32
  let main_v125 : FVec F S128x128 .f32 := broadcastInDim S128x128 ![] bcast_S_S128x128 main_cst_48
  let main_v126 : IVec S128x128 1 := cmpf .olt main_v124 main_v125
  let main_c_49 : IVec S_ 1 := constantI S_ 1 1#1
  let main_v127 : IVec S_ 1 := (fun x v => Host.reduce IntOp.andi x v reducesTo_S128x128_S_d0_1 h_S_) main_v126 main_c_49
  let main_v128 : IVec S_ 1 := andi main_v123 main_v127
  let main_v129 : FVec F S128 .f32 := Host.absf main_arg28
  let main_cst_50 : FVec F S_ .f32 := constant S_ .f32 0x7F800000#32
  let main_v130 : FVec F S128 .f32 := broadcastInDim S128 ![] bcast_S_S128 main_cst_50
  let main_v131 : IVec S128 1 := cmpf .olt main_v129 main_v130
  let main_c_51 : IVec S_ 1 := constantI S_ 1 1#1
  let main_v132 : IVec S_ 1 := (fun x v => Host.reduce IntOp.andi x v reducesTo_S128_S_d0 h_S_) main_v131 main_c_51
  let main_v133 : IVec S_ 1 := andi main_v128 main_v132
  let main_v134 : FVec F S128x1 .f32 := Host.absf main_arg29
  let main_cst_52 : FVec F S_ .f32 := constant S_ .f32 0x7F800000#32
  let main_v135 : FVec F S128x1 .f32 := broadcastInDim S128x1 ![] bcast_S_S128x1 main_cst_52
  let main_v136 : IVec S128x1 1 := cmpf .olt main_v134 main_v135
  fn_part8 (F := F) main_arg30 main_v133 main_v136

def fn_part6 {F : FTy → Type} [FloatOps F] (main_arg23 : FVec F S128 .f32) (main_arg24 : FVec F S128 .f32) (main_arg25 : FVec F S128x128 .f32) (main_arg26 : FVec F S128 .f32) (main_arg27 : FVec F S128x128 .f32) (main_arg28 : FVec F S128 .f32) (main_arg29 : FVec F S128x1 .f32) (main_arg30 : FVec F S1 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg23
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128 .f32 := Host.absf main_arg24
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128x128 .f32 := Host.absf main_arg25
  let main_cst_44 : FVec F S_ .f32 := constant S_ .f32 0x7F800000#32
  let main_v115 : FVec F S128x128 .f32 := broadcastInDim S128x128 ![] bcast_S_S128x128 main_cst_44
  let main_v116 : IVec S128x128 1 := cmpf .olt main_v114 main_v115
  let main_c_45 : IVec S_ 1 := constantI S_ 1 1#1
  let main_v117 : IVec S_ 1 := (fun x v => Host.reduce IntOp.andi x v reducesTo_S128x128_S_d0_1 h_S_) main_v116 main_c_45
  let main_v118 : IVec S_ 1 := andi main_v113 main_v117
  let main_v119 : FVec F S128 .f32 := Host.absf main_arg26
  fn_part7 (F := F) main_arg27 main_arg28 main_arg29 main_arg30 main_v118 main_v119

def fn_part5 {F : FTy → Type} [FloatOps F] (main_arg20 : FVec F S128 .f32) (main_arg21 : FVec F S128 .f32) (main_arg22 : FVec F S128 .f32) (main_arg23 : FVec F S128 .f32) (main_arg24 : FVec F S128 .f32) (main_arg25 : FVec F S128x128 .f32) (main_arg26 : FVec F S128 .f32) (main_arg27 : FVec F S128x128 .f32) (main_arg28 : FVec F S128 .f32) (main_arg29 : FVec F S128x1 .f32) (main_arg30 : FVec F S1 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg23 main_arg24 main_arg25 main_arg26 main_arg27 main_arg28 main_arg29 main_arg30 main_v98 main_v101 main_c_39

def fn_part4 {F : FTy → Type} [FloatOps F] (main_arg16 : FVec F S128 .f32) (main_arg17 : FVec F S128x128 .f32) (main_arg18 : FVec F S128 .f32) (main_arg19 : FVec F S128x128 .f32) (main_arg20 : FVec F S128 .f32) (main_arg21 : FVec F S128 .f32) (main_arg22 : FVec F S128 .f32) (main_arg23 : FVec F S128 .f32) (main_arg24 : FVec F S128 .f32) (main_arg25 : FVec F S128x128 .f32) (main_arg26 : FVec F S128 .f32) (main_arg27 : FVec F S128x128 .f32) (main_arg28 : FVec F S128 .f32) (main_arg29 : FVec F S128x1 .f32) (main_arg30 : FVec F S1 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg17
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg19
  let main_cst_32 : FVec F S_ .f32 := constant S_ .f32 0x7F800000#32
  fn_part5 (F := F) main_arg20 main_arg21 main_arg22 main_arg23 main_arg24 main_arg25 main_arg26 main_arg27 main_arg28 main_arg29 main_arg30 main_v83 main_v84 main_cst_32

def fn_part3 {F : FTy → Type} [FloatOps F] (main_arg13 : FVec F S128 .f32) (main_arg14 : FVec F S128 .f32) (main_arg15 : FVec F S128 .f32) (main_arg16 : FVec F S128 .f32) (main_arg17 : FVec F S128x128 .f32) (main_arg18 : FVec F S128 .f32) (main_arg19 : FVec F S128x128 .f32) (main_arg20 : FVec F S128 .f32) (main_arg21 : FVec F S128 .f32) (main_arg22 : FVec F S128 .f32) (main_arg23 : FVec F S128 .f32) (main_arg24 : FVec F S128 .f32) (main_arg25 : FVec F S128x128 .f32) (main_arg26 : FVec F S128 .f32) (main_arg27 : FVec F S128x128 .f32) (main_arg28 : FVec F S128 .f32) (main_arg29 : FVec F S128x1 .f32) (main_arg30 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_arg20 main_arg21 main_arg22 main_arg23 main_arg24 main_arg25 main_arg26 main_arg27 main_arg28 main_arg29 main_arg30 main_v63 main_v67

def fn_part2 {F : FTy → Type} [FloatOps F] (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S128x128 .f32) (main_arg18 : FVec F S128 .f32) (main_arg19 : FVec F S128x128 .f32) (main_arg20 : FVec F S128 .f32) (main_arg21 : FVec F S128 .f32) (main_arg22 : FVec F S128 .f32) (main_arg23 : FVec F S128 .f32) (main_arg24 : FVec F S128 .f32) (main_arg25 : FVec F S128x128 .f32) (main_arg26 : FVec F S128 .f32) (main_arg27 : FVec F S128x128 .f32) (main_arg28 : FVec F S128 .f32) (main_arg29 : FVec F S128x1 .f32) (main_arg30 : FVec F S1 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_arg22 main_arg23 main_arg24 main_arg25 main_arg26 main_arg27 main_arg28 main_arg29 main_arg30 main_v48 main_v49 main_v50

def fn_part1 {F : FTy → Type} [FloatOps F] (main_arg6 : FVec F S128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S128x128 .f32) (main_arg18 : FVec F S128 .f32) (main_arg19 : FVec F S128x128 .f32) (main_arg20 : FVec F S128 .f32) (main_arg21 : FVec F S128 .f32) (main_arg22 : FVec F S128 .f32) (main_arg23 : FVec F S128 .f32) (main_arg24 : FVec F S128 .f32) (main_arg25 : FVec F S128x128 .f32) (main_arg26 : FVec F S128 .f32) (main_arg27 : FVec F S128x128 .f32) (main_arg28 : FVec F S128 .f32) (main_arg29 : FVec F S128x1 .f32) (main_arg30 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v33

def fn {F : FTy → Type} [FloatOps F] (main_arg0 : FVec F S100000x11 .f32) (main_arg1 : IVec S2x1600000 32) (main_arg2 : IVec S100000 32) (main_arg3 : FVec F S11x128 .f32) (main_arg4 : FVec F S128 .f32) (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S128x128 .f32) (main_arg18 : FVec F S128 .f32) (main_arg19 : FVec F S128x128 .f32) (main_arg20 : FVec F S128 .f32) (main_arg21 : FVec F S128 .f32) (main_arg22 : FVec F S128 .f32) (main_arg23 : FVec F S128 .f32) (main_arg24 : FVec F S128 .f32) (main_arg25 : FVec F S128x128 .f32) (main_arg26 : FVec F S128 .f32) (main_arg27 : FVec F S128x128 .f32) (main_arg28 : FVec F S128 .f32) (main_arg29 : FVec F S128x1 .f32) (main_arg30 : FVec F S1 .f32) : IVec S_ 1 :=
  let main_v0 : FVec F S100000x11 .f32 := Host.absf main_arg0
  let main_cst : FVec F S_ .f32 := constant S_ .f32 0x7F800000#32
  let main_v1 : FVec F S100000x11 .f32 := broadcastInDim S100000x11 ![] bcast_S_S100000x11 main_cst
  let main_v2 : IVec S100000x11 1 := cmpf .olt main_v0 main_v1
  let main_c : IVec S_ 1 := constantI S_ 1 1#1
  let main_v3 : IVec S_ 1 := (fun x v => Host.reduce IntOp.andi x v reducesTo_S100000x11_S_d0_1 h_S_) main_v2 main_c
  let main_v4 : FVec F S11x128 .f32 := Host.absf main_arg3
  let main_cst_0 : FVec F S_ .f32 := constant S_ .f32 0x7F800000#32
  let main_v5 : FVec F S11x128 .f32 := broadcastInDim S11x128 ![] bcast_S_S11x128 main_cst_0
  let main_v6 : IVec S11x128 1 := cmpf .olt main_v4 main_v5
  let main_c_1 : IVec S_ 1 := constantI S_ 1 1#1
  let main_v7 : IVec S_ 1 := (fun x v => Host.reduce IntOp.andi x v reducesTo_S11x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v13 main_v16
-- ==== Kernel.lean ====
abbrev S100000x11 : Shape := ⟨2, ![100000, 11]⟩
abbrev S2x1600000 : Shape := ⟨2, ![2, 1600000]⟩
abbrev S100000 : Shape := ⟨1, ![100000]⟩
abbrev S11x128 : Shape := ⟨2, ![11, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x11 : Shape := ⟨2, ![1600000, 11]⟩
abbrev S100000x128 : Shape := ⟨2, ![100000, 128]⟩
abbrev S5000x11 : Shape := ⟨2, ![5000, 11]⟩
abbrev S5000x128 : Shape := ⟨2, ![5000, 128]⟩
abbrev S1x128 : Shape := ⟨2, ![1, 128]⟩
abbrev S1600000x128 : Shape := ⟨2, ![1600000, 128]⟩
abbrev S2048x128 : Shape := ⟨2, ![2048, 128]⟩
abbrev S100000x1 : Shape := ⟨2, ![100000, 1]⟩
abbrev S2048x1 : Shape := ⟨2, ![2048, 1]⟩
abbrev S1x1 : Shape := ⟨2, ![1, 1]⟩

abbrev nBuf : Space → Nat
  | .hbm => 82
  | .vmem => 48
  | .smem => 0
  | _ => 0

abbrev bufTy : (tb : Table) → Fin (tcTables nBuf tb) → BufTy
  | .hbm, ⟨0, _⟩ => ⟨S100000x11, .f32⟩
  | .hbm, ⟨1, _⟩ => ⟨S2x1600000, .i32⟩
  | .hbm, ⟨2, _⟩ => ⟨S100000, .i32⟩
  | .hbm, ⟨3, _⟩ => ⟨S11x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S128x128, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S128x128, .f32⟩
  | .hbm, ⟨26, _⟩ => ⟨S128, .f32⟩
  | .hbm, ⟨27, _⟩ => ⟨S128x128, .f32⟩
  | .hbm, ⟨28, _⟩ => ⟨S128, .f32⟩
  | .hbm, ⟨29, _⟩ => ⟨S128x1, .f32⟩
  | .hbm, ⟨30, _⟩ => ⟨S1, .f32⟩
  | .hbm, ⟨31, _⟩ => ⟨S1x1600000, .i32⟩
  | .hbm, ⟨32, _⟩ => ⟨S1600000, .i32⟩
  | .hbm, ⟨33, _⟩ => ⟨S1x1600000, .i32⟩
  | .hbm, ⟨34, _⟩ => ⟨S1600000, .i32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x11, .f32⟩
  | .hbm, ⟨44, _⟩ => ⟨S_, .f32⟩
  | .hbm, ⟨45, _⟩ => ⟨S100000x11, .f32⟩
  | .hbm, ⟨46, _⟩ => ⟨S1600000x1, .i32⟩
  | .hbm, ⟨47, _⟩ => ⟨S100000x11, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000x128, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x128, .f32⟩
  | .hbm, ⟨72, _⟩ => ⟨S_, .f32⟩
  | .hbm, ⟨73, _⟩ => ⟨S100000x128, .f32⟩
  | .hbm, ⟨74, _⟩ => ⟨S1600000x1, .i32⟩
  | .hbm, ⟨75, _⟩ => ⟨S100000x128, .f32⟩
  | .hbm, ⟨76, _⟩ => ⟨S100000x128, .f32⟩
  | .hbm, ⟨77, _⟩ => ⟨S_, .f32⟩
  | .hbm, ⟨78, _⟩ => ⟨S2048x128, .f32⟩
  | .hbm, ⟨79, _⟩ => ⟨S100000x1, .i32⟩
  | .hbm, ⟨80, _⟩ => ⟨S2048x128, .f32⟩
  | .hbm, ⟨81, _⟩ => ⟨S2048x1, .f32⟩
  | .local _ .vmem, ⟨0, _⟩ => ⟨S5000x11, .f32⟩
  | .local _ .vmem, ⟨1, _⟩ => ⟨S5000x11, .f32⟩
  | .local _ .vmem, ⟨2, _⟩ => ⟨S5000x11, .f32⟩
  | .local _ .vmem, ⟨3, _⟩ => ⟨S5000x11, .f32⟩
  | .local _ .vmem, ⟨4, _⟩ => ⟨S11x128, .f32⟩
  | .local _ .vmem, ⟨5, _⟩ => ⟨S128, .f32⟩
  | .local _ .vmem, ⟨6, _⟩ => ⟨S128, .f32⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S128, .f32⟩
  | .local _ .vmem, ⟨20, _⟩ => ⟨S128, .f32⟩
  | .local _ .vmem, ⟨21, _⟩ => ⟨S128, .f32⟩
  | .local _ .vmem, ⟨22, _⟩ => ⟨S128, .f32⟩
  | .local _ .vmem, ⟨23, _⟩ => ⟨S128, .f32⟩
  | .local _ .vmem, ⟨24, _⟩ => ⟨S128x128, .f32⟩
  | .local _ .vmem, ⟨25, _⟩ => ⟨S128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x128, .f32⟩
  | .local _ .vmem, ⟨33, _⟩ => ⟨S128, .f32⟩
  | .local _ .vmem, ⟨34, _⟩ => ⟨S128, .f32⟩
  | .local _ .vmem, ⟨35, _⟩ => ⟨S128, .f32⟩
  | .local _ .vmem, ⟨36, _⟩ => ⟨S128, .f32⟩
  | .local _ .vmem, ⟨37, _⟩ => ⟨S128, .f32⟩
  | .local _ .vmem, ⟨38, _⟩ => ⟨S128x128, .f32⟩
  | .local _ .vmem, ⟨39, _⟩ => ⟨S128, .f32⟩
  | .local _ .vmem, ⟨40, _⟩ => ⟨S5000x128, .f32⟩
  | .local _ .vmem, ⟨41, _⟩ => ⟨S5000x128, .f32⟩
  | .local _ .vmem, ⟨42, _⟩ => ⟨S2048x128, .f32⟩
  | .local _ .vmem, ⟨43, _⟩ => ⟨S128x128, .f32⟩
  | .local _ .vmem, ⟨44, _⟩ => ⟨S128, .f32⟩
  | .local _ .vmem, ⟨45, _⟩ => ⟨S128x1, .f32⟩
  | .local _ .vmem, ⟨46, _⟩ => ⟨S1, .f32⟩
  | .local _ .vmem, ⟨47, _⟩ => ⟨S2048x1, .f32⟩
  | _, _ => ⟨S100000x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_c : Ref sig .tc := ⟨.hbm, 35, rfl⟩
abbrev main_v4 : Ref sig .tc := ⟨.hbm, 36, rfl⟩
abbrev main_v5 : Ref sig .tc := ⟨.hbm, 37, rfl⟩
abbrev main_c_0 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_cst : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_c_1 : Ref sig .tc := ⟨.hbm, 49, rfl⟩
abbrev main_v15 : Ref sig .tc := ⟨.hbm, 50, rfl⟩
abbrev main_v16 : Ref sig .tc := ⟨.hbm, 51, rfl⟩
abbrev main_c_2 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_cst_3 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_c_4 : Ref sig .tc := ⟨.hbm, 63, rfl⟩
abbrev main_v26 : Ref sig .tc := ⟨.hbm, 64, rfl⟩
abbrev main_v27 : Ref sig .tc := ⟨.hbm, 65, rfl⟩
abbrev main_c_5 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_cst_6 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_cst_7 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg10_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg8_0 : Ref sig .tc := ⟨.vmem, 38, rfl⟩
abbrev cc2_stg9_0 : Ref sig .tc := ⟨.vmem, 39, rfl⟩
abbrev cc2_stg10_0 : Ref sig .tc := ⟨.vmem, 40, rfl⟩
abbrev cc2_stg10_1 : Ref sig .tc := ⟨.vmem, 41, rfl⟩
abbrev cc3_stg0_0 : Ref sig .tc := ⟨.vmem, 42, rfl⟩
abbrev cc3_stg1_0 : Ref sig .tc := ⟨.vmem, 43, rfl⟩
abbrev cc3_stg2_0 : Ref sig .tc := ⟨.vmem, 44, rfl⟩
abbrev cc3_stg3_0 : Ref sig .tc := ⟨.vmem, 45, rfl⟩
abbrev cc3_stg4_0 : Ref sig .tc := ⟨.vmem, 46, rfl⟩
abbrev cc3_stg5_0 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem10_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem8_0 : DmaSem sig := 38
abbrev cc2_sem9_0 : DmaSem sig := 39
abbrev cc2_sem10_0 : DmaSem sig := 40
abbrev cc2_sem10_1 : DmaSem sig := 41
abbrev cc3_sem0_0 : DmaSem sig := 42
abbrev cc3_sem1_0 : DmaSem sig := 43
abbrev cc3_sem2_0 : DmaSem sig := 44
abbrev cc3_sem3_0 : DmaSem sig := 45
abbrev cc3_sem4_0 : DmaSem sig := 46
abbrev cc3_sem5_0 : DmaSem sig := 47

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x11 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x11 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S11x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S5000x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S2048x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S2048x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x11 : S_.BroadcastsInDim S100000x11 (![] : Fin 0 → Fin S100000x11.rank)
  inb_S5000x11_S5000x11_0_0 : ∀ a, (![0, 0] : Fin 2 → Nat) a + S5000x11.size a ≤ S5000x11.size a
  h_S5000x11 : 0 < S5000x11.numel
  shapeCasts_S5000x11_S5000x11 : S5000x11.ShapeCasts S5000x11
  inb_S11x128_S11x128_0_0 : ∀ a, (![0, 0] : Fin 2 → Nat) a + S11x128.size a ≤ S11x128.size a
  h_S11x128 : 0 < S11x128.numel
  bitsLt_bf16_f32 : FTy.bits .bf16 < FTy.bits .f32
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  shapeCasts_S5000x128_S5000x128 : S5000x128.ShapeCasts S5000x128
  bcast_S_S2048x128 : S_.BroadcastsInDim S2048x128 (![] : Fin 0 → Fin S2048x128.rank)
  bcast_S100000_S100000x1_0 : S100000.BroadcastsInDim S100000x1 (![0] : Fin 1 → Fin S100000x1.rank)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  broadcasts_S1x128_S2048x128 : S1x128.Broadcasts S2048x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  gather_S100000x11_S1600000x1_S1600000x11_1_0_n_n_0_1_111_wf : GatherDims.WF S100000x11 S1600000x1 S1600000x11 [1] [0] [] [0] [] 1 ![1, 11]
  scatter_S100000x11_S1600000x1_S1600000x11_1_0_0_1_wf : ScatterDims.WF S100000x11 S1600000x1 S1600000x11 [1] [0] [0] 1
  dot_S5000x11_S11x128_S5000x128_1_0_0_1_n_n_wf : DotDims.WF S5000x11 S11x128 S5000x128 [1] [0] [0] [1] [] []
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S2048x128_S100000x1_S100000x128_1_0_0_1_wf : ScatterDims.WF S2048x128 S100000x1 S100000x128 [1] [0] [0] 1
  dot_S2048x128_S128x128_S2048x128_1_0_0_1_n_n_wf : DotDims.WF S2048x128 S128x128 S2048x128 [1] [0] [0] [1] [] []
  dot_S2048x128_S128x1_S2048x1_1_0_0_1_n_n_wf : DotDims.WF S2048x128 S128x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x11.size a ≤ S100000x11.size a
  hwx0_0 : ∀ i : grid0.Coords, EltTy.bits .f32 = 32 ∨ (Rect.block (s := S100000x11) S5000x11.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x11.size a ≤ S100000x11.size a
  hwx0_1 : ∀ i : grid0.Coords, EltTy.bits .f32 = 32 ∨ (Rect.block (s := S100000x11) S5000x11.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S11x128.size a ≤ S11x128.size a
  hwx0_2 : ∀ i : grid0.Coords, EltTy.bits .f32 = 32 ∨ (Rect.block (s := S11x128) S11x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x128.size a ≤ S100000x128.size a
  hwx0_10 : ∀ i : grid0.Coords, EltTy.bits .f32 = 32 ∨ (Rect.block (s := S100000x128) S5000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128.size a ≤ S128.size a
  hwx1_9 : ∀ i : grid1.Coords, EltTy.bits .f32 = 32 ∨ (Rect.block (s := S128) S128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x128.size a ≤ S100000x128.size a
  hwx1_10 : ∀ i : grid1.Coords, EltTy.bits .f32 = 32 ∨ (Rect.block (s := S100000x128) S5000x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128.size a ≤ S128.size a
  hwx2_7 : ∀ i : grid2.Coords, EltTy.bits .f32 = 32 ∨ (Rect.block (s := S128) S128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x128.size a ≤ S128x128.size a
  hwx2_8 : ∀ i : grid2.Coords, EltTy.bits .f32 = 32 ∨ (Rect.block (s := S128x128) S128x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128.size a ≤ S128.size a
  hwx2_9 : ∀ i : grid2.Coords, EltTy.bits .f32 = 32 ∨ (Rect.block (s := S128) S128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S5000x128.size a ≤ S100000x128.size a
  hwx2_10 : ∀ i : grid2.Coords, EltTy.bits .f32 = 32 ∨ (Rect.block (s := S100000x128) S5000x128.size (cc2_transform_10 i) (hinb2_10 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S2048x128.size a ≤ S2048x128.size a
  hwx3_0 : ∀ i : grid3.Coords, EltTy.bits .f32 = 32 ∨ (Rect.block (s := S2048x128) S2048x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x1.size a ≤ S128x1.size a
  hwx3_3 : ∀ i : grid3.Coords, EltTy.bits .f32 = 32 ∨ (Rect.block (s := S128x1) S128x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1.size a ≤ S1.size a
  hwx3_4 : ∀ i : grid3.Coords, EltTy.bits .f32 = 32 ∨ (Rect.block (s := S1) S1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S2048x1.size a ≤ S2048x1.size a
  hwx3_5 : ∀ i : grid3.Coords, EltTy.bits .f32 = 32 ∨ (Rect.block (s := S2048x1) S2048x1.size (cc3_transform_5 i) (hinb3_5 i)).WholeWords (EltTy.packing .f32)

variable [Facts₀]

def gather_S100000x11_S1600000x1_S1600000x11_1_0_n_n_0_1_111 : GatherDims S100000x11 S1600000x1 S1600000x11 where
  offsetDims := [1]
  collapsedSliceDims := [0]
  operandBatchingDims := []
  startIndicesBatchingDims := []
  startIndexMap := [0]
  indexVectorDim := 1
  sliceSizes := ![1, 11]
  wf := gather_S100000x11_S1600000x1_S1600000x11_1_0_n_n_0_1_111_wf
def scatter_S100000x11_S1600000x1_S1600000x11_1_0_0_1 : ScatterDims S100000x11 S1600000x1 S1600000x11 where
  updateWindowDims := [1]
  insertedWindowDims := [0]
  scatterDimsToOperandDims := [0]
  indexVectorDim := 1
  wf := scatter_S100000x11_S1600000x1_S1600000x11_1_0_0_1_wf
def dot_S5000x11_S11x128_S5000x128_1_0_0_1_n_n : DotDims S5000x11 S11x128 S5000x128 where
  lhsContracting := [1]
  rhsContracting := [0]
  lhsNonContracting := [0]
  rhsNonContracting := [1]
  lhsBatch := []
  rhsBatch := []
  wf := dot_S5000x11_S11x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S2048x128_S100000x1_S100000x128_1_0_0_1 : ScatterDims S2048x128 S100000x1 S100000x128 where
  updateWindowDims := [1]
  insertedWindowDims := [0]
  scatterDimsToOperandDims := [0]
  indexVectorDim := 1
  wf := scatter_S2048x128_S100000x1_S100000x128_1_0_0_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

abbrev win0_0 : Pipeline.Window sig grid0 :=
  Pipeline.Window.ofSpec (Memref.whole main_arg0) S5000x11.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x11.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S11x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v14) S5000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v14) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg14) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg15) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg16) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg17) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg18) S128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v25) S5000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v25) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg19) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg20) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg21) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg22) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg23) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg24) S128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg25) S128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg26) S128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v36) S5000x128.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v39) S2048x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg27) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg28) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg29) S128x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg30) S1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v40) S2048x1.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x11 : Shape := ⟨2, ![100000, 11]⟩
abbrev S2x1600000 : Shape := ⟨2, ![2, 1600000]⟩
abbrev S100000 : Shape := ⟨1, ![100000]⟩
abbrev S11x128 : Shape := ⟨2, ![11, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x11 : Shape := ⟨2, ![1600000, 11]⟩
abbrev S100000x128 : Shape := ⟨2, ![100000, 128]⟩
abbrev S1x128 : Shape := ⟨2, ![1, 128]⟩
abbrev S1600000x128 : Shape := ⟨2, ![1600000, 128]⟩
abbrev S2048x128 : Shape := ⟨2, ![2048, 128]⟩
abbrev S100000x1 : Shape := ⟨2, ![100000, 1]⟩
abbrev S2048x1 : Shape := ⟨2, ![2048, 1]⟩
abbrev S1x1 : Shape := ⟨2, ![1, 1]⟩

abbrev nBuf : Space → Nat
  | .hbm => 182
  | .vmem => 0
  | .smem => 0
  | _ => 0

abbrev hbmTy0_0 (i : Nat) : BufTy := match i % 128 with
  | 0 => ⟨S100000x11, .f32⟩
  | 1 => ⟨S2x1600000, .i32⟩
  | 2 => ⟨S100000, .i32⟩
  | 3 => ⟨S11x128, .f32⟩
  | 4 => ⟨S128, .f32⟩
  | 5 => ⟨S128, .f32⟩
  | 6 => ⟨S128, .f32⟩
  | 7 => ⟨S128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128, .f32⟩
  | 14 => ⟨S128, .f32⟩
  | 15 => ⟨S128, .f32⟩
  | 16 => ⟨S128, .f32⟩
  | 17 => ⟨S128x128, .f32⟩
  | 18 => ⟨S128, .f32⟩
  | 19 => ⟨S128x128, .f32⟩
  | 20 => ⟨S128, .f32⟩
  | 21 => ⟨S128, .f32⟩
  | 22 => ⟨S128, .f32⟩
  | 23 => ⟨S128, .f32⟩
  | 24 => ⟨S128, .f32⟩
  | 25 => ⟨S128x128, .f32⟩
  | 26 => ⟨S128, .f32⟩
  | 27 => ⟨S128x128, .f32⟩
  | 28 => ⟨S128, .f32⟩
  | 29 => ⟨S128x1, .f32⟩
  | 30 => ⟨S1, .f32⟩
  | 31 => ⟨S1x1600000, .i32⟩
  | 32 => ⟨S1600000, .i32⟩
  | 33 => ⟨S1x1600000, .i32⟩
  | 34 => ⟨S1600000, .i32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000x11, .f32⟩
  | 44 => ⟨S_, .f32⟩
  | 45 => ⟨S100000x11, .f32⟩
  | 46 => ⟨S1600000x1, .i32⟩
  | 47 => ⟨S100000x11, .f32⟩
  | 48 => ⟨S100000x11, .f32⟩
  | 49 => ⟨S100000x128, .f32⟩
  | 50 => ⟨S1x128, .f32⟩
  | 51 => ⟨S100000x128, .f32⟩
  | 52 => ⟨S100000x128, .f32⟩
  | 53 => ⟨S1x128, .f32⟩
  | 54 => ⟨S100000x128, .f32⟩
  | 55 => ⟨S100000x128, .f32⟩
  | 56 => ⟨S_, .f32⟩
  | 57 => ⟨S128, .f32⟩
  | 58 => ⟨S128, .f32⟩
  | 59 => ⟨S128, .f32⟩
  | 60 => ⟨S128, .f32⟩
  | 61 => ⟨S1x128, .f32⟩
  | 62 => ⟨S100000x128, .f32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S100000x128, .f32⟩
  | 71 => ⟨S1x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S_, .f32⟩
  | 78 => ⟨S100000x128, .f32⟩
  | 79 => ⟨S100000x128, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000x128, .f32⟩
  | 89 => ⟨S_, .f32⟩
  | 90 => ⟨S100000x128, .f32⟩
  | 91 => ⟨S1600000x1, .i32⟩
  | 92 => ⟨S100000x128, .f32⟩
  | 93 => ⟨S100000x128, .f32⟩
  | 94 => ⟨S100000x128, .f32⟩
  | 95 => ⟨S1x128, .f32⟩
  | 96 => ⟨S100000x128, .f32⟩
  | 97 => ⟨S100000x128, .f32⟩
  | 98 => ⟨S1x128, .f32⟩
  | 99 => ⟨S100000x128, .f32⟩
  | 100 => ⟨S100000x128, .f32⟩
  | 101 => ⟨S_, .f32⟩
  | 102 => ⟨S128, .f32⟩
  | 103 => ⟨S128, .f32⟩
  | 104 => ⟨S128, .f32⟩
  | 105 => ⟨S128, .f32⟩
  | 106 => ⟨S1x128, .f32⟩
  | 107 => ⟨S100000x128, .f32⟩
  | 108 => ⟨S100000x128, .f32⟩
  | 109 => ⟨S1x128, .f32⟩
  | 110 => ⟨S100000x128, .f32⟩
  | 111 => ⟨S100000x128, .f32⟩
  | 112 => ⟨S_, .f32⟩
  | 113 => ⟨S100000x128, .f32⟩
  | 114 => ⟨S100000x128, .f32⟩
  | 115 => ⟨S100000x128, .f32⟩
  | 116 => ⟨S1x128, .f32⟩
  | 117 => ⟨S100000x128, .f32⟩
  | 118 => ⟨S100000x128, .f32⟩
  | 119 => ⟨S_, .f32⟩
  | 120 => ⟨S100000x128, .f32⟩
  | 121 => ⟨S100000x128, .f32⟩
  | 122 => ⟨S_, .f32⟩
  | 123 => ⟨S100000x128, .f32⟩
  | 124 => ⟨S100000x128, .f32⟩
  | 125 => ⟨S_, .i32⟩
  | 126 => ⟨S1600000, .i32⟩
  | 127 => ⟨S1600000, .i1⟩
  | _ => ⟨S100000x11, .f32⟩

abbrev hbmTy0_1 (i : Nat) : BufTy := match i % 128 with
  | 0 => ⟨S_, .i32⟩
  | 1 => ⟨S1600000, .i32⟩
  | 2 => ⟨S1600000, .i32⟩
  | 3 => ⟨S1600000, .i32⟩
  | 4 => ⟨S1600000x1, .i32⟩
  | 5 => ⟨S1600000x128, .f32⟩
  | 6 => ⟨S_, .f32⟩
  | 7 => ⟨S100000x128, .f32⟩
  | 8 => ⟨S1600000x1, .i32⟩
  | 9 => ⟨S100000x128, .f32⟩
  | 10 => ⟨S100000x128, .f32⟩
  | 11 => ⟨S100000x128, .f32⟩
  | 12 => ⟨S1x128, .f32⟩
  | 13 => ⟨S100000x128, .f32⟩
  | 14 => ⟨S100000x128, .f32⟩
  | 15 => ⟨S1x128, .f32⟩
  | 16 => ⟨S100000x128, .f32⟩
  | 17 => ⟨S100000x128, .f32⟩
  | 18 => ⟨S_, .f32⟩
  | 19 => ⟨S128, .f32⟩
  | 20 => ⟨S128, .f32⟩
  | 21 => ⟨S128, .f32⟩
  | 22 => ⟨S128, .f32⟩
  | 23 => ⟨S1x128, .f32⟩
  | 24 => ⟨S100000x128, .f32⟩
  | 25 => ⟨S100000x128, .f32⟩
  | 26 => ⟨S1x128, .f32⟩
  | 27 => ⟨S100000x128, .f32⟩
  | 28 => ⟨S100000x128, .f32⟩
  | 29 => ⟨S_, .f32⟩
  | 30 => ⟨S100000x128, .f32⟩
  | 31 => ⟨S100000x128, .f32⟩
  | 32 => ⟨S100000x128, .f32⟩
  | 33 => ⟨S1x128, .f32⟩
  | 34 => ⟨S100000x128, .f32⟩
  | 35 => ⟨S100000x128, .f32⟩
  | 36 => ⟨S_, .f32⟩
  | 37 => ⟨S100000x128, .f32⟩
  | 38 => ⟨S100000x128, .f32⟩
  | 39 => ⟨S_, .f32⟩
  | 40 => ⟨S2048x128, .f32⟩
  | 41 => ⟨S100000x1, .i32⟩
  | 42 => ⟨S2048x128, .f32⟩
  | 43 => ⟨S2048x128, .f32⟩
  | 44 => ⟨S1x128, .f32⟩
  | 45 => ⟨S2048x128, .f32⟩
  | 46 => ⟨S2048x128, .f32⟩
  | 47 => ⟨S_, .f32⟩
  | 48 => ⟨S2048x128, .f32⟩
  | 49 => ⟨S2048x128, .f32⟩
  | 50 => ⟨S2048x1, .f32⟩
  | 51 => ⟨S1x1, .f32⟩
  | 52 => ⟨S2048x1, .f32⟩
  | 53 => ⟨S2048x1, .f32⟩
  | _ => ⟨S100000x11, .f32⟩

abbrev hbmTy (i : Nat) : BufTy := match i / 128 with
  | 0 => hbmTy0_0 i
  | 1 => hbmTy0_1 i
  | _ => ⟨S100000x11, .f32⟩

abbrev bufTy : (tb : Table) → Fin (tcTables nBuf tb) → BufTy
  | .hbm, ⟨i, _⟩ => hbmTy i
  | _, _ => ⟨S100000x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_c : Ref sig .tc := ⟨.hbm, 35, rfl⟩
abbrev main_v4 : Ref sig .tc := ⟨.hbm, 36, rfl⟩
abbrev main_v5 : Ref sig .tc := ⟨.hbm, 37, rfl⟩
abbrev main_c_0 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_cst : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_cst_1 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_call0_cst : Ref sig .tc := ⟨.hbm, 67, rfl⟩
abbrev main_call0_v0 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_call1_cst : Ref sig .tc := ⟨.hbm, 74, rfl⟩
abbrev main_call1_v0 : Ref sig .tc := ⟨.hbm, 75, rfl⟩
abbrev main_v37 : Ref sig .tc := ⟨.hbm, 76, rfl⟩
abbrev main_call2_cst : Ref sig .tc := ⟨.hbm, 77, rfl⟩
abbrev main_call2_v0 : Ref sig .tc := ⟨.hbm, 78, rfl⟩
abbrev main_v38 : Ref sig .tc := ⟨.hbm, 79, rfl⟩
abbrev main_c_2 : Ref sig .tc := ⟨.hbm, 80, rfl⟩
abbrev main_v39 : Ref sig .tc := ⟨.hbm, 81, rfl⟩
abbrev main_v40 : Ref sig .tc := ⟨.hbm, 82, rfl⟩
abbrev main_c_3 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_cst_4 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_cst_5 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_call3_cst : Ref sig .tc := ⟨.hbm, 112, rfl⟩
abbrev main_call3_v0 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_call4_cst : Ref sig .tc := ⟨.hbm, 119, rfl⟩
abbrev main_call4_v0 : Ref sig .tc := ⟨.hbm, 120, rfl⟩
abbrev main_v72 : Ref sig .tc := ⟨.hbm, 121, rfl⟩
abbrev main_call5_cst : Ref sig .tc := ⟨.hbm, 122, rfl⟩
abbrev main_call5_v0 : Ref sig .tc := ⟨.hbm, 123, rfl⟩
abbrev main_v73 : Ref sig .tc := ⟨.hbm, 124, rfl⟩
abbrev main_c_6 : Ref sig .tc := ⟨.hbm, 125, rfl⟩
abbrev main_v74 : Ref sig .tc := ⟨.hbm, 126, rfl⟩
abbrev main_v75 : Ref sig .tc := ⟨.hbm, 127, rfl⟩
abbrev main_c_7 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_cst_8 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_cst_9 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_call6_cst : Ref sig .tc := ⟨.hbm, 157, rfl⟩
abbrev main_call6_v0 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_call7_cst : Ref sig .tc := ⟨.hbm, 164, rfl⟩
abbrev main_call7_v0 : Ref sig .tc := ⟨.hbm, 165, rfl⟩
abbrev main_v107 : Ref sig .tc := ⟨.hbm, 166, rfl⟩
abbrev main_cst_10 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_call8_cst : Ref sig .tc := ⟨.hbm, 175, rfl⟩
abbrev main_call8_v0 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x11 : S_.BroadcastsInDim S100000x11 (![] : Fin 0 → Fin S100000x11.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S_S100000x128 : S_.BroadcastsInDim S100000x128 (![] : Fin 0 → Fin S100000x128.rank)
  bcast_S_S2048x128 : S_.BroadcastsInDim S2048x128 (![] : Fin 0 → Fin S2048x128.rank)
  bcast_S100000_S100000x1_0 : S100000.BroadcastsInDim S100000x1 (![0] : Fin 1 → Fin S100000x1.rank)
  bcast_S1x128_S2048x128_0_1 : S1x128.BroadcastsInDim S2048x128 (![0, 1] : Fin 2 → Fin S2048x128.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  gather_S100000x11_S1600000x1_S1600000x11_1_0_n_n_0_1_111_wf : GatherDims.WF S100000x11 S1600000x1 S1600000x11 [1] [0] [] [0] [] 1 ![1, 11]
  scatter_S100000x11_S1600000x1_S1600000x11_1_0_0_1_wf : ScatterDims.WF S100000x11 S1600000x1 S1600000x11 [1] [0] [0] 1
  dot_S100000x11_S11x128_S100000x128_1_0_0_1_n_n_wf : DotDims.WF S100000x11 S11x128 S100000x128 [1] [0] [0] [1] [] []
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S2048x128_S100000x1_S100000x128_1_0_0_1_wf : ScatterDims.WF S2048x128 S100000x1 S100000x128 [1] [0] [0] 1
  dot_S2048x128_S128x128_S2048x128_1_0_0_1_n_n_wf : DotDims.WF S2048x128 S128x128 S2048x128 [1] [0] [0] [1] [] []
  dot_S2048x128_S128x1_S2048x1_1_0_0_1_n_n_wf : DotDims.WF S2048x128 S128x1 S2048x1 [1] [0] [0] [1] [] []

variable [Facts₀]

def gather_S100000x11_S1600000x1_S1600000x11_1_0_n_n_0_1_111 : GatherDims S100000x11 S1600000x1 S1600000x11 where
  offsetDims := [1]
  collapsedSliceDims := [0]
  operandBatchingDims := []
  startIndicesBatchingDims := []
  startIndexMap := [0]
  indexVectorDim := 1
  sliceSizes := ![1, 11]
  wf := gather_S100000x11_S1600000x1_S1600000x11_1_0_n_n_0_1_111_wf
def scatter_S100000x11_S1600000x1_S1600000x11_1_0_0_1 : ScatterDims S100000x11 S1600000x1 S1600000x11 where
  updateWindowDims := [1]
  insertedWindowDims := [0]
  scatterDimsToOperandDims := [0]
  indexVectorDim := 1
  wf := scatter_S100000x11_S1600000x1_S1600000x11_1_0_0_1_wf
def dot_S100000x11_S11x128_S100000x128_1_0_0_1_n_n : DotDims S100000x11 S11x128 S100000x128 where
  lhsContracting := [1]
  rhsContracting := [0]
  lhsNonContracting := [0]
  rhsNonContracting := [1]
  lhsBatch := []
  rhsBatch := []
  wf := dot_S100000x11_S11x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S2048x128_S100000x1_S100000x128_1_0_0_1 : ScatterDims S2048x128 S100000x1 S100000x128 where
  updateWindowDims := [1]
  insertedWindowDims := [0]
  scatterDimsToOperandDims := [0]
  indexVectorDim := 1
  wf := scatter_S2048x128_S100000x1_S100000x128_1_0_0_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

class Facts : Prop extends Facts₀ where

variable [Facts]
-- ==== Proof.RunValue.lean ====
/-
  The idealized kernel's run with its result named.

  @main is eight segments: four stretches of host operations (index arithmetic, the row gather and the
  scatter-add of each layer, the pooling scatter-add) alternating with the four kernel regions. The contents
  of every unscoped buffer at the end of the last segment is the fold `W8` of those segments over the launch
  memory. The frame forgets everything but the arguments; here the same launch is read once more with the
  whole final valuation kept, and the result buffer and the arguments are then read off it.
-/
import proofs.«175696_j22084721836226_1_alg».proof.Proof.Gen.KernelIdeal.Frame

set_option maxRecDepth 16384

noncomputable section

namespace Cert.Gin.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at
    the last boundary's contents. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The same run with the result buffer named — it ends at the last boundary's contents of the head region's
    output array — and the arguments as launched. -/
theorem run_value : θ_run defs (onTc (τ := τ) (main (F := F))) ⟨m, fun _ => 0, ρ⟩ (fun r => ∀ c : Dev nD,
      r.2.mem ((c.tc : Thread nD τ).loc main_v40) = W8 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  (θ_run defs _ _).mono (fun r h c =>
    ⟨h c _ (mem_uc main_v40 (by decide)),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c),
     (h c _ (mem_uc main_arg10 (by decide))).trans (W8_main_arg10 m ρ c),
     (h c _ (mem_uc main_arg11 (by decide))).trans (W8_main_arg11 m ρ c),
     (h c _ (mem_uc main_arg12 (by decide))).trans (W8_main_arg12 m ρ c),
     (h c _ (mem_uc main_arg13 (by decide))).trans (W8_main_arg13 m ρ c),
     (h c _ (mem_uc main_arg14 (by decide))).trans (W8_main_arg14 m ρ c),
     (h c _ (mem_uc main_arg15 (by decide))).trans (W8_main_arg15 m ρ c),
     (h c _ (mem_uc main_arg16 (by decide))).trans (W8_main_arg16 m ρ c),
     (h c _ (mem_uc main_arg17 (by decide))).trans (W8_main_arg17 m ρ c),
     (h c _ (mem_uc main_arg18 (by decide))).trans (W8_main_arg18 m ρ c),
     (h c _ (mem_uc main_arg19 (by decide))).trans (W8_main_arg19 m ρ c),
     (h c _ (mem_uc main_arg20 (by decide))).trans (W8_main_arg20 m ρ c),
     (h c _ (mem_uc main_arg21 (by decide))).trans (W8_main_arg21 m ρ c),
     (h c _ (mem_uc main_arg22 (by decide))).trans (W8_main_arg22 m ρ c),
     (h c _ (mem_uc main_arg23 (by decide))).trans (W8_main_arg23 m ρ c),
     (h c _ (mem_uc main_arg24 (by decide))).trans (W8_main_arg24 m ρ c),
     (h c _ (mem_uc main_arg25 (by decide))).trans (W8_main_arg25 m ρ c),
     (h c _ (mem_uc main_arg26 (by decide))).trans (W8_main_arg26 m ρ c),
     (h c _ (mem_uc main_arg27 (by decide))).trans (W8_main_arg27 m ρ c),
     (h c _ (mem_uc main_arg28 (by decide))).trans (W8_main_arg28 m ρ c),
     (h c _ (mem_uc main_arg29 (by decide))).trans (W8_main_arg29 m ρ c),
     (h c _ (mem_uc main_arg30 (by decide))).trans (W8_main_arg30 m ρ c)⟩)
    (run_boundary m ρ)

end Cert.Gin.Run

end
-- ==== Proof.Spec.lean ====
/-
  The mathematics both programs compute, stated once over the extended reals and over literal extents.

  One GIN layer sends a node's feature row `h r` and its neighbour sum `agg r` through
  Linear → BatchNorm (running statistics) → ReLU → Linear → ReLU:
    x j      = h r j + agg r j
    hidden k = max ((((∑ j, x j · Wa j k) + ba k) − mu k) · (g k · rsqrt (v k + ε)) + be k) 0
    out q    = max ((∑ k, hidden k · Wb k q) + bb q) 0.
  The read-out head sends a pooled row through Linear → ReLU → Linear:
    out q = (∑ k, max ((∑ j, p j · W1 j k) + b1 k) 0 · W2 k q) + b2 q.
  ReLU is `max · 0`, so applying it twice is applying it once: a layer's output is its own ReLU.
  The zero and ε are kept as the float words both programs print; neither is ever evaluated.
-/
import Idealize.ShloMosaic.PureOps.Ideal
import Idealize.ShloMosaic.Lib.ValueIdx

noncomputable section

namespace Cert.Gin

open Idealize.ShloMosaic Idealize.ShloMosaic.ValueIdx
open scoped BigOperators

/-- The float word of 0, as an extended real. -/
abbrev zeroF : EReal := Ideal.ofBits .f32 0x00000000#32
/-- The float word of the batch-norm ε (the f32 nearest 1e-5), as an extended real. -/
abbrev epsF : EReal := Ideal.ofBits .f32 0x3727C5AC#32

/-- An `a × b` array of extended reals, indexed as both programs index their 2-D arrays. -/
abbrev Mat (a b : ℕ) := (⟨2, ![a, b]⟩ : Shape).Idx → EReal
/-- A length-`n` vector of extended reals. -/
abbrev Vct (n : ℕ) := (⟨1, ![n]⟩ : Shape).Idx → EReal

/-- Hidden unit `k` of a layer: Linear, BatchNorm with running statistics, ReLU, of the input row `x`. -/
def hidden {D : ℕ} (x : Fin D → EReal) (Wa : Mat D 128) (ba g be mu v : Vct 128) (k : Fin 128) : EReal :=
  max ((((∑ j : Fin D, x j * Wa (ix2 j k)) + ba (ix1 k)) - mu (ix1 k)) * (g (ix1 k) * Ideal.rsqrt (v (ix1 k) + epsF)) + be (ix1 k)) zeroF

/-- Output unit `q` of a layer from the input row `x`: the second Linear and ReLU over the hidden units. -/
def mlpAt {D : ℕ} (x : Fin D → EReal) (Wa : Mat D 128) (ba g be mu v : Vct 128) (Wb : Mat 128 128) (bb : Vct 128)
    (q : Fin 128) : EReal :=
  max ((∑ k : Fin 128, hidden x Wa ba g be mu v k * Wb (ix2 k q)) + bb (ix1 q)) zeroF

/-- A whole layer: row `r` of the result is the layer's output of `h r + agg r`. -/
def MLP {D : ℕ} (h agg : Mat 100000 D) (Wa : Mat D 128) (ba g be mu v : Vct 128) (Wb : Mat 128 128) (bb : Vct 128) :
    Mat 100000 128 :=
  fun i => mlpAt (fun j => h (ix2 (i 0) j) + agg (ix2 (i 0) j)) Wa ba g be mu v Wb bb (i 1)

/-- Output unit `q` of the read-out head from the pooled row `p`. -/
def headAt (p : Fin 128 → EReal) (W1 : Mat 128 128) (b1 : Vct 128) (W2 : Mat 128 1) (b2 : Vct 1) (q : Fin 1) : EReal :=
  (∑ k : Fin 128, max ((∑ j : Fin 128, p j * W1 (ix2 j k)) + b1 (ix1 k)) zeroF * W2 (ix2 k q)) + b2 (ix1 q)

/-- The whole head: row `r` of the result is the head's output of pooled row `r`. -/
def HEAD (p : Mat 2048 128) (W1 : Mat 128 128) (b1 : Vct 128) (W2 : Mat 128 1) (b2 : Vct 1) : Mat 2048 1 :=
  fun i => headAt (fun j => p (ix2 (i 0) j)) W1 b1 W2 b2 (i 1)

/-- ReLU twice is ReLU once. -/
theorem relu_idem (x : EReal) : max (max x zeroF) zeroF = max x zeroF := by
  rw [max_assoc, max_self]

/-- A layer's output is already non-negative: its ReLU is itself. -/
theorem MLP_relu {D : ℕ} (h agg : Mat 100000 D) (Wa : Mat D 128) (ba g be mu v : Vct 128) (Wb : Mat 128 128) (bb : Vct 128)
    (i : (⟨2, ![100000, 128]⟩ : Shape).Idx) :
    max (MLP h agg Wa ba g be mu v Wb bb i) zeroF = MLP h agg Wa ba g be mu v Wb bb i := by
  unfold MLP mlpAt
  exact relu_idem _

end Cert.Gin

end
-- ==== Proof.Net.lean ====
/-
  The whole network as one function of the 31 argument arrays.

  Between the dense layers both programs run the same host operations: the source indices (wrapped when
  negative) gather neighbour rows, and a scatter-add over the destination indices sums them per node; after
  the third layer a scatter-add over the graph ids pools node rows per graph. Which element such an operation
  reads depends on the index arrays' values, so they are never opened here: each is one function of the
  feature array and the index array, the same on both sides. The network is then
    H1 = layer (x, neighbour-sum x), H2 = layer (H1, neighbour-sum H1), H3 = layer (H2, neighbour-sum H2),
    result = head (pool H3).
-/
import proofs.«175696_j22084721836226_1_alg».proof.Proof.Gen.ReferenceIdeal.Read
import proofs.«175696_j22084721836226_1_alg».proof.Proof.Spec

set_option maxRecDepth 16384

noncomputable section

namespace Cert.Gin.Net

open Cert.ReferenceIdeal Cert.ReferenceIdeal.Read Idealize.ShloMosaic

/-- A float array of shape `S` at the ideal instance. -/
abbrev F32 (S : Shape) := FVec Ideal S .f32
/-- An index array of shape `S`. -/
abbrev I32 (S : Shape) := IVec S 32

/-- Neighbour sum of width-11 rows: gather the source rows of `h`, scatter-add them at the destinations. -/
def agg11 (h : F32 S100000x11) (e : I32 S2x1600000) : F32 S100000x11 :=
  Host.scatterAdd (F := Ideal) (φ := .f32) scatter_S100000x11_S1600000x1_S1600000x11_1_0_0_1 (val_main_v11 (F := Ideal)) (val_main_v12 (F := Ideal) e)
    (Host.gather (α := EReal) gather_S100000x11_S1600000x1_S1600000x11_1_0_n_n_0_1_111 h (val_main_v9 (F := Ideal) e))

/-- Neighbour sum of width-128 rows. -/
def agg128 (h : F32 S100000x128) (e : I32 S2x1600000) : F32 S100000x128 :=
  Host.scatterAdd (F := Ideal) (φ := .f32) scatter_S100000x128_S1600000x1_S1600000x128_1_0_0_1 (val_main_v46 (F := Ideal)) (val_main_v47 (F := Ideal) e)
    (Host.gather (α := EReal) gather_S100000x128_S1600000x1_S1600000x128_1_0_n_n_0_1_1128 h (val_main_v44 (F := Ideal) e))

/-- Per-graph pooling: scatter-add the node rows at their graph ids. -/
def pool (h : F32 S100000x128) (b : I32 S100000) : F32 S2048x128 :=
  Host.scatterAdd (F := Ideal) (φ := .f32) scatter_S2048x128_S100000x1_S100000x128_1_0_0_1 (val_main_v108 (F := Ideal)) (val_main_v109 (F := Ideal) b) h

/-- The first layer's output. -/
def H1 (x0 : F32 S100000x11) (x1 : I32 S2x1600000) (x3 : F32 S11x128) (x4 x5 x6 x7 x8 : F32 S128) (x9 : F32 S128x128) (x10 : F32 S128) : F32 S100000x128 :=
  Cert.Gin.MLP x0 (agg11 x0 x1) x3 x4 x5 x6 x7 x8 x9 x10
/-- The second layer's output. -/
def H2 (x0 : F32 S100000x11) (x1 : I32 S2x1600000) (x3 : F32 S11x128) (x4 x5 x6 x7 x8 : F32 S128) (x9 : F32 S128x128) (x10 : F32 S128) (x11 : F32 S128x128) (x12 x13 x14 x15 x16 : F32 S128) (x17 : F32 S128x128) (x18 : F32 S128) : F32 S100000x128 :=
  Cert.Gin.MLP (H1 x0 x1 x3 x4 x5 x6 x7 x8 x9 x10) (agg128 (H1 x0 x1 x3 x4 x5 x6 x7 x8 x9 x10) x1) x11 x12 x13 x14 x15 x16 x17 x18
/-- The third layer's output. -/
def H3 (x0 : F32 S100000x11) (x1 : I32 S2x1600000) (x3 : F32 S11x128) (x4 x5 x6 x7 x8 : F32 S128) (x9 : F32 S128x128) (x10 : F32 S128) (x11 : F32 S128x128) (x12 x13 x14 x15 x16 : F32 S128) (x17 : F32 S128x128) (x18 : F32 S128) (x19 : F32 S128x128) (x20 x21 x22 x23 x24 : F32 S128) (x25 : F32 S128x128) (x26 : F32 S128) : F32 S100000x128 :=
  Cert.Gin.MLP (H2 x0 x1 x3 x4 x5 x6 x7 x8 x9 x10 x11 x12 x13 x14 x15 x16 x17 x18) (agg128 (H2 x0 x1 x3 x4 x5 x6 x7 x8 x9 x10 x11 x12 x13 x14 x15 x16 x17 x18) x1) x19 x20 x21 x22 x23 x24 x25 x26
/-- The network's result. -/
def net (x0 : F32 S100000x11) (x1 : I32 S2x1600000) (x2 : I32 S100000) (x3 : F32 S11x128) (x4 x5 x6 x7 x8 : F32 S128) (x9 : F32 S128x128) (x10 : F32 S128) (x11 : F32 S128x128) (x12 x13 x14 x15 x16 : F32 S128) (x17 : F32 S128x128) (x18 : F32 S128) (x19 : F32 S128x128) (x20 x21 x22 x23 x24 : F32 S128) (x25 : F32 S128x128) (x26 : F32 S128) (x27 : F32 S128x128) (x28 : F32 S128) (x29 : F32 S128x1) (x30 : F32 S1) : F32 S2048x1 :=
  Cert.Gin.HEAD (pool (H3 x0 x1 x3 x4 x5 x6 x7 x8 x9 x10 x11 x12 x13 x14 x15 x16 x17 x18 x19 x20 x21 x22 x23 x24 x25 x26) x2) x27 x28 x29 x30

end Cert.Gin.Net

end
-- ==== Proof.Region0.lean ====
/-
  GIN layer 1 as one value: the array the region's 20 write-backs leave.

  The region's grid has 20 points. At point t the node features h and the neighbour sums agg (both [100000,11]) and the
  output [100000,128] are staged by rows 5000·t … 5000·t + 4999; the first weight matrix Wa [11,128], the bias ba, the
  batch-norm scale g, shift be, running mean mu and running variance v (each [128]), the second weight matrix Wb [128,128]
  and its bias bb [128] are staged whole at every point. On a block the body computes, at row p and column q,
    x j      = h p j + agg p j
    hidden k = max ((((∑ j, x j · Wa j k) + ba k) − mu k) · (g k · rsqrt (v k + ε)) + be k) 0
    out q    = max ((∑ k, hidden k · Wb k q) + bb q) 0.
  Over the extended reals the bf16 format changes are the identity and a product accumulated into a zero splat is the
  plain sum over the shared axis, so the body's result at (p, q) is the specification's `mlpAt` of row p of the two
  row-blocked inputs (`pay_apply`). Row p of block t is row 5000·t + p of the array, the blocks cover every row, and so
  the output array ends as `MLP` of the ten arrays the region finds (`value`).
-/
import proofs.«175696_j22084721836226_1_alg».proof.Proof.Gen.KernelIdeal.Frame
import proofs.«175696_j22084721836226_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gin.K0

open Cert.KernelIdeal Cert.KernelIdeal.Gen
open Idealize.ShloMosaic Idealize.ShloMosaic.ValueIdx Idealize.ShloMosaic.TcCoe Idealize.SL.Sem
open Idealize.ShloMosaic.Pipeline (Dat)
open scoped BigOperators

/-! ## The layout operations and the two products read at an index -/

/-- A length-128 vector laid as one row and repeated down 5000 rows reads, at row p and column q, its entry q. -/
theorem row_apply (v : FVec Ideal S128 .f32) (p : Fin 5000) (q : Fin 128) :
    broadcastTo S5000x128 (shapeCast S1x128 v shapeCasts_S128_S1x128) broadcasts_S1x128_S5000x128 (ix2 p q) = v (ix1 q) :=
  (broadcastTo_1b_ab_apply _ _ p q).trans (shapeCast_a_1a_apply v _ 0 q)

theorem mm1_l0 (i : S5000x128.Idx) (c : dot_S5000x11_S11x128_S5000x128_1_0_0_1_n_n.contr.Idx) : (dot_S5000x11_S11x128_S5000x128_1_0_0_1_n_n.lhsIdx i c 0).val = (i 0).val := by
  unfold DotDims.lhsIdx
  rw [dif_neg (show ¬(0 : Fin S5000x11.rank) ∈ dot_S5000x11_S11x128_S5000x128_1_0_0_1_n_n.lhsBatch by decide), dif_pos (show (0 : Fin S5000x11.rank) ∈ dot_S5000x11_S11x128_S5000x128_1_0_0_1_n_n.lhsNonContracting by decide)]
  rfl
theorem mm1_l1 (i : S5000x128.Idx) (c : dot_S5000x11_S11x128_S5000x128_1_0_0_1_n_n.contr.Idx) : (dot_S5000x11_S11x128_S5000x128_1_0_0_1_n_n.lhsIdx i c 1).val = (c ⟨0, by decide⟩).val :=
  dot_S5000x11_S11x128_S5000x128_1_0_0_1_n_n.lhsIdx_val_of_single rfl i c
theorem mm1_r0 (i : S5000x128.Idx) (c : dot_S5000x11_S11x128_S5000x128_1_0_0_1_n_n.contr.Idx) : (dot_S5000x11_S11x128_S5000x128_1_0_0_1_n_n.rhsIdx i c 0).val = (c ⟨0, by decide⟩).val :=
  dot_S5000x11_S11x128_S5000x128_1_0_0_1_n_n.rhsIdx_val_of_single rfl i c
theorem mm1_r1 (i : S5000x128.Idx) (c : dot_S5000x11_S11x128_S5000x128_1_0_0_1_n_n.contr.Idx) : (dot_S5000x11_S11x128_S5000x128_1_0_0_1_n_n.rhsIdx i c 1).val = (i 1).val := by
  unfold DotDims.rhsIdx
  rw [dif_neg (show ¬(1 : Fin S11x128.rank) ∈ dot_S5000x11_S11x128_S5000x128_1_0_0_1_n_n.rhsBatch by decide), dif_pos (show (1 : Fin S11x128.rank) ∈ dot_S5000x11_S11x128_S5000x128_1_0_0_1_n_n.rhsNonContracting by decide)]
  rfl

/-- The first product into a zero accumulator, at row p and column q: the sum over the input features. -/
theorem mm1_apply (l : FVec Ideal S5000x11 .bf16) (r : FVec Ideal S11x128 .bf16) (p : Fin 5000) (q : Fin 128) :
    matmul dot_S5000x11_S11x128_S5000x128_1_0_0_1_n_n none l r (constant (F := Ideal) S5000x128 .f32 0x00000000#32) (ix2 p q)
      = ∑ j : Fin 11, l (ix2 p j) * r (ix2 j q) := by
  refine (Ideal.matmul_constant_zero_apply dot_S5000x11_S11x128_S5000x128_1_0_0_1_n_n none l r (ix2 p q)).trans ?_
  rw [← Equiv.sum_comp (ValueIdx.contrEquiv1 dot_S5000x11_S11x128_S5000x128_1_0_0_1_n_n 11 rfl rfl).symm]
  refine Finset.sum_congr rfl fun k _ => ?_
  have hk := ValueIdx.contrEquiv1_symm_val dot_S5000x11_S11x128_S5000x128_1_0_0_1_n_n 11 rfl rfl k
  have el : dot_S5000x11_S11x128_S5000x128_1_0_0_1_n_n.lhsIdx (ix2 p q) ((ValueIdx.contrEquiv1 dot_S5000x11_S11x128_S5000x128_1_0_0_1_n_n 11 rfl rfl).symm k) = ix2 p k := funext fun a => Fin.ext (by
    match a with
    | ⟨0, _⟩ => exact mm1_l0 _ _
    | ⟨1, _⟩ => exact (mm1_l1 _ _).trans hk)
  have er : dot_S5000x11_S11x128_S5000x128_1_0_0_1_n_n.rhsIdx (ix2 p q) ((ValueIdx.contrEquiv1 dot_S5000x11_S11x128_S5000x128_1_0_0_1_n_n 11 rfl rfl).symm k) = ix2 k q := funext fun a => Fin.ext (by
    match a with
    | ⟨0, _⟩ => exact (mm1_r0 _ _).trans hk
    | ⟨1, _⟩ => exact mm1_r1 _ _)
  rw [el, er]

theorem mm2_l0 (i : S5000x128.Idx) (c : dot_S5000x128_S128x128_S5000x128_1_0_0_1_n_n.contr.Idx) : (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem mm2_l1 (i : S5000x128.Idx) (c : dot_S5000x128_S128x128_S5000x128_1_0_0_1_n_n.contr.Idx) : (dot_S5000x128_S128x128_S5000x128_1_0_0_1_n_n.lhsIdx i c 1).val = (c ⟨0, by decide⟩).val :=
  dot_S5000x128_S128x128_S5000x128_1_0_0_1_n_n.lhsIdx_val_of_single rfl i c
theorem mm2_r0 (i : S5000x128.Idx) (c : dot_S5000x128_S128x128_S5000x128_1_0_0_1_n_n.contr.Idx) : (dot_S5000x128_S128x128_S5000x128_1_0_0_1_n_n.rhsIdx i c 0).val = (c ⟨0, by decide⟩).val :=
  dot_S5000x128_S128x128_S5000x128_1_0_0_1_n_n.rhsIdx_val_of_single rfl i c
theorem mm2_r1 (i : S5000x128.Idx) (c : dot_S5000x128_S128x128_S5000x128_1_0_0_1_n_n.contr.Idx) : (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The second product into a zero accumulator, at row p and column q: the sum over the hidden units. -/
theorem mm2_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ j : Fin 128, l (ix2 p j) * r (ix2 j q) := by
  refine (Ideal.matmul_constant_zero_apply dot_S5000x128_S128x128_S5000x128_1_0_0_1_n_n none l r (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact mm2_l0 _ _
    | ⟨1, _⟩ => exact (mm2_l1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (mm2_r0 _ _).trans hk
    | ⟨1, _⟩ => exact mm2_r1 _ _)
  rw [el, er]

/-- The body's arithmetic at row p and column q of a block: the layer's output unit q of the block's row p of h + agg. -/
theorem pay_apply (x0 x1 : Vec Ideal S5000x11 .f32) (x2 : Vec Ideal S11x128 .f32) (x3 x4 x5 x6 x7 : Vec Ideal S128 .f32)
    (x8 : Vec Ideal S128x128 .f32) (x9 : Vec Ideal S128 .f32) (p : Fin 5000) (q : Fin 128) :
    k0_pay1 (k0_pay2 x0 x1 x2 x3 x4 x7 x6 x5 x8 x9) (k0_pay3 (F := Ideal)) (ix2 p q)
      = Cert.Gin.mlpAt (fun j => x0 (ix2 p j) + x1 (ix2 p j)) x2 x3 x4 x5 x6 x7 x8 x9 q := by
  unfold k0_pay1 k0_pay2 k0_pay3 Cert.Gin.mlpAt Cert.Gin.hidden
  dsimp only
  simp only [maximumf_apply, addf_apply, subf_apply, mulf_apply, truncf_apply, broadcast_apply, row_apply, mm1_apply, mm2_apply, shapeCast_self]
  rfl

/-! ## From blocks to the array

The grid is 20 points. At point t the two row-blocked inputs and the output take rows 5000·t … 5000·t + 4999 of their
arrays; every weight matrix and vector is staged whole (block index 0) at every point. -/

/-- The zero offsets of a whole rank-2 rectangle, as the printed program spells them. -/
theorem off2_zero : (![0, 0] : Fin 2 → Nat) = fun _ => 0 := funext fun a => by fin_cases a <;> rfl
/-- The zero offset of a whole rank-1 rectangle. -/
theorem off1_zero : (![0] : Fin 1 → Nat) = fun _ => 0 := funext fun a => by fin_cases a <;> rfl

/-- The printed index maps, decided over the 20 grid points: the two row-blocked inputs and the output take row block t,
    every weight matrix and vector its block 0. -/
theorem idx_facts : ∀ t : Fin cfg0.N,
      (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ win0_3.index t (0 : Fin 1) = 0
    ∧ win0_4.index t (0 : Fin 1) = 0
    ∧ win0_5.index t (0 : Fin 1) = 0
    ∧ win0_6.index t (0 : Fin 1) = 0
    ∧ win0_7.index t (0 : Fin 1) = 0
    ∧ (win0_8.index t (0 : Fin 2) = 0 ∧ win0_8.index t (1 : Fin 2) = 0)
    ∧ win0_9.index t (0 : Fin 1) = 0
    ∧ (win0_10.index t (0 : Fin 2) = t.val ∧ win0_10.index t (1 : Fin 2) = 0) :=
  (by decide +kernel : ∀ t : Fin grid0.N, _)

/-- In the first row-blocked input, row p of block t is row 5000·t + p of the array, at the same column. -/
theorem emb0 (t : Fin cfg0.N) (e : win0_0.index t (0 : Fin 2) = t.val ∧ win0_0.index t (1 : Fin 2) = 0) (p : Fin 5000) (k : Fin 11)
    (r : Fin 100000) (hr : r.val = t.val * 5000 + p.val) : ((cfg0.win 0).blk t).view.emb (ix2 p k) = ix2 r k := by
  obtain ⟨e0, e1⟩ := e
  funext a; apply Fin.ext
  match a with
  | ⟨0, _⟩ => show win0_0.index t (0 : Fin 2) * 5000 + 1 * p.val = r.val; omega
  | ⟨1, _⟩ => show win0_0.index t (1 : Fin 2) * 11 + 1 * k.val = k.val; omega

/-- In the second row-blocked input, row p of block t is row 5000·t + p of the array, at the same column. -/
theorem emb1 (t : Fin cfg0.N) (e : win0_1.index t (0 : Fin 2) = t.val ∧ win0_1.index t (1 : Fin 2) = 0) (p : Fin 5000) (k : Fin 11)
    (r : Fin 100000) (hr : r.val = t.val * 5000 + p.val) : ((cfg0.win 1).blk t).view.emb (ix2 p k) = ix2 r k := by
  obtain ⟨e0, e1⟩ := e
  funext a; apply Fin.ext
  match a with
  | ⟨0, _⟩ => show win0_1.index t (0 : Fin 2) * 5000 + 1 * p.val = r.val; omega
  | ⟨1, _⟩ => show win0_1.index t (1 : Fin 2) * 11 + 1 * k.val = k.val; omega

/-- Window 2's block at block index zero is its whole matrix: an element sits at its own coordinates. -/
theorem emb2 (t : Fin cfg0.N) (e : win0_2.index t (0 : Fin 2) = 0 ∧ win0_2.index t (1 : Fin 2) = 0) (j : S11x128.Idx) : ((cfg0.win 2).blk t).view.emb j = j := by
  obtain ⟨e0, e1⟩ := e
  funext a; apply Fin.ext
  match a with
  | ⟨0, _⟩ => show win0_2.index t (0 : Fin 2) * 11 + 1 * (j 0).val = (j 0).val; omega
  | ⟨1, _⟩ => show win0_2.index t (1 : Fin 2) * 128 + 1 * (j 1).val = (j 1).val; omega

/-- Window 3's block at block index zero is its whole vector: an element sits at its own coordinate. -/
theorem emb3 (t : Fin cfg0.N) (e : win0_3.index t (0 : Fin 1) = 0) (j : S128.Idx) : ((cfg0.win 3).blk t).view.emb j = j := by
  funext a; apply Fin.ext
  match a with
  | ⟨0, _⟩ => show win0_3.index t (0 : Fin 1) * 128 + 1 * (j 0).val = (j 0).val; omega

/-- Window 4's block at block index zero is its whole vector: an element sits at its own coordinate. -/
theorem emb4 (t : Fin cfg0.N) (e : win0_4.index t (0 : Fin 1) = 0) (j : S128.Idx) : ((cfg0.win 4).blk t).view.emb j = j := by
  funext a; apply Fin.ext
  match a with
  | ⟨0, _⟩ => show win0_4.index t (0 : Fin 1) * 128 + 1 * (j 0).val = (j 0).val; omega

/-- Window 5's block at block index zero is its whole vector: an element sits at its own coordinate. -/
theorem emb5 (t : Fin cfg0.N) (e : win0_5.index t (0 : Fin 1) = 0) (j : S128.Idx) : ((cfg0.win 5).blk t).view.emb j = j := by
  funext a; apply Fin.ext
  match a with
  | ⟨0, _⟩ => show win0_5.index t (0 : Fin 1) * 128 + 1 * (j 0).val = (j 0).val; omega

/-- Window 6's block at block index zero is its whole vector: an element sits at its own coordinate. -/
theorem emb6 (t : Fin cfg0.N) (e : win0_6.index t (0 : Fin 1) = 0) (j : S128.Idx) : ((cfg0.win 6).blk t).view.emb j = j := by
  funext a; apply Fin.ext
  match a with
  | ⟨0, _⟩ => show win0_6.index t (0 : Fin 1) * 128 + 1 * (j 0).val = (j 0).val; omega

/-- Window 7's block at block index zero is its whole vector: an element sits at its own coordinate. -/
theorem emb7 (t : Fin cfg0.N) (e : win0_7.index t (0 : Fin 1) = 0) (j : S128.Idx) : ((cfg0.win 7).blk t).view.emb j = j := by
  funext a; apply Fin.ext
  match a with
  | ⟨0, _⟩ => show win0_7.index t (0 : Fin 1) * 128 + 1 * (j 0).val = (j 0).val; omega

/-- Window 8's block at block index zero is its whole matrix: an element sits at its own coordinates. -/
theorem emb8 (t : Fin cfg0.N) (e : win0_8.index t (0 : Fin 2) = 0 ∧ win0_8.index t (1 : Fin 2) = 0) (j : S128x128.Idx) : ((cfg0.win 8).blk t).view.emb j = j := by
  obtain ⟨e0, e1⟩ := e
  funext a; apply Fin.ext
  match a with
  | ⟨0, _⟩ => show win0_8.index t (0 : Fin 2) * 128 + 1 * (j 0).val = (j 0).val; omega
  | ⟨1, _⟩ => show win0_8.index t (1 : Fin 2) * 128 + 1 * (j 1).val = (j 1).val; omega

/-- Window 9's block at block index zero is its whole vector: an element sits at its own coordinate. -/
theorem emb9 (t : Fin cfg0.N) (e : win0_9.index t (0 : Fin 1) = 0) (j : S128.Idx) : ((cfg0.win 9).blk t).view.emb j = j := by
  funext a; apply Fin.ext
  match a with
  | ⟨0, _⟩ => show win0_9.index t (0 : Fin 1) * 128 + 1 * (j 0).val = (j 0).val; omega

/-- In the output, row p of block t is row 5000·t + p of the array, at the same column. -/
theorem emb10 (t : Fin cfg0.N) (e : win0_10.index t (0 : Fin 2) = t.val ∧ win0_10.index t (1 : Fin 2) = 0) (p : Fin 5000) (k : Fin 128)
    (r : Fin 100000) (hr : r.val = t.val * 5000 + p.val) : ((cfg0.win 10).blk t).view.emb (ix2 p k) = ix2 r k := by
  obtain ⟨e0, e1⟩ := e
  funext a; apply Fin.ext
  match a with
  | ⟨0, _⟩ => show win0_10.index t (0 : Fin 2) * 5000 + 1 * p.val = r.val; omega
  | ⟨1, _⟩ => show win0_10.index t (1 : Fin 2) * 128 + 1 * k.val = k.val; omega

variable (V : (c : Dev Cert.KernelIdeal.nD) → (b : Ref Cert.KernelIdeal.sig .tc) → Buf (Elt Ideal) ((c : Thread Cert.KernelIdeal.nD Cert.KernelIdeal.τ).loc b))

/-- So window 0's block at point t holds rows 5000·t … 5000·t + 4999 of the array the region finds. -/
theorem block0_row (c : Dev Cert.KernelIdeal.nD) (t : Fin cfg0.N) (e : win0_0.index t (0 : Fin 2) = t.val ∧ win0_0.index t (1 : Fin 2) = 0) (p : Fin 5000) (k : Fin 11)
    (r : Fin 100000) (hr : r.val = t.val * 5000 + p.val) :
    (iblk0 V c 0 t : Vec Ideal S5000x11 .f32) (ix2 p k) = (V c main_arg0 : Cert.Gin.Mat 100000 11) (ix2 r k) :=
  (show V c main_arg0 (((cfg0.win 0).blk t).view.emb (ix2 p k)) = V c main_arg0 (ix2 r k) from congrArg _ (emb0 t e p k r hr))

/-- So window 1's block at point t holds rows 5000·t … 5000·t + 4999 of the array the region finds. -/
theorem block1_row (c : Dev Cert.KernelIdeal.nD) (t : Fin cfg0.N) (e : win0_1.index t (0 : Fin 2) = t.val ∧ win0_1.index t (1 : Fin 2) = 0) (p : Fin 5000) (k : Fin 11)
    (r : Fin 100000) (hr : r.val = t.val * 5000 + p.val) :
    (iblk0 V c 1 t : Vec Ideal S5000x11 .f32) (ix2 p k) = (V c main_v13 : Cert.Gin.Mat 100000 11) (ix2 r k) :=
  (show V c main_v13 (((cfg0.win 1).blk t).view.emb (ix2 p k)) = V c main_v13 (ix2 r k) from congrArg _ (emb1 t e p k r hr))

/-- So window 2's block, read off the array the region finds, is that whole array. -/
theorem block2_eq (c : Dev Cert.KernelIdeal.nD) (t : Fin cfg0.N) (e : win0_2.index t (0 : Fin 2) = 0 ∧ win0_2.index t (1 : Fin 2) = 0) :
    (iblk0 V c 2 t : Vec Ideal S11x128 .f32) = V c main_arg3 := funext fun j =>
  (show V c main_arg3 (((cfg0.win 2).blk t).view.emb j) = V c main_arg3 j from congrArg _ (emb2 t e j))

/-- So window 3's block, read off the array the region finds, is that whole array. -/
theorem block3_eq (c : Dev Cert.KernelIdeal.nD) (t : Fin cfg0.N) (e : win0_3.index t (0 : Fin 1) = 0) :
    (iblk0 V c 3 t : Vec Ideal S128 .f32) = V c main_arg4 := funext fun j =>
  (show V c main_arg4 (((cfg0.win 3).blk t).view.emb j) = V c main_arg4 j from congrArg _ (emb3 t e j))

/-- So window 4's block, read off the array the region finds, is that whole array. -/
theorem block4_eq (c : Dev Cert.KernelIdeal.nD) (t : Fin cfg0.N) (e : win0_4.index t (0 : Fin 1) = 0) :
    (iblk0 V c 4 t : Vec Ideal S128 .f32) = V c main_arg5 := funext fun j =>
  (show V c main_arg5 (((cfg0.win 4).blk t).view.emb j) = V c main_arg5 j from congrArg _ (emb4 t e j))

/-- So window 5's block, read off the array the region finds, is that whole array. -/
theorem block5_eq (c : Dev Cert.KernelIdeal.nD) (t : Fin cfg0.N) (e : win0_5.index t (0 : Fin 1) = 0) :
    (iblk0 V c 5 t : Vec Ideal S128 .f32) = V c main_arg6 := funext fun j =>
  (show V c main_arg6 (((cfg0.win 5).blk t).view.emb j) = V c main_arg6 j from congrArg _ (emb5 t e j))

/-- So window 6's block, read off the array the region finds, is that whole array. -/
theorem block6_eq (c : Dev Cert.KernelIdeal.nD) (t : Fin cfg0.N) (e : win0_6.index t (0 : Fin 1) = 0) :
    (iblk0 V c 6 t : Vec Ideal S128 .f32) = V c main_arg7 := funext fun j =>
  (show V c main_arg7 (((cfg0.win 6).blk t).view.emb j) = V c main_arg7 j from congrArg _ (emb6 t e j))

/-- So window 7's block, read off the array the region finds, is that whole array. -/
theorem block7_eq (c : Dev Cert.KernelIdeal.nD) (t : Fin cfg0.N) (e : win0_7.index t (0 : Fin 1) = 0) :
    (iblk0 V c 7 t : Vec Ideal S128 .f32) = V c main_arg8 := funext fun j =>
  (show V c main_arg8 (((cfg0.win 7).blk t).view.emb j) = V c main_arg8 j from congrArg _ (emb7 t e j))

/-- So window 8's block, read off the array the region finds, is that whole array. -/
theorem block8_eq (c : Dev Cert.KernelIdeal.nD) (t : Fin cfg0.N) (e : win0_8.index t (0 : Fin 2) = 0 ∧ win0_8.index t (1 : Fin 2) = 0) :
    (iblk0 V c 8 t : Vec Ideal S128x128 .f32) = V c main_arg9 := funext fun j =>
  (show V c main_arg9 (((cfg0.win 8).blk t).view.emb j) = V c main_arg9 j from congrArg _ (emb8 t e j))

/-- So window 9's block, read off the array the region finds, is that whole array. -/
theorem block9_eq (c : Dev Cert.KernelIdeal.nD) (t : Fin cfg0.N) (e : win0_9.index t (0 : Fin 1) = 0) :
    (iblk0 V c 9 t : Vec Ideal S128 .f32) = V c main_arg10 := funext fun j =>
  (show V c main_arg10 (((cfg0.win 9).blk t).view.emb j) = V c main_arg10 j from congrArg _ (emb9 t e j))

/-- The body's result at an index of point t's block is the layer's value at the index of the output array where the
    block's element sits: same column, row 5000·t + p, computed from that row of the two row-blocked arrays. -/
theorem block_point (c : Dev Cert.KernelIdeal.nD) (t : Fin cfg0.N)
    (e0 : win0_0.index t (0 : Fin 2) = t.val ∧ win0_0.index t (1 : Fin 2) = 0)
    (e1 : win0_1.index t (0 : Fin 2) = t.val ∧ win0_1.index t (1 : Fin 2) = 0)
    (e10 : win0_10.index t (0 : Fin 2) = t.val ∧ win0_10.index t (1 : Fin 2) = 0) (y : S5000x128.Idx) :
    k0_pay1 (k0_pay2 (iblk0 V c 0 t) (iblk0 V c 1 t) (V c main_arg3) (V c main_arg4) (V c main_arg5) (V c main_arg8) (V c main_arg7) (V c main_arg6) (V c main_arg9) (V c main_arg10)) (k0_pay3 (F := Ideal)) y
      = Cert.Gin.MLP (V c main_arg0) (V c main_v13) (V c main_arg3) (V c main_arg4) (V c main_arg5) (V c main_arg6) (V c main_arg7) (V c main_arg8) (V c main_arg9) (V c main_arg10) (((cfg0.win 10).blk t).view.emb y) := by
  obtain ⟨p, q, rfl⟩ : ∃ (p : Fin 5000) (q : Fin 128), y = ix2 p q := ⟨y 0, y 1, eq_ix2 y⟩
  have hN : grid0.N = 20 := N_0
  have ht : t.val < grid0.N := t.isLt
  rw [hN] at ht
  have hp : p.val < 5000 := p.isLt
  have hr : t.val * 5000 + p.val < 100000 := by omega
  rw [emb10 t e10 p q ⟨t.val * 5000 + p.val, hr⟩ rfl]
  refine (pay_apply _ _ _ _ _ _ _ _ _ _ p q).trans ?_
  unfold Cert.Gin.MLP
  exact congrArg (fun x : Fin 11 → EReal => Cert.Gin.mlpAt x (V c main_arg3) (V c main_arg4) (V c main_arg5) (V c main_arg6) (V c main_arg7) (V c main_arg8) (V c main_arg9) (V c main_arg10) q)
    (funext fun k => congrArg₂ (fun a b : EReal => a + b) (block0_row V c t e0 p k ⟨t.val * 5000 + p.val, hr⟩ rfl) (block1_row V c t e1 p k ⟨t.val * 5000 + p.val, hr⟩ rfl))

/-- What grid point t writes back is block t of the layer applied to the arrays as the region finds them:
    rows 5000·t … 5000·t + 4999, each row the layer's output of the same row of h + agg. -/
theorem flushed_eq (c : Dev Cert.KernelIdeal.nD) (t : Fin cfg0.N) :
    (dat0 (F := Ideal) V c).flushed 10 t = ((cfg0.win 10).blk t).view.read (Elt Ideal) (Cert.Gin.MLP (V c main_arg0) (V c main_v13) (V c main_arg3) (V c main_arg4) (V c main_arg5) (V c main_arg6) (V c main_arg7) (V c main_arg8) (V c main_arg9) (V c main_arg10)) := by
  obtain ⟨e0, e1, e2, e3, e4, e5, e6, e7, e8, e9, e10⟩ := idx_facts t
  show (cfg0.win 10).cut (grid0.coords t) ((dat0 (F := Ideal) V c).after 10 t) = _
  rw [after0_10]
  unfold out0_10
  rw [View.canon_unit_zero off2_zero]
  simp only [View.ld_unit_zero (S := S5000x11) off2_zero, View.ld_unit_zero (S := S5000x128) off2_zero, View.ld_unit_zero (S := S11x128) off2_zero, View.ld_unit_zero (S := S128x128) off2_zero, View.ld_unit_zero (S := S128) off1_zero]
  rw [block2_eq V c t e2, block3_eq V c t e3, block4_eq V c t e4, block5_eq V c t e5, block6_eq V c t e6, block7_eq V c t e7, block8_eq V c t e8, block9_eq V c t e9]
  funext y
  show k0_pay1 (k0_pay2 (iblk0 V c 0 t) (iblk0 V c 1 t) (V c main_arg3) (V c main_arg4) (V c main_arg5) (V c main_arg8) (V c main_arg7) (V c main_arg6) (V c main_arg9) (V c main_arg10)) (k0_pay3 (F := Ideal)) y
    = Cert.Gin.MLP (V c main_arg0) (V c main_v13) (V c main_arg3) (V c main_arg4) (V c main_arg5) (V c main_arg6) (V c main_arg7) (V c main_arg8) (V c main_arg9) (V c main_arg10) (((cfg0.win 10).blk t).view.emb y)
  exact block_point V c t e0 e1 e10 y

/-- An index of the output array is in point t's block iff each coordinate is in the block's range on its axis. -/
theorem mem_blk (t : Fin cfg0.N) (i : S100000x128.Idx) :
    i ∈ ((cfg0.win 10).blk t).view.set ↔ ∀ a : Fin 2, win0_10.index t a * S5000x128.size a ≤ (i a).val ∧ (i a).val < win0_10.index t a * S5000x128.size a + S5000x128.size a := by
  show i ∈ ((View.whole main_v14).slice (win0_10.rect t)).set ↔ _
  rw [View.set_slice_whole, Rect.mem_set_unit]
  exact Iff.rfl

/-- Every index of the output array is written back: row r lies in the block of point r / 5000. -/
theorem cover (i : S100000x128.Idx) :
    ∃ t : Fin cfg0.N, (cfg0.win 10).flush t = true ∧ i ∈ ((cfg0.win 10).blk t).view.set := by
  have hi0 : (i 0).val < 100000 := (i 0).isLt
  have hi1 : (i 1).val < 128 := (i 1).isLt
  have hN : grid0.N = 20 := N_0
  have ht : (i 0).val / 5000 < cfg0.N := by show (i 0).val / 5000 < grid0.N; rw [hN]; omega
  obtain ⟨-, -, -, -, -, -, -, -, -, -, e10⟩ := idx_facts ⟨(i 0).val / 5000, ht⟩
  refine ⟨⟨(i 0).val / 5000, ht⟩, flush0_10 _, ?_⟩
  rw [mem_blk]
  intro a
  match a with
  | ⟨0, _⟩ =>
    show win0_10.index ⟨(i 0).val / 5000, ht⟩ (0 : Fin 2) * 5000 ≤ (i 0).val ∧ (i 0).val < win0_10.index ⟨(i 0).val / 5000, ht⟩ (0 : Fin 2) * 5000 + 5000
    rw [e10.1]
    show (i 0).val / 5000 * 5000 ≤ (i 0).val ∧ (i 0).val < (i 0).val / 5000 * 5000 + 5000
    omega
  | ⟨1, _⟩ =>
    show win0_10.index ⟨(i 0).val / 5000, ht⟩ (1 : Fin 2) * 128 ≤ (i 1).val ∧ (i 1).val < win0_10.index ⟨(i 0).val / 5000, ht⟩ (1 : Fin 2) * 128 + 128
    rw [e10.2]
    omega

/-- The region's output array after its 20 write-backs is the layer applied, row by row, to the arrays the region found. -/
theorem value (V : (c : Dev Cert.KernelIdeal.nD) → (b : Ref Cert.KernelIdeal.sig .tc) → Buf (Elt Ideal) ((c : Thread Cert.KernelIdeal.nD Cert.KernelIdeal.τ).loc b)) (c : Dev Cert.KernelIdeal.nD) :
    (dat0 (F := Ideal) V c).arrAt 10 cfg0.N
      = Cert.Gin.MLP (V c main_arg0) (V c main_v13) (V c main_arg3) (V c main_arg4) (V c main_arg5) (V c main_arg6) (V c main_arg7) (V c main_arg8) (V c main_arg9) (V c main_arg10) :=
  (dat0 (F := Ideal) V c).arrAt_eq_of_cover 10 _ (fun t _ => flushed_eq V c t) cover

end Cert.Gin.K0

end
-- ==== Proof.Region1.lean ====
/-
  GIN layer 2 as one value: the array the region's 20 write-backs leave.

  The region's grid has 20 points. At point t the node features h and the neighbour sums agg (both [100000,128]) and the
  output [100000,128] are staged by rows 5000·t … 5000·t + 4999; the first weight matrix Wa [128,128], the bias ba, the
  batch-norm scale g, shift be, running mean mu and running variance v (each [128]), the second weight matrix Wb [128,128]
  and its bias bb [128] are staged whole at every point. On a block the body computes, at row p and column q,
    x j      = h p j + agg p j
    hidden k = max ((((∑ j, x j · Wa j k) + ba k) − mu k) · (g k · rsqrt (v k + ε)) + be k) 0
    out q    = max ((∑ k, hidden k · Wb k q) + bb q) 0.
  Over the extended reals the bf16 format changes are the identity and a product accumulated into a zero splat is the
  plain sum over the shared axis, so the body's result at (p, q) is the specification's `mlpAt` of row p of the two
  row-blocked inputs (`pay_apply`). Row p of block t is row 5000·t + p of the array, the blocks cover every row, and so
  the output array ends as `MLP` of the ten arrays the region finds (`value`).
-/
import proofs.«175696_j22084721836226_1_alg».proof.Proof.Gen.KernelIdeal.Frame
import proofs.«175696_j22084721836226_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gin.K1

open Cert.KernelIdeal Cert.KernelIdeal.Gen
open Idealize.ShloMosaic Idealize.ShloMosaic.ValueIdx Idealize.ShloMosaic.TcCoe Idealize.SL.Sem
open Idealize.ShloMosaic.Pipeline (Dat)
open scoped BigOperators

/-! ## The layout operations and the two products read at an index -/

/-- A length-128 vector laid as one row and repeated down 5000 rows reads, at row p and column q, its entry q. -/
theorem row_apply (v : FVec Ideal S128 .f32) (p : Fin 5000) (q : Fin 128) :
    broadcastTo S5000x128 (shapeCast S1x128 v shapeCasts_S128_S1x128) broadcasts_S1x128_S5000x128 (ix2 p q) = v (ix1 q) :=
  (broadcastTo_1b_ab_apply _ _ p q).trans (shapeCast_a_1a_apply v _ 0 q)

theorem mm_l0 (i : S5000x128.Idx) (c : dot_S5000x128_S128x128_S5000x128_1_0_0_1_n_n.contr.Idx) : (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem mm_l1 (i : S5000x128.Idx) (c : dot_S5000x128_S128x128_S5000x128_1_0_0_1_n_n.contr.Idx) : (dot_S5000x128_S128x128_S5000x128_1_0_0_1_n_n.lhsIdx i c 1).val = (c ⟨0, by decide⟩).val :=
  dot_S5000x128_S128x128_S5000x128_1_0_0_1_n_n.lhsIdx_val_of_single rfl i c
theorem mm_r0 (i : S5000x128.Idx) (c : dot_S5000x128_S128x128_S5000x128_1_0_0_1_n_n.contr.Idx) : (dot_S5000x128_S128x128_S5000x128_1_0_0_1_n_n.rhsIdx i c 0).val = (c ⟨0, by decide⟩).val :=
  dot_S5000x128_S128x128_S5000x128_1_0_0_1_n_n.rhsIdx_val_of_single rfl i c
theorem mm_r1 (i : S5000x128.Idx) (c : dot_S5000x128_S128x128_S5000x128_1_0_0_1_n_n.contr.Idx) : (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Either product (both are [5000,128] by [128,128]) into a zero accumulator, at row p and column q: the sum over the shared axis. -/
theorem mm_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ j : Fin 128, l (ix2 p j) * r (ix2 j q) := by
  refine (Ideal.matmul_constant_zero_apply dot_S5000x128_S128x128_S5000x128_1_0_0_1_n_n none l r (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact mm_l0 _ _
    | ⟨1, _⟩ => exact (mm_l1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (mm_r0 _ _).trans hk
    | ⟨1, _⟩ => exact mm_r1 _ _)
  rw [el, er]

/-- The body's arithmetic at row p and column q of a block: the layer's output unit q of the block's row p of h + agg. -/
theorem pay_apply (x0 x1 : Vec Ideal S5000x128 .f32) (x2 : Vec Ideal S128x128 .f32) (x3 x4 x5 x6 x7 : Vec Ideal S128 .f32)
    (x8 : Vec Ideal S128x128 .f32) (x9 : Vec Ideal S128 .f32) (p : Fin 5000) (q : Fin 128) :
    k1_pay1 (F := Ideal) (k1_pay2 x0 x1 x2 x3 x4 x7 x6 x5 x8 x9) (Scalar.ofBits .f32 0x00000000#32) (ix2 p q)
      = Cert.Gin.mlpAt (fun j => x0 (ix2 p j) + x1 (ix2 p j)) x2 x3 x4 x5 x6 x7 x8 x9 q := by
  unfold k1_pay1 k1_pay2 Cert.Gin.mlpAt Cert.Gin.hidden
  dsimp only
  simp only [maximumf_apply, addf_apply, subf_apply, mulf_apply, truncf_apply, broadcast_apply, row_apply, mm_apply, shapeCast_self]
  rfl

/-! ## From blocks to the array

The grid is 20 points. At point t the two row-blocked inputs and the output take rows 5000·t … 5000·t + 4999 of their
arrays; every weight matrix and vector is staged whole (block index 0) at every point. -/

/-- The zero offsets of a whole rank-2 rectangle, as the printed program spells them. -/
theorem off2_zero : (![0, 0] : Fin 2 → Nat) = fun _ => 0 := funext fun a => by fin_cases a <;> rfl
/-- The zero offset of a whole rank-1 rectangle. -/
theorem off1_zero : (![0] : Fin 1 → Nat) = fun _ => 0 := funext fun a => by fin_cases a <;> rfl

/-- The printed index maps, decided over the 20 grid points: the two row-blocked inputs and the output take row block t,
    every weight matrix and vector its block 0. -/
theorem idx_facts : ∀ t : Fin cfg1.N,
      (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ win1_3.index t (0 : Fin 1) = 0
    ∧ win1_4.index t (0 : Fin 1) = 0
    ∧ win1_5.index t (0 : Fin 1) = 0
    ∧ win1_6.index t (0 : Fin 1) = 0
    ∧ win1_7.index t (0 : Fin 1) = 0
    ∧ (win1_8.index t (0 : Fin 2) = 0 ∧ win1_8.index t (1 : Fin 2) = 0)
    ∧ win1_9.index t (0 : Fin 1) = 0
    ∧ (win1_10.index t (0 : Fin 2) = t.val ∧ win1_10.index t (1 : Fin 2) = 0) :=
  (by decide +kernel : ∀ t : Fin grid1.N, _)

/-- In the first row-blocked input, row p of block t is row 5000·t + p of the array, at the same column. -/
theorem emb0 (t : Fin cfg1.N) (e : win1_0.index t (0 : Fin 2) = t.val ∧ win1_0.index t (1 : Fin 2) = 0) (p : Fin 5000) (k : Fin 128)
    (r : Fin 100000) (hr : r.val = t.val * 5000 + p.val) : ((cfg1.win 0).blk t).view.emb (ix2 p k) = ix2 r k := by
  obtain ⟨e0, e1⟩ := e
  funext a; apply Fin.ext
  match a with
  | ⟨0, _⟩ => show win1_0.index t (0 : Fin 2) * 5000 + 1 * p.val = r.val; omega
  | ⟨1, _⟩ => show win1_0.index t (1 : Fin 2) * 128 + 1 * k.val = k.val; omega

/-- In the second row-blocked input, row p of block t is row 5000·t + p of the array, at the same column. -/
theorem emb1 (t : Fin cfg1.N) (e : win1_1.index t (0 : Fin 2) = t.val ∧ win1_1.index t (1 : Fin 2) = 0) (p : Fin 5000) (k : Fin 128)
    (r : Fin 100000) (hr : r.val = t.val * 5000 + p.val) : ((cfg1.win 1).blk t).view.emb (ix2 p k) = ix2 r k := by
  obtain ⟨e0, e1⟩ := e
  funext a; apply Fin.ext
  match a with
  | ⟨0, _⟩ => show win1_1.index t (0 : Fin 2) * 5000 + 1 * p.val = r.val; omega
  | ⟨1, _⟩ => show win1_1.index t (1 : Fin 2) * 128 + 1 * k.val = k.val; omega

/-- Window 2's block at block index zero is its whole matrix: an element sits at its own coordinates. -/
theorem emb2 (t : Fin cfg1.N) (e : win1_2.index t (0 : Fin 2) = 0 ∧ win1_2.index t (1 : Fin 2) = 0) (j : S128x128.Idx) : ((cfg1.win 2).blk t).view.emb j = j := by
  obtain ⟨e0, e1⟩ := e
  funext a; apply Fin.ext
  match a with
  | ⟨0, _⟩ => show win1_2.index t (0 : Fin 2) * 128 + 1 * (j 0).val = (j 0).val; omega
  | ⟨1, _⟩ => show win1_2.index t (1 : Fin 2) * 128 + 1 * (j 1).val = (j 1).val; omega

/-- Window 3's block at block index zero is its whole vector: an element sits at its own coordinate. -/
theorem emb3 (t : Fin cfg1.N) (e : win1_3.index t (0 : Fin 1) = 0) (j : S128.Idx) : ((cfg1.win 3).blk t).view.emb j = j := by
  funext a; apply Fin.ext
  match a with
  | ⟨0, _⟩ => show win1_3.index t (0 : Fin 1) * 128 + 1 * (j 0).val = (j 0).val; omega

/-- Window 4's block at block index zero is its whole vector: an element sits at its own coordinate. -/
theorem emb4 (t : Fin cfg1.N) (e : win1_4.index t (0 : Fin 1) = 0) (j : S128.Idx) : ((cfg1.win 4).blk t).view.emb j = j := by
  funext a; apply Fin.ext
  match a with
  | ⟨0, _⟩ => show win1_4.index t (0 : Fin 1) * 128 + 1 * (j 0).val = (j 0).val; omega

/-- Window 5's block at block index zero is its whole vector: an element sits at its own coordinate. -/
theorem emb5 (t : Fin cfg1.N) (e : win1_5.index t (0 : Fin 1) = 0) (j : S128.Idx) : ((cfg1.win 5).blk t).view.emb j = j := by
  funext a; apply Fin.ext
  match a with
  | ⟨0, _⟩ => show win1_5.index t (0 : Fin 1) * 128 + 1 * (j 0).val = (j 0).val; omega

/-- Window 6's block at block index zero is its whole vector: an element sits at its own coordinate. -/
theorem emb6 (t : Fin cfg1.N) (e : win1_6.index t (0 : Fin 1) = 0) (j : S128.Idx) : ((cfg1.win 6).blk t).view.emb j = j := by
  funext a; apply Fin.ext
  match a with
  | ⟨0, _⟩ => show win1_6.index t (0 : Fin 1) * 128 + 1 * (j 0).val = (j 0).val; omega

/-- Window 7's block at block index zero is its whole vector: an element sits at its own coordinate. -/
theorem emb7 (t : Fin cfg1.N) (e : win1_7.index t (0 : Fin 1) = 0) (j : S128.Idx) : ((cfg1.win 7).blk t).view.emb j = j := by
  funext a; apply Fin.ext
  match a with
  | ⟨0, _⟩ => show win1_7.index t (0 : Fin 1) * 128 + 1 * (j 0).val = (j 0).val; omega

/-- Window 8's block at block index zero is its whole matrix: an element sits at its own coordinates. -/
theorem emb8 (t : Fin cfg1.N) (e : win1_8.index t (0 : Fin 2) = 0 ∧ win1_8.index t (1 : Fin 2) = 0) (j : S128x128.Idx) : ((cfg1.win 8).blk t).view.emb j = j := by
  obtain ⟨e0, e1⟩ := e
  funext a; apply Fin.ext
  match a with
  | ⟨0, _⟩ => show win1_8.index t (0 : Fin 2) * 128 + 1 * (j 0).val = (j 0).val; omega
  | ⟨1, _⟩ => show win1_8.index t (1 : Fin 2) * 128 + 1 * (j 1).val = (j 1).val; omega

/-- Window 9's block at block index zero is its whole vector: an element sits at its own coordinate. -/
theorem emb9 (t : Fin cfg1.N) (e : win1_9.index t (0 : Fin 1) = 0) (j : S128.Idx) : ((cfg1.win 9).blk t).view.emb j = j := by
  funext a; apply Fin.ext
  match a with
  | ⟨0, _⟩ => show win1_9.index t (0 : Fin 1) * 128 + 1 * (j 0).val = (j 0).val; omega

/-- In the output, row p of block t is row 5000·t + p of the array, at the same column. -/
theorem emb10 (t : Fin cfg1.N) (e : win1_10.index t (0 : Fin 2) = t.val ∧ win1_10.index t (1 : Fin 2) = 0) (p : Fin 5000) (k : Fin 128)
    (r : Fin 100000) (hr : r.val = t.val * 5000 + p.val) : ((cfg1.win 10).blk t).view.emb (ix2 p k) = ix2 r k := by
  obtain ⟨e0, e1⟩ := e
  funext a; apply Fin.ext
  match a with
  | ⟨0, _⟩ => show win1_10.index t (0 : Fin 2) * 5000 + 1 * p.val = r.val; omega
  | ⟨1, _⟩ => show win1_10.index t (1 : Fin 2) * 128 + 1 * k.val = k.val; omega

variable (V : (c : Dev Cert.KernelIdeal.nD) → (b : Ref Cert.KernelIdeal.sig .tc) → Buf (Elt Ideal) ((c : Thread Cert.KernelIdeal.nD Cert.KernelIdeal.τ).loc b))

/-- So window 0's block at point t holds rows 5000·t … 5000·t + 4999 of the array the region finds. -/
theorem block0_row (c : Dev Cert.KernelIdeal.nD) (t : Fin cfg1.N) (e : win1_0.index t (0 : Fin 2) = t.val ∧ win1_0.index t (1 : Fin 2) = 0) (p : Fin 5000) (k : Fin 128)
    (r : Fin 100000) (hr : r.val = t.val * 5000 + p.val) :
    (iblk1 V c 0 t : Vec Ideal S5000x128 .f32) (ix2 p k) = (V c main_v14 : Cert.Gin.Mat 100000 128) (ix2 r k) :=
  (show V c main_v14 (((cfg1.win 0).blk t).view.emb (ix2 p k)) = V c main_v14 (ix2 r k) from congrArg _ (emb0 t e p k r hr))

/-- So window 1's block at point t holds rows 5000·t … 5000·t + 4999 of the array the region finds. -/
theorem block1_row (c : Dev Cert.KernelIdeal.nD) (t : Fin cfg1.N) (e : win1_1.index t (0 : Fin 2) = t.val ∧ win1_1.index t (1 : Fin 2) = 0) (p : Fin 5000) (k : Fin 128)
    (r : Fin 100000) (hr : r.val = t.val * 5000 + p.val) :
    (iblk1 V c 1 t : Vec Ideal S5000x128 .f32) (ix2 p k) = (V c main_v24 : Cert.Gin.Mat 100000 128) (ix2 r k) :=
  (show V c main_v24 (((cfg1.win 1).blk t).view.emb (ix2 p k)) = V c main_v24 (ix2 r k) from congrArg _ (emb1 t e p k r hr))

/-- So window 2's block, read off the array the region finds, is that whole array. -/
theorem block2_eq (c : Dev Cert.KernelIdeal.nD) (t : Fin cfg1.N) (e : win1_2.index t (0 : Fin 2) = 0 ∧ win1_2.index t (1 : Fin 2) = 0) :
    (iblk1 V c 2 t : Vec Ideal S128x128 .f32) = V c main_arg11 := funext fun j =>
  (show V c main_arg11 (((cfg1.win 2).blk t).view.emb j) = V c main_arg11 j from congrArg _ (emb2 t e j))

/-- So window 3's block, read off the array the region finds, is that whole array. -/
theorem block3_eq (c : Dev Cert.KernelIdeal.nD) (t : Fin cfg1.N) (e : win1_3.index t (0 : Fin 1) = 0) :
    (iblk1 V c 3 t : Vec Ideal S128 .f32) = V c main_arg12 := funext fun j =>
  (show V c main_arg12 (((cfg1.win 3).blk t).view.emb j) = V c main_arg12 j from congrArg _ (emb3 t e j))

/-- So window 4's block, read off the array the region finds, is that whole array. -/
theorem block4_eq (c : Dev Cert.KernelIdeal.nD) (t : Fin cfg1.N) (e : win1_4.index t (0 : Fin 1) = 0) :
    (iblk1 V c 4 t : Vec Ideal S128 .f32) = V c main_arg13 := funext fun j =>
  (show V c main_arg13 (((cfg1.win 4).blk t).view.emb j) = V c main_arg13 j from congrArg _ (emb4 t e j))

/-- So window 5's block, read off the array the region finds, is that whole array. -/
theorem block5_eq (c : Dev Cert.KernelIdeal.nD) (t : Fin cfg1.N) (e : win1_5.index t (0 : Fin 1) = 0) :
    (iblk1 V c 5 t : Vec Ideal S128 .f32) = V c main_arg14 := funext fun j =>
  (show V c main_arg14 (((cfg1.win 5).blk t).view.emb j) = V c main_arg14 j from congrArg _ (emb5 t e j))

/-- So window 6's block, read off the array the region finds, is that whole array. -/
theorem block6_eq (c : Dev Cert.KernelIdeal.nD) (t : Fin cfg1.N) (e : win1_6.index t (0 : Fin 1) = 0) :
    (iblk1 V c 6 t : Vec Ideal S128 .f32) = V c main_arg15 := funext fun j =>
  (show V c main_arg15 (((cfg1.win 6).blk t).view.emb j) = V c main_arg15 j from congrArg _ (emb6 t e j))

/-- So window 7's block, read off the array the region finds, is that whole array. -/
theorem block7_eq (c : Dev Cert.KernelIdeal.nD) (t : Fin cfg1.N) (e : win1_7.index t (0 : Fin 1) = 0) :
    (iblk1 V c 7 t : Vec Ideal S128 .f32) = V c main_arg16 := funext fun j =>
  (show V c main_arg16 (((cfg1.win 7).blk t).view.emb j) = V c main_arg16 j from congrArg _ (emb7 t e j))

/-- So window 8's block, read off the array the region finds, is that whole array. -/
theorem block8_eq (c : Dev Cert.KernelIdeal.nD) (t : Fin cfg1.N) (e : win1_8.index t (0 : Fin 2) = 0 ∧ win1_8.index t (1 : Fin 2) = 0) :
    (iblk1 V c 8 t : Vec Ideal S128x128 .f32) = V c main_arg17 := funext fun j =>
  (show V c main_arg17 (((cfg1.win 8).blk t).view.emb j) = V c main_arg17 j from congrArg _ (emb8 t e j))

/-- So window 9's block, read off the array the region finds, is that whole array. -/
theorem block9_eq (c : Dev Cert.KernelIdeal.nD) (t : Fin cfg1.N) (e : win1_9.index t (0 : Fin 1) = 0) :
    (iblk1 V c 9 t : Vec Ideal S128 .f32) = V c main_arg18 := funext fun j =>
  (show V c main_arg18 (((cfg1.win 9).blk t).view.emb j) = V c main_arg18 j from congrArg _ (emb9 t e j))

/-- The body's result at an index of point t's block is the layer's value at the index of the output array where the
    block's element sits: same column, row 5000·t + p, computed from that row of the two row-blocked arrays. -/
theorem block_point (c : Dev Cert.KernelIdeal.nD) (t : Fin cfg1.N)
    (e0 : win1_0.index t (0 : Fin 2) = t.val ∧ win1_0.index t (1 : Fin 2) = 0)
    (e1 : win1_1.index t (0 : Fin 2) = t.val ∧ win1_1.index t (1 : Fin 2) = 0)
    (e10 : win1_10.index t (0 : Fin 2) = t.val ∧ win1_10.index t (1 : Fin 2) = 0) (y : S5000x128.Idx) :
    k1_pay1 (F := Ideal) (k1_pay2 (iblk1 V c 0 t) (iblk1 V c 1 t) (V c main_arg11) (V c main_arg12) (V c main_arg13) (V c main_arg16) (V c main_arg15) (V c main_arg14) (V c main_arg17) (V c main_arg18)) (Scalar.ofBits .f32 0x00000000#32) y
      = Cert.Gin.MLP (V c main_v14) (V c main_v24) (V c main_arg11) (V c main_arg12) (V c main_arg13) (V c main_arg14) (V c main_arg15) (V c main_arg16) (V c main_arg17) (V c main_arg18) (((cfg1.win 10).blk t).view.emb y) := by
  obtain ⟨p, q, rfl⟩ : ∃ (p : Fin 5000) (q : Fin 128), y = ix2 p q := ⟨y 0, y 1, eq_ix2 y⟩
  have hN : grid1.N = 20 := N_1
  have ht : t.val < grid1.N := t.isLt
  rw [hN] at ht
  have hp : p.val < 5000 := p.isLt
  have hr : t.val * 5000 + p.val < 100000 := by omega
  rw [emb10 t e10 p q ⟨t.val * 5000 + p.val, hr⟩ rfl]
  refine (pay_apply _ _ _ _ _ _ _ _ _ _ p q).trans ?_
  unfold Cert.Gin.MLP
  exact congrArg (fun x : Fin 128 → EReal => Cert.Gin.mlpAt x (V c main_arg11) (V c main_arg12) (V c main_arg13) (V c main_arg14) (V c main_arg15) (V c main_arg16) (V c main_arg17) (V c main_arg18) q)
    (funext fun k => congrArg₂ (fun a b : EReal => a + b) (block0_row V c t e0 p k ⟨t.val * 5000 + p.val, hr⟩ rfl) (block1_row V c t e1 p k ⟨t.val * 5000 + p.val, hr⟩ rfl))

/-- What grid point t writes back is block t of the layer applied to the arrays as the region finds them:
    rows 5000·t … 5000·t + 4999, each row the layer's output of the same row of h + agg. -/
theorem flushed_eq (c : Dev Cert.KernelIdeal.nD) (t : Fin cfg1.N) :
    (dat1 (F := Ideal) V c).flushed 10 t = ((cfg1.win 10).blk t).view.read (Elt Ideal) (Cert.Gin.MLP (V c main_v14) (V c main_v24) (V c main_arg11) (V c main_arg12) (V c main_arg13) (V c main_arg14) (V c main_arg15) (V c main_arg16) (V c main_arg17) (V c main_arg18)) := by
  obtain ⟨e0, e1, e2, e3, e4, e5, e6, e7, e8, e9, e10⟩ := idx_facts t
  show (cfg1.win 10).cut (grid1.coords t) ((dat1 (F := Ideal) V c).after 10 t) = _
  rw [after1_10]
  unfold out1_10
  rw [View.canon_unit_zero off2_zero]
  simp only [View.ld_unit_zero (S := S5000x128) off2_zero, View.ld_unit_zero (S := S128x128) off2_zero, View.ld_unit_zero (S := S128) off1_zero]
  rw [block2_eq V c t e2, block3_eq V c t e3, block4_eq V c t e4, block5_eq V c t e5, block6_eq V c t e6, block7_eq V c t e7, block8_eq V c t e8, block9_eq V c t e9]
  funext y
  show k1_pay1 (F := Ideal) (k1_pay2 (iblk1 V c 0 t) (iblk1 V c 1 t) (V c main_arg11) (V c main_arg12) (V c main_arg13) (V c main_arg16) (V c main_arg15) (V c main_arg14) (V c main_arg17) (V c main_arg18)) (Scalar.ofBits .f32 0x00000000#32) y
    = Cert.Gin.MLP (V c main_v14) (V c main_v24) (V c main_arg11) (V c main_arg12) (V c main_arg13) (V c main_arg14) (V c main_arg15) (V c main_arg16) (V c main_arg17) (V c main_arg18) (((cfg1.win 10).blk t).view.emb y)
  exact block_point V c t e0 e1 e10 y

/-- An index of the output array is in point t's block iff each coordinate is in the block's range on its axis. -/
theorem mem_blk (t : Fin cfg1.N) (i : S100000x128.Idx) :
    i ∈ ((cfg1.win 10).blk t).view.set ↔ ∀ a : Fin 2, win1_10.index t a * S5000x128.size a ≤ (i a).val ∧ (i a).val < win1_10.index t a * S5000x128.size a + S5000x128.size a := by
  show i ∈ ((View.whole main_v25).slice (win1_10.rect t)).set ↔ _
  rw [View.set_slice_whole, Rect.mem_set_unit]
  exact Iff.rfl

/-- Every index of the output array is written back: row r lies in the block of point r / 5000. -/
theorem cover (i : S100000x128.Idx) :
    ∃ t : Fin cfg1.N, (cfg1.win 10).flush t = true ∧ i ∈ ((cfg1.win 10).blk t).view.set := by
  have hi0 : (i 0).val < 100000 := (i 0).isLt
  have hi1 : (i 1).val < 128 := (i 1).isLt
  have hN : grid1.N = 20 := N_1
  have ht : (i 0).val / 5000 < cfg1.N := by show (i 0).val / 5000 < grid1.N; rw [hN]; omega
  obtain ⟨-, -, -, -, -, -, -, -, -, -, e10⟩ := idx_facts ⟨(i 0).val / 5000, ht⟩
  refine ⟨⟨(i 0).val / 5000, ht⟩, flush1_10 _, ?_⟩
  rw [mem_blk]
  intro a
  match a with
  | ⟨0, _⟩ =>
    show win1_10.index ⟨(i 0).val / 5000, ht⟩ (0 : Fin 2) * 5000 ≤ (i 0).val ∧ (i 0).val < win1_10.index ⟨(i 0).val / 5000, ht⟩ (0 : Fin 2) * 5000 + 5000
    rw [e10.1]
    show (i 0).val / 5000 * 5000 ≤ (i 0).val ∧ (i 0).val < (i 0).val / 5000 * 5000 + 5000
    omega
  | ⟨1, _⟩ =>
    show win1_10.index ⟨(i 0).val / 5000, ht⟩ (1 : Fin 2) * 128 ≤ (i 1).val ∧ (i 1).val < win1_10.index ⟨(i 0).val / 5000, ht⟩ (1 : Fin 2) * 128 + 128
    rw [e10.2]
    omega

/-- The region's output array after its 20 write-backs is the layer applied, row by row, to the arrays the region found. -/
theorem value (V : (c : Dev Cert.KernelIdeal.nD) → (b : Ref Cert.KernelIdeal.sig .tc) → Buf (Elt Ideal) ((c : Thread Cert.KernelIdeal.nD Cert.KernelIdeal.τ).loc b)) (c : Dev Cert.KernelIdeal.nD) :
    (dat1 (F := Ideal) V c).arrAt 10 cfg1.N
      = Cert.Gin.MLP (V c main_v14) (V c main_v24) (V c main_arg11) (V c main_arg12) (V c main_arg13) (V c main_arg14) (V c main_arg15) (V c main_arg16) (V c main_arg17) (V c main_arg18) :=
  (dat1 (F := Ideal) V c).arrAt_eq_of_cover 10 _ (fun t _ => flushed_eq V c t) cover

end Cert.Gin.K1

end
-- ==== Proof.Region2.lean ====
/-
  GIN layer 3 as one value: the array the region's 20 write-backs leave.

  The region's grid has 20 points. At point t the node features h and the neighbour sums agg (both [100000,128]) and the
  output [100000,128] are staged by rows 5000·t … 5000·t + 4999; the first weight matrix Wa [128,128], the bias ba, the
  batch-norm scale g, shift be, running mean mu and running variance v (each [128]), the second weight matrix Wb [128,128]
  and its bias bb [128] are staged whole at every point. On a block the body computes, at row p and column q,
    x j      = h p j + agg p j
    hidden k = max ((((∑ j, x j · Wa j k) + ba k) − mu k) · (g k · rsqrt (v k + ε)) + be k) 0
    out q    = max ((∑ k, hidden k · Wb k q) + bb q) 0.
  Over the extended reals the bf16 format changes are the identity and a product accumulated into a zero splat is the
  plain sum over the shared axis, so the body's result at (p, q) is the specification's `mlpAt` of row p of the two
  row-blocked inputs (`pay_apply`). Row p of block t is row 5000·t + p of the array, the blocks cover every row, and so
  the output array ends as `MLP` of the ten arrays the region finds (`value`).
-/
import proofs.«175696_j22084721836226_1_alg».proof.Proof.Gen.KernelIdeal.Frame
import proofs.«175696_j22084721836226_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gin.K2

open Cert.KernelIdeal Cert.KernelIdeal.Gen
open Idealize.ShloMosaic Idealize.ShloMosaic.ValueIdx Idealize.ShloMosaic.TcCoe Idealize.SL.Sem
open Idealize.ShloMosaic.Pipeline (Dat)
open scoped BigOperators

/-! ## The layout operations and the two products read at an index -/

/-- A length-128 vector laid as one row and repeated down 5000 rows reads, at row p and column q, its entry q. -/
theorem row_apply (v : FVec Ideal S128 .f32) (p : Fin 5000) (q : Fin 128) :
    broadcastTo S5000x128 (shapeCast S1x128 v shapeCasts_S128_S1x128) broadcasts_S1x128_S5000x128 (ix2 p q) = v (ix1 q) :=
  (broadcastTo_1b_ab_apply _ _ p q).trans (shapeCast_a_1a_apply v _ 0 q)

theorem mm_l0 (i : S5000x128.Idx) (c : dot_S5000x128_S128x128_S5000x128_1_0_0_1_n_n.contr.Idx) : (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem mm_l1 (i : S5000x128.Idx) (c : dot_S5000x128_S128x128_S5000x128_1_0_0_1_n_n.contr.Idx) : (dot_S5000x128_S128x128_S5000x128_1_0_0_1_n_n.lhsIdx i c 1).val = (c ⟨0, by decide⟩).val :=
  dot_S5000x128_S128x128_S5000x128_1_0_0_1_n_n.lhsIdx_val_of_single rfl i c
theorem mm_r0 (i : S5000x128.Idx) (c : dot_S5000x128_S128x128_S5000x128_1_0_0_1_n_n.contr.Idx) : (dot_S5000x128_S128x128_S5000x128_1_0_0_1_n_n.rhsIdx i c 0).val = (c ⟨0, by decide⟩).val :=
  dot_S5000x128_S128x128_S5000x128_1_0_0_1_n_n.rhsIdx_val_of_single rfl i c
theorem mm_r1 (i : S5000x128.Idx) (c : dot_S5000x128_S128x128_S5000x128_1_0_0_1_n_n.contr.Idx) : (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Either product (both are [5000,128] by [128,128]) into a zero accumulator, at row p and column q: the sum over the shared axis. -/
theorem mm_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ j : Fin 128, l (ix2 p j) * r (ix2 j q) := by
  refine (Ideal.matmul_constant_zero_apply dot_S5000x128_S128x128_S5000x128_1_0_0_1_n_n none l r (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact mm_l0 _ _
    | ⟨1, _⟩ => exact (mm_l1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (mm_r0 _ _).trans hk
    | ⟨1, _⟩ => exact mm_r1 _ _)
  rw [el, er]

/-- The body's arithmetic at row p and column q of a block: the layer's output unit q of the block's row p of h + agg. -/
theorem pay_apply (x0 x1 : Vec Ideal S5000x128 .f32) (x2 : Vec Ideal S128x128 .f32) (x3 x4 x5 x6 x7 : Vec Ideal S128 .f32)
    (x8 : Vec Ideal S128x128 .f32) (x9 : Vec Ideal S128 .f32) (p : Fin 5000) (q : Fin 128) :
    k2_pay1 (F := Ideal) (k2_pay2 x0 x1 x2 x3 x4 x7 x6 x5 x8 x9) (Scalar.ofBits .f32 0x00000000#32) (ix2 p q)
      = Cert.Gin.mlpAt (fun j => x0 (ix2 p j) + x1 (ix2 p j)) x2 x3 x4 x5 x6 x7 x8 x9 q := by
  unfold k2_pay1 k2_pay2 Cert.Gin.mlpAt Cert.Gin.hidden
  dsimp only
  simp only [maximumf_apply, addf_apply, subf_apply, mulf_apply, truncf_apply, broadcast_apply, row_apply, mm_apply, shapeCast_self]
  rfl

/-! ## From blocks to the array

The grid is 20 points. At point t the two row-blocked inputs and the output take rows 5000·t … 5000·t + 4999 of their
arrays; every weight matrix and vector is staged whole (block index 0) at every point. -/

/-- The zero offsets of a whole rank-2 rectangle, as the printed program spells them. -/
theorem off2_zero : (![0, 0] : Fin 2 → Nat) = fun _ => 0 := funext fun a => by fin_cases a <;> rfl
/-- The zero offset of a whole rank-1 rectangle. -/
theorem off1_zero : (![0] : Fin 1 → Nat) = fun _ => 0 := funext fun a => by fin_cases a <;> rfl

/-- The printed index maps, decided over the 20 grid points: the two row-blocked inputs and the output take row block t,
    every weight matrix and vector its block 0. -/
theorem idx_facts : ∀ t : Fin cfg2.N,
      (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ win2_3.index t (0 : Fin 1) = 0
    ∧ win2_4.index t (0 : Fin 1) = 0
    ∧ win2_5.index t (0 : Fin 1) = 0
    ∧ win2_6.index t (0 : Fin 1) = 0
    ∧ win2_7.index t (0 : Fin 1) = 0
    ∧ (win2_8.index t (0 : Fin 2) = 0 ∧ win2_8.index t (1 : Fin 2) = 0)
    ∧ win2_9.index t (0 : Fin 1) = 0
    ∧ (win2_10.index t (0 : Fin 2) = t.val ∧ win2_10.index t (1 : Fin 2) = 0) :=
  (by decide +kernel : ∀ t : Fin grid2.N, _)

/-- In the first row-blocked input, row p of block t is row 5000·t + p of the array, at the same column. -/
theorem emb0 (t : Fin cfg2.N) (e : win2_0.index t (0 : Fin 2) = t.val ∧ win2_0.index t (1 : Fin 2) = 0) (p : Fin 5000) (k : Fin 128)
    (r : Fin 100000) (hr : r.val = t.val * 5000 + p.val) : ((cfg2.win 0).blk t).view.emb (ix2 p k) = ix2 r k := by
  obtain ⟨e0, e1⟩ := e
  funext a; apply Fin.ext
  match a with
  | ⟨0, _⟩ => show win2_0.index t (0 : Fin 2) * 5000 + 1 * p.val = r.val; omega
  | ⟨1, _⟩ => show win2_0.index t (1 : Fin 2) * 128 + 1 * k.val = k.val; omega

/-- In the second row-blocked input, row p of block t is row 5000·t + p of the array, at the same column. -/
theorem emb1 (t : Fin cfg2.N) (e : win2_1.index t (0 : Fin 2) = t.val ∧ win2_1.index t (1 : Fin 2) = 0) (p : Fin 5000) (k : Fin 128)
    (r : Fin 100000) (hr : r.val = t.val * 5000 + p.val) : ((cfg2.win 1).blk t).view.emb (ix2 p k) = ix2 r k := by
  obtain ⟨e0, e1⟩ := e
  funext a; apply Fin.ext
  match a with
  | ⟨0, _⟩ => show win2_1.index t (0 : Fin 2) * 5000 + 1 * p.val = r.val; omega
  | ⟨1, _⟩ => show win2_1.index t (1 : Fin 2) * 128 + 1 * k.val = k.val; omega

/-- Window 2's block at block index zero is its whole matrix: an element sits at its own coordinates. -/
theorem emb2 (t : Fin cfg2.N) (e : win2_2.index t (0 : Fin 2) = 0 ∧ win2_2.index t (1 : Fin 2) = 0) (j : S128x128.Idx) : ((cfg2.win 2).blk t).view.emb j = j := by
  obtain ⟨e0, e1⟩ := e
  funext a; apply Fin.ext
  match a with
  | ⟨0, _⟩ => show win2_2.index t (0 : Fin 2) * 128 + 1 * (j 0).val = (j 0).val; omega
  | ⟨1, _⟩ => show win2_2.index t (1 : Fin 2) * 128 + 1 * (j 1).val = (j 1).val; omega

/-- Window 3's block at block index zero is its whole vector: an element sits at its own coordinate. -/
theorem emb3 (t : Fin cfg2.N) (e : win2_3.index t (0 : Fin 1) = 0) (j : S128.Idx) : ((cfg2.win 3).blk t).view.emb j = j := by
  funext a; apply Fin.ext
  match a with
  | ⟨0, _⟩ => show win2_3.index t (0 : Fin 1) * 128 + 1 * (j 0).val = (j 0).val; omega

/-- Window 4's block at block index zero is its whole vector: an element sits at its own coordinate. -/
theorem emb4 (t : Fin cfg2.N) (e : win2_4.index t (0 : Fin 1) = 0) (j : S128.Idx) : ((cfg2.win 4).blk t).view.emb j = j := by
  funext a; apply Fin.ext
  match a with
  | ⟨0, _⟩ => show win2_4.index t (0 : Fin 1) * 128 + 1 * (j 0).val = (j 0).val; omega

/-- Window 5's block at block index zero is its whole vector: an element sits at its own coordinate. -/
theorem emb5 (t : Fin cfg2.N) (e : win2_5.index t (0 : Fin 1) = 0) (j : S128.Idx) : ((cfg2.win 5).blk t).view.emb j = j := by
  funext a; apply Fin.ext
  match a with
  | ⟨0, _⟩ => show win2_5.index t (0 : Fin 1) * 128 + 1 * (j 0).val = (j 0).val; omega

/-- Window 6's block at block index zero is its whole vector: an element sits at its own coordinate. -/
theorem emb6 (t : Fin cfg2.N) (e : win2_6.index t (0 : Fin 1) = 0) (j : S128.Idx) : ((cfg2.win 6).blk t).view.emb j = j := by
  funext a; apply Fin.ext
  match a with
  | ⟨0, _⟩ => show win2_6.index t (0 : Fin 1) * 128 + 1 * (j 0).val = (j 0).val; omega

/-- Window 7's block at block index zero is its whole vector: an element sits at its own coordinate. -/
theorem emb7 (t : Fin cfg2.N) (e : win2_7.index t (0 : Fin 1) = 0) (j : S128.Idx) : ((cfg2.win 7).blk t).view.emb j = j := by
  funext a; apply Fin.ext
  match a with
  | ⟨0, _⟩ => show win2_7.index t (0 : Fin 1) * 128 + 1 * (j 0).val = (j 0).val; omega

/-- Window 8's block at block index zero is its whole matrix: an element sits at its own coordinates. -/
theorem emb8 (t : Fin cfg2.N) (e : win2_8.index t (0 : Fin 2) = 0 ∧ win2_8.index t (1 : Fin 2) = 0) (j : S128x128.Idx) : ((cfg2.win 8).blk t).view.emb j = j := by
  obtain ⟨e0, e1⟩ := e
  funext a; apply Fin.ext
  match a with
  | ⟨0, _⟩ => show win2_8.index t (0 : Fin 2) * 128 + 1 * (j 0).val = (j 0).val; omega
  | ⟨1, _⟩ => show win2_8.index t (1 : Fin 2) * 128 + 1 * (j 1).val = (j 1).val; omega

/-- Window 9's block at block index zero is its whole vector: an element sits at its own coordinate. -/
theorem emb9 (t : Fin cfg2.N) (e : win2_9.index t (0 : Fin 1) = 0) (j : S128.Idx) : ((cfg2.win 9).blk t).view.emb j = j := by
  funext a; apply Fin.ext
  match a with
  | ⟨0, _⟩ => show win2_9.index t (0 : Fin 1) * 128 + 1 * (j 0).val = (j 0).val; omega

/-- In the output, row p of block t is row 5000·t + p of the array, at the same column. -/
theorem emb10 (t : Fin cfg2.N) (e : win2_10.index t (0 : Fin 2) = t.val ∧ win2_10.index t (1 : Fin 2) = 0) (p : Fin 5000) (k : Fin 128)
    (r : Fin 100000) (hr : r.val = t.val * 5000 + p.val) : ((cfg2.win 10).blk t).view.emb (ix2 p k) = ix2 r k := by
  obtain ⟨e0, e1⟩ := e
  funext a; apply Fin.ext
  match a with
  | ⟨0, _⟩ => show win2_10.index t (0 : Fin 2) * 5000 + 1 * p.val = r.val; omega
  | ⟨1, _⟩ => show win2_10.index t (1 : Fin 2) * 128 + 1 * k.val = k.val; omega

variable (V : (c : Dev Cert.KernelIdeal.nD) → (b : Ref Cert.KernelIdeal.sig .tc) → Buf (Elt Ideal) ((c : Thread Cert.KernelIdeal.nD Cert.KernelIdeal.τ).loc b))

/-- So window 0's block at point t holds rows 5000·t … 5000·t + 4999 of the array the region finds. -/
theorem block0_row (c : Dev Cert.KernelIdeal.nD) (t : Fin cfg2.N) (e : win2_0.index t (0 : Fin 2) = t.val ∧ win2_0.index t (1 : Fin 2) = 0) (p : Fin 5000) (k : Fin 128)
    (r : Fin 100000) (hr : r.val = t.val * 5000 + p.val) :
    (iblk2 V c 0 t : Vec Ideal S5000x128 .f32) (ix2 p k) = (V c main_v25 : Cert.Gin.Mat 100000 128) (ix2 r k) :=
  (show V c main_v25 (((cfg2.win 0).blk t).view.emb (ix2 p k)) = V c main_v25 (ix2 r k) from congrArg _ (emb0 t e p k r hr))

/-- So window 1's block at point t holds rows 5000·t … 5000·t + 4999 of the array the region finds. -/
theorem block1_row (c : Dev Cert.KernelIdeal.nD) (t : Fin cfg2.N) (e : win2_1.index t (0 : Fin 2) = t.val ∧ win2_1.index t (1 : Fin 2) = 0) (p : Fin 5000) (k : Fin 128)
    (r : Fin 100000) (hr : r.val = t.val * 5000 + p.val) :
    (iblk2 V c 1 t : Vec Ideal S5000x128 .f32) (ix2 p k) = (V c main_v35 : Cert.Gin.Mat 100000 128) (ix2 r k) :=
  (show V c main_v35 (((cfg2.win 1).blk t).view.emb (ix2 p k)) = V c main_v35 (ix2 r k) from congrArg _ (emb1 t e p k r hr))

/-- So window 2's block, read off the array the region finds, is that whole array. -/
theorem block2_eq (c : Dev Cert.KernelIdeal.nD) (t : Fin cfg2.N) (e : win2_2.index t (0 : Fin 2) = 0 ∧ win2_2.index t (1 : Fin 2) = 0) :
    (iblk2 V c 2 t : Vec Ideal S128x128 .f32) = V c main_arg19 := funext fun j =>
  (show V c main_arg19 (((cfg2.win 2).blk t).view.emb j) = V c main_arg19 j from congrArg _ (emb2 t e j))

/-- So window 3's block, read off the array the region finds, is that whole array. -/
theorem block3_eq (c : Dev Cert.KernelIdeal.nD) (t : Fin cfg2.N) (e : win2_3.index t (0 : Fin 1) = 0) :
    (iblk2 V c 3 t : Vec Ideal S128 .f32) = V c main_arg20 := funext fun j =>
  (show V c main_arg20 (((cfg2.win 3).blk t).view.emb j) = V c main_arg20 j from congrArg _ (emb3 t e j))

/-- So window 4's block, read off the array the region finds, is that whole array. -/
theorem block4_eq (c : Dev Cert.KernelIdeal.nD) (t : Fin cfg2.N) (e : win2_4.index t (0 : Fin 1) = 0) :
    (iblk2 V c 4 t : Vec Ideal S128 .f32) = V c main_arg21 := funext fun j =>
  (show V c main_arg21 (((cfg2.win 4).blk t).view.emb j) = V c main_arg21 j from congrArg _ (emb4 t e j))

/-- So window 5's block, read off the array the region finds, is that whole array. -/
theorem block5_eq (c : Dev Cert.KernelIdeal.nD) (t : Fin cfg2.N) (e : win2_5.index t (0 : Fin 1) = 0) :
    (iblk2 V c 5 t : Vec Ideal S128 .f32) = V c main_arg22 := funext fun j =>
  (show V c main_arg22 (((cfg2.win 5).blk t).view.emb j) = V c main_arg22 j from congrArg _ (emb5 t e j))

/-- So window 6's block, read off the array the region finds, is that whole array. -/
theorem block6_eq (c : Dev Cert.KernelIdeal.nD) (t : Fin cfg2.N) (e : win2_6.index t (0 : Fin 1) = 0) :
    (iblk2 V c 6 t : Vec Ideal S128 .f32) = V c main_arg23 := funext fun j =>
  (show V c main_arg23 (((cfg2.win 6).blk t).view.emb j) = V c main_arg23 j from congrArg _ (emb6 t e j))

/-- So window 7's block, read off the array the region finds, is that whole array. -/
theorem block7_eq (c : Dev Cert.KernelIdeal.nD) (t : Fin cfg2.N) (e : win2_7.index t (0 : Fin 1) = 0) :
    (iblk2 V c 7 t : Vec Ideal S128 .f32) = V c main_arg24 := funext fun j =>
  (show V c main_arg24 (((cfg2.win 7).blk t).view.emb j) = V c main_arg24 j from congrArg _ (emb7 t e j))

/-- So window 8's block, read off the array the region finds, is that whole array. -/
theorem block8_eq (c : Dev Cert.KernelIdeal.nD) (t : Fin cfg2.N) (e : win2_8.index t (0 : Fin 2) = 0 ∧ win2_8.index t (1 : Fin 2) = 0) :
    (iblk2 V c 8 t : Vec Ideal S128x128 .f32) = V c main_arg25 := funext fun j =>
  (show V c main_arg25 (((cfg2.win 8).blk t).view.emb j) = V c main_arg25 j from congrArg _ (emb8 t e j))

/-- So window 9's block, read off the array the region finds, is that whole array. -/
theorem block9_eq (c : Dev Cert.KernelIdeal.nD) (t : Fin cfg2.N) (e : win2_9.index t (0 : Fin 1) = 0) :
    (iblk2 V c 9 t : Vec Ideal S128 .f32) = V c main_arg26 := funext fun j =>
  (show V c main_arg26 (((cfg2.win 9).blk t).view.emb j) = V c main_arg26 j from congrArg _ (emb9 t e j))

/-- The body's result at an index of point t's block is the layer's value at the index of the output array where the
    block's element sits: same column, row 5000·t + p, computed from that row of the two row-blocked arrays. -/
theorem block_point (c : Dev Cert.KernelIdeal.nD) (t : Fin cfg2.N)
    (e0 : win2_0.index t (0 : Fin 2) = t.val ∧ win2_0.index t (1 : Fin 2) = 0)
    (e1 : win2_1.index t (0 : Fin 2) = t.val ∧ win2_1.index t (1 : Fin 2) = 0)
    (e10 : win2_10.index t (0 : Fin 2) = t.val ∧ win2_10.index t (1 : Fin 2) = 0) (y : S5000x128.Idx) :
    k2_pay1 (F := Ideal) (k2_pay2 (iblk2 V c 0 t) (iblk2 V c 1 t) (V c main_arg19) (V c main_arg20) (V c main_arg21) (V c main_arg24) (V c main_arg23) (V c main_arg22) (V c main_arg25) (V c main_arg26)) (Scalar.ofBits .f32 0x00000000#32) y
      = Cert.Gin.MLP (V c main_v25) (V c main_v35) (V c main_arg19) (V c main_arg20) (V c main_arg21) (V c main_arg22) (V c main_arg23) (V c main_arg24) (V c main_arg25) (V c main_arg26) (((cfg2.win 10).blk t).view.emb y) := by
  obtain ⟨p, q, rfl⟩ : ∃ (p : Fin 5000) (q : Fin 128), y = ix2 p q := ⟨y 0, y 1, eq_ix2 y⟩
  have hN : grid2.N = 20 := N_2
  have ht : t.val < grid2.N := t.isLt
  rw [hN] at ht
  have hp : p.val < 5000 := p.isLt
  have hr : t.val * 5000 + p.val < 100000 := by omega
  rw [emb10 t e10 p q ⟨t.val * 5000 + p.val, hr⟩ rfl]
  refine (pay_apply _ _ _ _ _ _ _ _ _ _ p q).trans ?_
  unfold Cert.Gin.MLP
  exact congrArg (fun x : Fin 128 → EReal => Cert.Gin.mlpAt x (V c main_arg19) (V c main_arg20) (V c main_arg21) (V c main_arg22) (V c main_arg23) (V c main_arg24) (V c main_arg25) (V c main_arg26) q)
    (funext fun k => congrArg₂ (fun a b : EReal => a + b) (block0_row V c t e0 p k ⟨t.val * 5000 + p.val, hr⟩ rfl) (block1_row V c t e1 p k ⟨t.val * 5000 + p.val, hr⟩ rfl))

/-- What grid point t writes back is block t of the layer applied to the arrays as the region finds them:
    rows 5000·t … 5000·t + 4999, each row the layer's output of the same row of h + agg. -/
theorem flushed_eq (c : Dev Cert.KernelIdeal.nD) (t : Fin cfg2.N) :
    (dat2 (F := Ideal) V c).flushed 10 t = ((cfg2.win 10).blk t).view.read (Elt Ideal) (Cert.Gin.MLP (V c main_v25) (V c main_v35) (V c main_arg19) (V c main_arg20) (V c main_arg21) (V c main_arg22) (V c main_arg23) (V c main_arg24) (V c main_arg25) (V c main_arg26)) := by
  obtain ⟨e0, e1, e2, e3, e4, e5, e6, e7, e8, e9, e10⟩ := idx_facts t
  show (cfg2.win 10).cut (grid2.coords t) ((dat2 (F := Ideal) V c).after 10 t) = _
  rw [after2_10]
  unfold out2_10
  rw [View.canon_unit_zero off2_zero]
  simp only [View.ld_unit_zero (S := S5000x128) off2_zero, View.ld_unit_zero (S := S128x128) off2_zero, View.ld_unit_zero (S := S128) off1_zero]
  rw [block2_eq V c t e2, block3_eq V c t e3, block4_eq V c t e4, block5_eq V c t e5, block6_eq V c t e6, block7_eq V c t e7, block8_eq V c t e8, block9_eq V c t e9]
  funext y
  show k2_pay1 (F := Ideal) (k2_pay2 (iblk2 V c 0 t) (iblk2 V c 1 t) (V c main_arg19) (V c main_arg20) (V c main_arg21) (V c main_arg24) (V c main_arg23) (V c main_arg22) (V c main_arg25) (V c main_arg26)) (Scalar.ofBits .f32 0x00000000#32) y
    = Cert.Gin.MLP (V c main_v25) (V c main_v35) (V c main_arg19) (V c main_arg20) (V c main_arg21) (V c main_arg22) (V c main_arg23) (V c main_arg24) (V c main_arg25) (V c main_arg26) (((cfg2.win 10).blk t).view.emb y)
  exact block_point V c t e0 e1 e10 y

/-- An index of the output array is in point t's block iff each coordinate is in the block's range on its axis. -/
theorem mem_blk (t : Fin cfg2.N) (i : S100000x128.Idx) :
    i ∈ ((cfg2.win 10).blk t).view.set ↔ ∀ a : Fin 2, win2_10.index t a * S5000x128.size a ≤ (i a).val ∧ (i a).val < win2_10.index t a * S5000x128.size a + S5000x128.size a := by
  show i ∈ ((View.whole main_v36).slice (win2_10.rect t)).set ↔ _
  rw [View.set_slice_whole, Rect.mem_set_unit]
  exact Iff.rfl

/-- Every index of the output array is written back: row r lies in the block of point r / 5000. -/
theorem cover (i : S100000x128.Idx) :
    ∃ t : Fin cfg2.N, (cfg2.win 10).flush t = true ∧ i ∈ ((cfg2.win 10).blk t).view.set := by
  have hi0 : (i 0).val < 100000 := (i 0).isLt
  have hi1 : (i 1).val < 128 := (i 1).isLt
  have hN : grid2.N = 20 := N_2
  have ht : (i 0).val / 5000 < cfg2.N := by show (i 0).val / 5000 < grid2.N; rw [hN]; omega
  obtain ⟨-, -, -, -, -, -, -, -, -, -, e10⟩ := idx_facts ⟨(i 0).val / 5000, ht⟩
  refine ⟨⟨(i 0).val / 5000, ht⟩, flush2_10 _, ?_⟩
  rw [mem_blk]
  intro a
  match a with
  | ⟨0, _⟩ =>
    show win2_10.index ⟨(i 0).val / 5000, ht⟩ (0 : Fin 2) * 5000 ≤ (i 0).val ∧ (i 0).val < win2_10.index ⟨(i 0).val / 5000, ht⟩ (0 : Fin 2) * 5000 + 5000
    rw [e10.1]
    show (i 0).val / 5000 * 5000 ≤ (i 0).val ∧ (i 0).val < (i 0).val / 5000 * 5000 + 5000
    omega
  | ⟨1, _⟩ =>
    show win2_10.index ⟨(i 0).val / 5000, ht⟩ (1 : Fin 2) * 128 ≤ (i 1).val ∧ (i 1).val < win2_10.index ⟨(i 0).val / 5000, ht⟩ (1 : Fin 2) * 128 + 128
    rw [e10.2]
    omega

/-- The region's output array after its 20 write-backs is the layer applied, row by row, to the arrays the region found. -/
theorem value (V : (c : Dev Cert.KernelIdeal.nD) → (b : Ref Cert.KernelIdeal.sig .tc) → Buf (Elt Ideal) ((c : Thread Cert.KernelIdeal.nD Cert.KernelIdeal.τ).loc b)) (c : Dev Cert.KernelIdeal.nD) :
    (dat2 (F := Ideal) V c).arrAt 10 cfg2.N
      = Cert.Gin.MLP (V c main_v25) (V c main_v35) (V c main_arg19) (V c main_arg20) (V c main_arg21) (V c main_arg22) (V c main_arg23) (V c main_arg24) (V c main_arg25) (V c main_arg26) :=
  (dat2 (F := Ideal) V c).arrAt_eq_of_cover 10 _ (fun t _ => flushed_eq V c t) cover

end Cert.Gin.K2

end
-- ==== Proof.Region3.lean ====
/-
  The read-out head region as one value.

  The region's grid has a single point, and each of its six windows takes its whole array as its one block. The body
  loads the pooled rows `p` [2048,128], the weights `W1` [128,128] and `W2` [128,1] and the biases `b1` [128] and
  `b2` [1], and stores, at row `r` and the one column `q`,
    (∑ k, max ((∑ j, p r j · W1 j k) + b1 k) 0 · W2 k q) + b2 q.
  Over the extended reals the bf16 format changes are the identity and a product accumulated into a zero splat is the
  plain sum over the shared axis, so the body's result at an index is the specification's `headAt` of that row
  (`pay_at`), and the array the region leaves is `HEAD` of the five arrays it finds (`value`).
-/
import proofs.«175696_j22084721836226_1_alg».proof.Proof.Gen.KernelIdeal.Frame
import proofs.«175696_j22084721836226_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gin.K3

open Cert.KernelIdeal Cert.KernelIdeal.Gen
open Idealize.ShloMosaic Idealize.ShloMosaic.ValueIdx Idealize.ShloMosaic.TcCoe Idealize.SL.Sem
open Idealize.ShloMosaic.Pipeline (Dat)
open scoped BigOperators

/-! ## The two products read at an index

Each contracts the left operand's axis 1 with the right operand's axis 0. At output index `(p, k)` and contraction
position `j` the left operand is read at `(p, j)` and the right at `(j, k)`; the four lemmas before each product say so
coordinate by coordinate. -/

theorem dot1_lhs0 (i : S2048x128.Idx) (c : dot_S2048x128_S128x128_S2048x128_1_0_0_1_n_n.contr.Idx) : (dot_S2048x128_S128x128_S2048x128_1_0_0_1_n_n.lhsIdx i c 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem dot1_lhs1 (i : S2048x128.Idx) (c : dot_S2048x128_S128x128_S2048x128_1_0_0_1_n_n.contr.Idx) : (dot_S2048x128_S128x128_S2048x128_1_0_0_1_n_n.lhsIdx i c 1).val = (c ⟨0, by decide⟩).val :=
  dot_S2048x128_S128x128_S2048x128_1_0_0_1_n_n.lhsIdx_val_of_single rfl i c
theorem dot1_rhs0 (i : S2048x128.Idx) (c : dot_S2048x128_S128x128_S2048x128_1_0_0_1_n_n.contr.Idx) : (dot_S2048x128_S128x128_S2048x128_1_0_0_1_n_n.rhsIdx i c 0).val = (c ⟨0, by decide⟩).val :=
  dot_S2048x128_S128x128_S2048x128_1_0_0_1_n_n.rhsIdx_val_of_single rfl i c
theorem dot1_rhs1 (i : S2048x128.Idx) (c : dot_S2048x128_S128x128_S2048x128_1_0_0_1_n_n.contr.Idx) : (dot_S2048x128_S128x128_S2048x128_1_0_0_1_n_n.rhsIdx i c 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- The head's first product, a [2048,128] by [128,128] contraction into a zero accumulator, read at row `p` and column `k`:
    the plain sum over the shared axis. -/
theorem dot1_apply (a : FVec Ideal S2048x128 .bf16) (w : FVec Ideal S128x128 .bf16) (p : Fin 2048) (k : Fin 128) :
    matmul dot_S2048x128_S128x128_S2048x128_1_0_0_1_n_n none a w (constant (F := Ideal) S2048x128 .f32 0x00000000#32) (ix2 p k)
      = ∑ j : Fin 128, a (ix2 p j) * w (ix2 j k) := by
  simp only [matmul]
  rw [Ideal.matmul_constant_zero_apply, ← Equiv.sum_comp (ValueIdx.contrEquiv1 dot_S2048x128_S128x128_S2048x128_1_0_0_1_n_n 128 rfl rfl).symm]
  refine Finset.sum_congr rfl fun j _ => ?_
  have hk := ValueIdx.contrEquiv1_symm_val dot_S2048x128_S128x128_S2048x128_1_0_0_1_n_n 128 rfl rfl j
  have el : dot_S2048x128_S128x128_S2048x128_1_0_0_1_n_n.lhsIdx (ix2 p k) ((ValueIdx.contrEquiv1 dot_S2048x128_S128x128_S2048x128_1_0_0_1_n_n 128 rfl rfl).symm j) = ix2 p j := funext fun ax => Fin.ext (by
    match ax with
    | ⟨0, _⟩ => exact dot1_lhs0 _ _
    | ⟨1, _⟩ => exact (dot1_lhs1 _ _).trans hk)
  have er : dot_S2048x128_S128x128_S2048x128_1_0_0_1_n_n.rhsIdx (ix2 p k) ((ValueIdx.contrEquiv1 dot_S2048x128_S128x128_S2048x128_1_0_0_1_n_n 128 rfl rfl).symm j) = ix2 j k := funext fun ax => Fin.ext (by
    match ax with
    | ⟨0, _⟩ => exact (dot1_rhs0 _ _).trans hk
    | ⟨1, _⟩ => exact dot1_rhs1 _ _)
  rw [el, er]

theorem dot2_lhs0 (i : S2048x1.Idx) (c : dot_S2048x128_S128x1_S2048x1_1_0_0_1_n_n.contr.Idx) : (dot_S2048x128_S128x1_S2048x1_1_0_0_1_n_n.lhsIdx i c 0).val = (i 0).val := by
  unfold DotDims.lhsIdx
  rw [dif_neg (show ¬(0 : Fin S2048x128.rank) ∈ dot_S2048x128_S128x1_S2048x1_1_0_0_1_n_n.lhsBatch by decide), dif_pos (show (0 : Fin S2048x128.rank) ∈ dot_S2048x128_S128x1_S2048x1_1_0_0_1_n_n.lhsNonContracting by decide)]
  rfl
theorem dot2_lhs1 (i : S2048x1.Idx) (c : dot_S2048x128_S128x1_S2048x1_1_0_0_1_n_n.contr.Idx) : (dot_S2048x128_S128x1_S2048x1_1_0_0_1_n_n.lhsIdx i c 1).val = (c ⟨0, by decide⟩).val :=
  dot_S2048x128_S128x1_S2048x1_1_0_0_1_n_n.lhsIdx_val_of_single rfl i c
theorem dot2_rhs0 (i : S2048x1.Idx) (c : dot_S2048x128_S128x1_S2048x1_1_0_0_1_n_n.contr.Idx) : (dot_S2048x128_S128x1_S2048x1_1_0_0_1_n_n.rhsIdx i c 0).val = (c ⟨0, by decide⟩).val :=
  dot_S2048x128_S128x1_S2048x1_1_0_0_1_n_n.rhsIdx_val_of_single rfl i c
theorem dot2_rhs1 (i : S2048x1.Idx) (c : dot_S2048x128_S128x1_S2048x1_1_0_0_1_n_n.contr.Idx) : (dot_S2048x128_S128x1_S2048x1_1_0_0_1_n_n.rhsIdx i c 1).val = (i 1).val := by
  unfold DotDims.rhsIdx
  rw [dif_neg (show ¬(1 : Fin S128x1.rank) ∈ dot_S2048x128_S128x1_S2048x1_1_0_0_1_n_n.rhsBatch by decide), dif_pos (show (1 : Fin S128x1.rank) ∈ dot_S2048x128_S128x1_S2048x1_1_0_0_1_n_n.rhsNonContracting by decide)]
  rfl

/-- The head's second product, a [2048,128] by [128,1] contraction into a zero accumulator, read at row `p` and its one
    column `k`. -/
theorem dot2_apply (a : FVec Ideal S2048x128 .bf16) (w : FVec Ideal S128x1 .bf16) (p : Fin 2048) (k : Fin 1) :
    matmul dot_S2048x128_S128x1_S2048x1_1_0_0_1_n_n none a w (constant (F := Ideal) S2048x1 .f32 0x00000000#32) (ix2 p k)
      = ∑ j : Fin 128, a (ix2 p j) * w (ix2 j k) := by
  simp only [matmul]
  rw [Ideal.matmul_constant_zero_apply, ← Equiv.sum_comp (ValueIdx.contrEquiv1 dot_S2048x128_S128x1_S2048x1_1_0_0_1_n_n 128 rfl rfl).symm]
  refine Finset.sum_congr rfl fun j _ => ?_
  have hk := ValueIdx.contrEquiv1_symm_val dot_S2048x128_S128x1_S2048x1_1_0_0_1_n_n 128 rfl rfl j
  have el : dot_S2048x128_S128x1_S2048x1_1_0_0_1_n_n.lhsIdx (ix2 p k) ((ValueIdx.contrEquiv1 dot_S2048x128_S128x1_S2048x1_1_0_0_1_n_n 128 rfl rfl).symm j) = ix2 p j := funext fun ax => Fin.ext (by
    match ax with
    | ⟨0, _⟩ => exact dot2_lhs0 _ _
    | ⟨1, _⟩ => exact (dot2_lhs1 _ _).trans hk)
  have er : dot_S2048x128_S128x1_S2048x1_1_0_0_1_n_n.rhsIdx (ix2 p k) ((ValueIdx.contrEquiv1 dot_S2048x128_S128x1_S2048x1_1_0_0_1_n_n 128 rfl rfl).symm j) = ix2 j k := funext fun ax => Fin.ext (by
    match ax with
    | ⟨0, _⟩ => exact (dot2_rhs0 _ _).trans hk
    | ⟨1, _⟩ => exact dot2_rhs1 _ _)
  rw [el, er]

/-! ## The body at an index -/

/-- The whole body at a row `p` and its one column `q`: the head's output unit of row `p` of the pooled block.
    The bf16 format changes are the identity on extended reals, a shape cast to the same shape reads the same index,
    and each bias row [n] → [1,n] → [2048,n] reads its vector at the column. -/
theorem pay_at (x0 : Vec Ideal S2048x128 .f32) (x1 : Vec Ideal S128x128 .f32) (x2 : Vec Ideal S128 .f32)
    (x3 : Vec Ideal S128x1 .f32) (x4 : Vec Ideal S1 .f32) (p : Fin 2048) (q : Fin 1) :
    k3_pay1 (F := Ideal) x0 x1 x2 x3 x4 (ix2 p q) = Cert.Gin.headAt (fun j => x0 (ix2 p j)) x1 x2 x3 x4 q := by
  unfold k3_pay1 Cert.Gin.headAt
  refine (addf_apply _ _ _).trans ?_
  refine congrArg₂ (· + ·) ?_ ?_
  · refine (dot2_apply _ _ p q).trans ?_
    refine Finset.sum_congr rfl fun k _ => ?_
    refine congrArg₂ (· * ·) ?_ rfl
    refine (maximumf_apply _ _ _).trans ?_
    refine congrArg₂ max ?_ rfl
    refine (addf_apply _ _ _).trans ?_
    refine congrArg₂ (· + ·) ?_ ?_
    · refine (dot1_apply _ _ p k).trans ?_
      refine Finset.sum_congr rfl fun j _ => ?_
      refine congrArg₂ (· * ·) ?_ rfl
      exact congrFun (shapeCast_self x0 shapeCasts_S2048x128_S2048x128) (ix2 p j)
    · exact (broadcastTo_1b_ab_apply _ _ p k).trans (shapeCast_a_1a_apply _ _ _ k)
  · exact (broadcastTo_1b_ab_apply _ _ p q).trans (shapeCast_a_1a_apply _ _ _ q)

/-- So the body's whole result is the head of its five loaded blocks, as one function of the block index. -/
theorem pay_eq_head (x0 : Vec Ideal S2048x128 .f32) (x1 : Vec Ideal S128x128 .f32) (x2 : Vec Ideal S128 .f32)
    (x3 : Vec Ideal S128x1 .f32) (x4 : Vec Ideal S1 .f32) (y : S2048x1.Idx) :
    k3_pay1 (F := Ideal) x0 x1 x2 x3 x4 y = Cert.Gin.HEAD x0 x1 x2 x3 x4 y := by
  obtain ⟨p, q, rfl⟩ : ∃ (p : Fin 2048) (q : Fin 1), y = ix2 p q := ⟨y 0, y 1, eq_ix2 y⟩
  exact pay_at x0 x1 x2 x3 x4 p q

/-! ## From the one block to the array

The grid has one point and every printed index map is constantly zero, so each window's block is its whole array. -/

/-- The zero offsets of a whole rank-2 rectangle, as the printed program spells them. -/
theorem off2_zero : (![0, 0] : Fin 2 → Nat) = fun _ => 0 := funext fun a => by fin_cases a <;> rfl
/-- The zero offset of a whole rank-1 rectangle. -/
theorem off1_zero : (![0] : Fin 1 → Nat) = fun _ => 0 := funext fun a => by fin_cases a <;> rfl

/-- Every window's block index is zero on every axis, at every grid point (decided over the one point). -/
theorem idx_zero : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = 0 ∧ win3_3.index t (1 : Fin 2) = 0
    ∧ win3_4.index t (0 : Fin 1) = 0
    ∧ win3_5.index t (0 : Fin 2) = 0 ∧ win3_5.index t (1 : Fin 2) = 0 :=
  (by decide +kernel : ∀ t : Fin grid3.N, _)

/-- Window 0's block at block index zero is its whole array: a block's element sits at its own coordinates. -/
theorem emb0 (t : Fin cfg3.N) (e0 : win3_0.index t (0 : Fin 2) = 0) (e1 : win3_0.index t (1 : Fin 2) = 0) (j : S2048x128.Idx) : ((cfg3.win 0).blk t).view.emb j = j := by
  funext a; apply Fin.ext
  match a with
  | ⟨0, _⟩ => show win3_0.index t (0 : Fin 2) * 2048 + 1 * (j 0).val = (j 0).val; omega
  | ⟨1, _⟩ => show win3_0.index t (1 : Fin 2) * 128 + 1 * (j 1).val = (j 1).val; omega

/-- Window 1's block at block index zero is its whole array: a block's element sits at its own coordinates. -/
theorem emb1 (t : Fin cfg3.N) (e0 : win3_1.index t (0 : Fin 2) = 0) (e1 : win3_1.index t (1 : Fin 2) = 0) (j : S128x128.Idx) : ((cfg3.win 1).blk t).view.emb j = j := by
  funext a; apply Fin.ext
  match a with
  | ⟨0, _⟩ => show win3_1.index t (0 : Fin 2) * 128 + 1 * (j 0).val = (j 0).val; omega
  | ⟨1, _⟩ => show win3_1.index t (1 : Fin 2) * 128 + 1 * (j 1).val = (j 1).val; omega

/-- Window 2's block at block index zero is its whole array: a block's element sits at its own coordinates. -/
theorem emb2 (t : Fin cfg3.N) (e0 : win3_2.index t (0 : Fin 1) = 0) (j : S128.Idx) : ((cfg3.win 2).blk t).view.emb j = j := by
  funext a; apply Fin.ext
  match a with
  | ⟨0, _⟩ => show win3_2.index t (0 : Fin 1) * 128 + 1 * (j 0).val = (j 0).val; omega

/-- Window 3's block at block index zero is its whole array: a block's element sits at its own coordinates. -/
theorem emb3 (t : Fin cfg3.N) (e0 : win3_3.index t (0 : Fin 2) = 0) (e1 : win3_3.index t (1 : Fin 2) = 0) (j : S128x1.Idx) : ((cfg3.win 3).blk t).view.emb j = j := by
  funext a; apply Fin.ext
  match a with
  | ⟨0, _⟩ => show win3_3.index t (0 : Fin 2) * 128 + 1 * (j 0).val = (j 0).val; omega
  | ⟨1, _⟩ => show win3_3.index t (1 : Fin 2) * 1 + 1 * (j 1).val = (j 1).val; omega

/-- Window 4's block at block index zero is its whole array: a block's element sits at its own coordinates. -/
theorem emb4 (t : Fin cfg3.N) (e0 : win3_4.index t (0 : Fin 1) = 0) (j : S1.Idx) : ((cfg3.win 4).blk t).view.emb j = j := by
  funext a; apply Fin.ext
  match a with
  | ⟨0, _⟩ => show win3_4.index t (0 : Fin 1) * 1 + 1 * (j 0).val = (j 0).val; omega

/-- Window 5's block at block index zero is its whole array: a block's element sits at its own coordinates. -/
theorem emb5 (t : Fin cfg3.N) (e0 : win3_5.index t (0 : Fin 2) = 0) (e1 : win3_5.index t (1 : Fin 2) = 0) (j : S2048x1.Idx) : ((cfg3.win 5).blk t).view.emb j = j := by
  funext a; apply Fin.ext
  match a with
  | ⟨0, _⟩ => show win3_5.index t (0 : Fin 2) * 2048 + 1 * (j 0).val = (j 0).val; omega
  | ⟨1, _⟩ => show win3_5.index t (1 : Fin 2) * 1 + 1 * (j 1).val = (j 1).val; omega

variable (V : (c : Dev Cert.KernelIdeal.nD) → (b : Ref Cert.KernelIdeal.sig .tc) → Buf (Elt Ideal) ((c : Thread Cert.KernelIdeal.nD Cert.KernelIdeal.τ).loc b))

/-- So input window 0's block, read off the array the region finds, is that whole array. -/
theorem block0_eq (c : Dev Cert.KernelIdeal.nD) (t : Fin cfg3.N) (e0 : win3_0.index t (0 : Fin 2) = 0) (e1 : win3_0.index t (1 : Fin 2) = 0) :
    (iblk3 V c 0 t : Vec Ideal S2048x128 .f32) = V c main_v39 := funext fun j =>
  (show V c main_v39 (((cfg3.win 0).blk t).view.emb j) = V c main_v39 j from congrArg _ (emb0 t e0 e1 j))

/-- So input window 1's block, read off the array the region finds, is that whole array. -/
theorem block1_eq (c : Dev Cert.KernelIdeal.nD) (t : Fin cfg3.N) (e0 : win3_1.index t (0 : Fin 2) = 0) (e1 : win3_1.index t (1 : Fin 2) = 0) :
    (iblk3 V c 1 t : Vec Ideal S128x128 .f32) = V c main_arg27 := funext fun j =>
  (show V c main_arg27 (((cfg3.win 1).blk t).view.emb j) = V c main_arg27 j from congrArg _ (emb1 t e0 e1 j))

/-- So input window 2's block, read off the array the region finds, is that whole array. -/
theorem block2_eq (c : Dev Cert.KernelIdeal.nD) (t : Fin cfg3.N) (e0 : win3_2.index t (0 : Fin 1) = 0) :
    (iblk3 V c 2 t : Vec Ideal S128 .f32) = V c main_arg28 := funext fun j =>
  (show V c main_arg28 (((cfg3.win 2).blk t).view.emb j) = V c main_arg28 j from congrArg _ (emb2 t e0 j))

/-- So input window 3's block, read off the array the region finds, is that whole array. -/
theorem block3_eq (c : Dev Cert.KernelIdeal.nD) (t : Fin cfg3.N) (e0 : win3_3.index t (0 : Fin 2) = 0) (e1 : win3_3.index t (1 : Fin 2) = 0) :
    (iblk3 V c 3 t : Vec Ideal S128x1 .f32) = V c main_arg29 := funext fun j =>
  (show V c main_arg29 (((cfg3.win 3).blk t).view.emb j) = V c main_arg29 j from congrArg _ (emb3 t e0 e1 j))

/-- So input window 4's block, read off the array the region finds, is that whole array. -/
theorem block4_eq (c : Dev Cert.KernelIdeal.nD) (t : Fin cfg3.N) (e0 : win3_4.index t (0 : Fin 1) = 0) :
    (iblk3 V c 4 t : Vec Ideal S1 .f32) = V c main_arg30 := funext fun j =>
  (show V c main_arg30 (((cfg3.win 4).blk t).view.emb j) = V c main_arg30 j from congrArg _ (emb4 t e0 j))

/-- What a grid point writes back to the output's array is the whole head of the five arrays the region finds: each
    input block is its whole array, the body's result is the head of its blocks, and the output's block is the whole
    output array. -/
theorem flushed_eq (c : Dev Cert.KernelIdeal.nD) (t : Fin cfg3.N) :
    (dat3 (F := Ideal) V c).flushed 5 t = ((cfg3.win 5).blk t).view.read (Elt Ideal)
      (Cert.Gin.HEAD (V c main_v39) (V c main_arg27) (V c main_arg28) (V c main_arg29) (V c main_arg30)) := by
  obtain ⟨e00, e01, e10, e11, e20, e30, e31, e40, e50, e51⟩ := idx_zero t
  show (cfg3.win 5).cut (grid3.coords t) ((dat3 (F := Ideal) V c).after 5 t) = _
  rw [after3_5]
  unfold out3_5
  rw [View.canon_unit_zero off2_zero]
  simp only [View.ld_unit_zero (S := S2048x128) off2_zero, View.ld_unit_zero (S := S128x128) off2_zero,
    View.ld_unit_zero (S := S128) off1_zero, View.ld_unit_zero (S := S128x1) off2_zero, View.ld_unit_zero (S := S1) off1_zero]
  rw [block0_eq V c t e00 e01, block1_eq V c t e10 e11, block2_eq V c t e20, block3_eq V c t e30 e31, block4_eq V c t e40]
  funext y
  show k3_pay1 (F := Ideal) (V c main_v39) (V c main_arg27) (V c main_arg28) (V c main_arg29) (V c main_arg30) y
    = Cert.Gin.HEAD (V c main_v39) (V c main_arg27) (V c main_arg28) (V c main_arg29) (V c main_arg30) (((cfg3.win 5).blk t).view.emb y)
  rw [emb5 t e50 e51 y]
  exact pay_eq_head _ _ _ _ _ y

/-- An index of the output's array is in a point's block iff each coordinate is in the block's range on its axis. -/
theorem mem_blk (t : Fin cfg3.N) (i : S2048x1.Idx) :
    i ∈ ((cfg3.win 5).blk t).view.set ↔ ∀ a : Fin 2, win3_5.index t a * S2048x1.size a ≤ (i a).val ∧ (i a).val < win3_5.index t a * S2048x1.size a + S2048x1.size a := by
  show i ∈ ((View.whole main_v40).slice (win3_5.rect t)).set ↔ _
  rw [View.set_slice_whole, Rect.mem_set_unit]
  exact Iff.rfl

/-- The one point's block covers the whole output array: rows 0 … 2047 and the one column. -/
theorem cover (i : S2048x1.Idx) : ∃ t : Fin cfg3.N, (cfg3.win 5).flush t = true ∧ i ∈ ((cfg3.win 5).blk t).view.set := by
  refine ⟨t3_0, flush3_5 t3_0, ?_⟩
  rw [mem_blk]
  obtain ⟨-, -, -, -, -, -, -, -, e50, e51⟩ := idx_zero t3_0
  have hi0 : (i 0).val < 2048 := (i 0).isLt
  have hi1 : (i 1).val < 1 := (i 1).isLt
  intro a
  match a with
  | ⟨0, _⟩ => show win3_5.index t3_0 (0 : Fin 2) * 2048 ≤ (i 0).val ∧ (i 0).val < win3_5.index t3_0 (0 : Fin 2) * 2048 + 2048; omega
  | ⟨1, _⟩ => show win3_5.index t3_0 (1 : Fin 2) * 1 ≤ (i 1).val ∧ (i 1).val < win3_5.index t3_0 (1 : Fin 2) * 1 + 1; omega

/-- THE OUTPUT ARRAY after the region: the read-out head of the pooled rows and the four parameter arrays the region
    finds, row by row. -/
theorem value (V : (c : Dev Cert.KernelIdeal.nD) → (b : Ref Cert.KernelIdeal.sig .tc) → Buf (Elt Ideal) ((c : Thread Cert.KernelIdeal.nD Cert.KernelIdeal.τ).loc b)) (c : Dev Cert.KernelIdeal.nD) :
    (dat3 (F := Ideal) V c).arrAt 5 cfg3.N
      = Cert.Gin.HEAD (V c main_v39) (V c main_arg27) (V c main_arg28) (V c main_arg29) (V c main_arg30) :=
  (dat3 (F := Ideal) V c).arrAt_eq_of_cover 5 _ (fun t _ => flushed_eq V c t) cover

end Cert.Gin.K3

end
-- ==== Proof.KernelNet.lean ====
/-
  The idealized kernel's result as the network of its arguments.

  The contents of the unscoped buffers at the eight segment boundaries are a fold over the launch memory:
  a stretch of host operations rewrites exactly the buffers its operations write, a kernel region rewrites
  exactly its output array (to what its grid points write back) and leaves every other buffer alone. Read
  backwards from the result: the head region's output is the head of the pooled third layer; each layer's
  output is the layer of the previous one and its neighbour sum, computed by the host stretch in between
  from the edge indices sliced once, in the first stretch; and every weight reaches its region as launched.
-/
import proofs.«175696_j22084721836226_1_alg».proof.Proof.Gen.KernelIdeal.Frame
import proofs.«175696_j22084721836226_1_alg».proof.Proof.Net
import proofs.«175696_j22084721836226_1_alg».proof.Proof.Region0
import proofs.«175696_j22084721836226_1_alg».proof.Proof.Region1
import proofs.«175696_j22084721836226_1_alg».proof.Proof.Region2
import proofs.«175696_j22084721836226_1_alg».proof.Proof.Region3
import Idealize.ShloMosaic.Lib.StableHlo.Run

set_option maxRecDepth 16384

noncomputable section

namespace Cert.Gin.KNet

open Cert.KernelIdeal Cert.KernelIdeal.Gen
open Idealize.ShloMosaic Idealize.ShloMosaic.TcCoe Idealize.SL.Sem Idealize.ShloMosaic.StableHlo
open Cert.Gin.Net

variable (m : (ℓ : Loc nD τ sig) → Buf (Elt Ideal) ℓ) (ρ : Dev nD → PrngReg) (c : Dev nD)

/-! ## The arguments at each boundary: as launched -/

theorem W1_arg0 : W1 m ρ c (Proc.devRef .tc main_arg0) = m ((c.tc : Thread nD τ).loc main_arg0) := by
  show StableHlo.after hostOps0 (W0 m ρ c) (Proc.devRef .tc main_arg0) = _
  after_results
  all_goals rfl
theorem W1_arg2 : W1 m ρ c (Proc.devRef .tc main_arg2) = m ((c.tc : Thread nD τ).loc main_arg2) := by
  show StableHlo.after hostOps0 (W0 m ρ c) (Proc.devRef .tc main_arg2) = _
  after_results
  all_goals rfl
theorem W1_arg3 : W1 m ρ c (Proc.devRef .tc main_arg3) = m ((c.tc : Thread nD τ).loc main_arg3) := by
  show StableHlo.after hostOps0 (W0 m ρ c) (Proc.devRef .tc main_arg3) = _
  after_results
  all_goals rfl
theorem W1_arg4 : W1 m ρ c (Proc.devRef .tc main_arg4) = m ((c.tc : Thread nD τ).loc main_arg4) := by
  show StableHlo.after hostOps0 (W0 m ρ c) (Proc.devRef .tc main_arg4) = _
  after_results
  all_goals rfl
theorem W1_arg5 : W1 m ρ c (Proc.devRef .tc main_arg5) = m ((c.tc : Thread nD τ).loc main_arg5) := by
  show StableHlo.after hostOps0 (W0 m ρ c) (Proc.devRef .tc main_arg5) = _
  after_results
  all_goals rfl
theorem W1_arg6 : W1 m ρ c (Proc.devRef .tc main_arg6) = m ((c.tc : Thread nD τ).loc main_arg6) := by
  show StableHlo.after hostOps0 (W0 m ρ c) (Proc.devRef .tc main_arg6) = _
  after_results
  all_goals rfl
theorem W1_arg7 : W1 m ρ c (Proc.devRef .tc main_arg7) = m ((c.tc : Thread nD τ).loc main_arg7) := by
  show StableHlo.after hostOps0 (W0 m ρ c) (Proc.devRef .tc main_arg7) = _
  after_results
  all_goals rfl
theorem W1_arg8 : W1 m ρ c (Proc.devRef .tc main_arg8) = m ((c.tc : Thread nD τ).loc main_arg8) := by
  show StableHlo.after hostOps0 (W0 m ρ c) (Proc.devRef .tc main_arg8) = _
  after_results
  all_goals rfl
theorem W1_arg9 : W1 m ρ c (Proc.devRef .tc main_arg9) = m ((c.tc : Thread nD τ).loc main_arg9) := by
  show StableHlo.after hostOps0 (W0 m ρ c) (Proc.devRef .tc main_arg9) = _
  after_results
  all_goals rfl
theorem W1_arg10 : W1 m ρ c (Proc.devRef .tc main_arg10) = m ((c.tc : Thread nD τ).loc main_arg10) := by
  show StableHlo.after hostOps0 (W0 m ρ c) (Proc.devRef .tc main_arg10) = _
  after_results
  all_goals rfl
theorem W1_arg11 : W1 m ρ c (Proc.devRef .tc main_arg11) = m ((c.tc : Thread nD τ).loc main_arg11) := by
  show StableHlo.after hostOps0 (W0 m ρ c) (Proc.devRef .tc main_arg11) = _
  after_results
  all_goals rfl
theorem W1_arg12 : W1 m ρ c (Proc.devRef .tc main_arg12) = m ((c.tc : Thread nD τ).loc main_arg12) := by
  show StableHlo.after hostOps0 (W0 m ρ c) (Proc.devRef .tc main_arg12) = _
  after_results
  all_goals rfl
theorem W1_arg13 : W1 m ρ c (Proc.devRef .tc main_arg13) = m ((c.tc : Thread nD τ).loc main_arg13) := by
  show StableHlo.after hostOps0 (W0 m ρ c) (Proc.devRef .tc main_arg13) = _
  after_results
  all_goals rfl
theorem W1_arg14 : W1 m ρ c (Proc.devRef .tc main_arg14) = m ((c.tc : Thread nD τ).loc main_arg14) := by
  show StableHlo.after hostOps0 (W0 m ρ c) (Proc.devRef .tc main_arg14) = _
  after_results
  all_goals rfl
theorem W1_arg15 : W1 m ρ c (Proc.devRef .tc main_arg15) = m ((c.tc : Thread nD τ).loc main_arg15) := by
  show StableHlo.after hostOps0 (W0 m ρ c) (Proc.devRef .tc main_arg15) = _
  after_results
  all_goals rfl
theorem W1_arg16 : W1 m ρ c (Proc.devRef .tc main_arg16) = m ((c.tc : Thread nD τ).loc main_arg16) := by
  show StableHlo.after hostOps0 (W0 m ρ c) (Proc.devRef .tc main_arg16) = _
  after_results
  all_goals rfl
theorem W1_arg17 : W1 m ρ c (Proc.devRef .tc main_arg17) = m ((c.tc : Thread nD τ).loc main_arg17) := by
  show StableHlo.after hostOps0 (W0 m ρ c) (Proc.devRef .tc main_arg17) = _
  after_results
  all_goals rfl
theorem W1_arg18 : W1 m ρ c (Proc.devRef .tc main_arg18) = m ((c.tc : Thread nD τ).loc main_arg18) := by
  show StableHlo.after hostOps0 (W0 m ρ c) (Proc.devRef .tc main_arg18) = _
  after_results
  all_goals rfl
theorem W1_arg19 : W1 m ρ c (Proc.devRef .tc main_arg19) = m ((c.tc : Thread nD τ).loc main_arg19) := by
  show StableHlo.after hostOps0 (W0 m ρ c) (Proc.devRef .tc main_arg19) = _
  after_results
  all_goals rfl
theorem W1_arg20 : W1 m ρ c (Proc.devRef .tc main_arg20) = m ((c.tc : Thread nD τ).loc main_arg20) := by
  show StableHlo.after hostOps0 (W0 m ρ c) (Proc.devRef .tc main_arg20) = _
  after_results
  all_goals rfl
theorem W1_arg21 : W1 m ρ c (Proc.devRef .tc main_arg21) = m ((c.tc : Thread nD τ).loc main_arg21) := by
  show StableHlo.after hostOps0 (W0 m ρ c) (Proc.devRef .tc main_arg21) = _
  after_results
  all_goals rfl
theorem W1_arg22 : W1 m ρ c (Proc.devRef .tc main_arg22) = m ((c.tc : Thread nD τ).loc main_arg22) := by
  show StableHlo.after hostOps0 (W0 m ρ c) (Proc.devRef .tc main_arg22) = _
  after_results
  all_goals rfl
theorem W1_arg23 : W1 m ρ c (Proc.devRef .tc main_arg23) = m ((c.tc : Thread nD τ).loc main_arg23) := by
  show StableHlo.after hostOps0 (W0 m ρ c) (Proc.devRef .tc main_arg23) = _
  after_results
  all_goals rfl
theorem W1_arg24 : W1 m ρ c (Proc.devRef .tc main_arg24) = m ((c.tc : Thread nD τ).loc main_arg24) := by
  show StableHlo.after hostOps0 (W0 m ρ c) (Proc.devRef .tc main_arg24) = _
  after_results
  all_goals rfl
theorem W1_arg25 : W1 m ρ c (Proc.devRef .tc main_arg25) = m ((c.tc : Thread nD τ).loc main_arg25) := by
  show StableHlo.after hostOps0 (W0 m ρ c) (Proc.devRef .tc main_arg25) = _
  after_results
  all_goals rfl
theorem W1_arg26 : W1 m ρ c (Proc.devRef .tc main_arg26) = m ((c.tc : Thread nD τ).loc main_arg26) := by
  show StableHlo.after hostOps0 (W0 m ρ c) (Proc.devRef .tc main_arg26) = _
  after_results
  all_goals rfl
theorem W1_arg27 : W1 m ρ c (Proc.devRef .tc main_arg27) = m ((c.tc : Thread nD τ).loc main_arg27) := by
  show StableHlo.after hostOps0 (W0 m ρ c) (Proc.devRef .tc main_arg27) = _
  after_results
  all_goals rfl
theorem W1_arg28 : W1 m ρ c (Proc.devRef .tc main_arg28) = m ((c.tc : Thread nD τ).loc main_arg28) := by
  show StableHlo.after hostOps0 (W0 m ρ c) (Proc.devRef .tc main_arg28) = _
  after_results
  all_goals rfl
theorem W1_arg29 : W1 m ρ c (Proc.devRef .tc main_arg29) = m ((c.tc : Thread nD τ).loc main_arg29) := by
  show StableHlo.after hostOps0 (W0 m ρ c) (Proc.devRef .tc main_arg29) = _
  after_results
  all_goals rfl
theorem W1_arg30 : W1 m ρ c (Proc.devRef .tc main_arg30) = m ((c.tc : Thread nD τ).loc main_arg30) := by
  show StableHlo.after hostOps0 (W0 m ρ c) (Proc.devRef .tc main_arg30) = _
  after_results
  all_goals rfl
theorem W2_arg2 : W2 m ρ c (Proc.devRef .tc main_arg2) = m ((c.tc : Thread nD τ).loc main_arg2) :=
  (W2_of_ne m ρ c main_arg2 (by decide)).trans (W1_arg2 m ρ c)
theorem W2_arg11 : W2 m ρ c (Proc.devRef .tc main_arg11) = m ((c.tc : Thread nD τ).loc main_arg11) :=
  (W2_of_ne m ρ c main_arg11 (by decide)).trans (W1_arg11 m ρ c)
theorem W2_arg12 : W2 m ρ c (Proc.devRef .tc main_arg12) = m ((c.tc : Thread nD τ).loc main_arg12) :=
  (W2_of_ne m ρ c main_arg12 (by decide)).trans (W1_arg12 m ρ c)
theorem W2_arg13 : W2 m ρ c (Proc.devRef .tc main_arg13) = m ((c.tc : Thread nD τ).loc main_arg13) :=
  (W2_of_ne m ρ c main_arg13 (by decide)).trans (W1_arg13 m ρ c)
theorem W2_arg14 : W2 m ρ c (Proc.devRef .tc main_arg14) = m ((c.tc : Thread nD τ).loc main_arg14) :=
  (W2_of_ne m ρ c main_arg14 (by decide)).trans (W1_arg14 m ρ c)
theorem W2_arg15 : W2 m ρ c (Proc.devRef .tc main_arg15) = m ((c.tc : Thread nD τ).loc main_arg15) :=
  (W2_of_ne m ρ c main_arg15 (by decide)).trans (W1_arg15 m ρ c)
theorem W2_arg16 : W2 m ρ c (Proc.devRef .tc main_arg16) = m ((c.tc : Thread nD τ).loc main_arg16) :=
  (W2_of_ne m ρ c main_arg16 (by decide)).trans (W1_arg16 m ρ c)
theorem W2_arg17 : W2 m ρ c (Proc.devRef .tc main_arg17) = m ((c.tc : Thread nD τ).loc main_arg17) :=
  (W2_of_ne m ρ c main_arg17 (by decide)).trans (W1_arg17 m ρ c)
theorem W2_arg18 : W2 m ρ c (Proc.devRef .tc main_arg18) = m ((c.tc : Thread nD τ).loc main_arg18) :=
  (W2_of_ne m ρ c main_arg18 (by decide)).trans (W1_arg18 m ρ c)
theorem W2_arg19 : W2 m ρ c (Proc.devRef .tc main_arg19) = m ((c.tc : Thread nD τ).loc main_arg19) :=
  (W2_of_ne m ρ c main_arg19 (by decide)).trans (W1_arg19 m ρ c)
theorem W2_arg20 : W2 m ρ c (Proc.devRef .tc main_arg20) = m ((c.tc : Thread nD τ).loc main_arg20) :=
  (W2_of_ne m ρ c main_arg20 (by decide)).trans (W1_arg20 m ρ c)
theorem W2_arg21 : W2 m ρ c (Proc.devRef .tc main_arg21) = m ((c.tc : Thread nD τ).loc main_arg21) :=
  (W2_of_ne m ρ c main_arg21 (by decide)).trans (W1_arg21 m ρ c)
theorem W2_arg22 : W2 m ρ c (Proc.devRef .tc main_arg22) = m ((c.tc : Thread nD τ).loc main_arg22) :=
  (W2_of_ne m ρ c main_arg22 (by decide)).trans (W1_arg22 m ρ c)
theorem W2_arg23 : W2 m ρ c (Proc.devRef .tc main_arg23) = m ((c.tc : Thread nD τ).loc main_arg23) :=
  (W2_of_ne m ρ c main_arg23 (by decide)).trans (W1_arg23 m ρ c)
theorem W2_arg24 : W2 m ρ c (Proc.devRef .tc main_arg24) = m ((c.tc : Thread nD τ).loc main_arg24) :=
  (W2_of_ne m ρ c main_arg24 (by decide)).trans (W1_arg24 m ρ c)
theorem W2_arg25 : W2 m ρ c (Proc.devRef .tc main_arg25) = m ((c.tc : Thread nD τ).loc main_arg25) :=
  (W2_of_ne m ρ c main_arg25 (by decide)).trans (W1_arg25 m ρ c)
theorem W2_arg26 : W2 m ρ c (Proc.devRef .tc main_arg26) = m ((c.tc : Thread nD τ).loc main_arg26) :=
  (W2_of_ne m ρ c main_arg26 (by decide)).trans (W1_arg26 m ρ c)
theorem W2_arg27 : W2 m ρ c (Proc.devRef .tc main_arg27) = m ((c.tc : Thread nD τ).loc main_arg27) :=
  (W2_of_ne m ρ c main_arg27 (by decide)).trans (W1_arg27 m ρ c)
theorem W2_arg28 : W2 m ρ c (Proc.devRef .tc main_arg28) = m ((c.tc : Thread nD τ).loc main_arg28) :=
  (W2_of_ne m ρ c main_arg28 (by decide)).trans (W1_arg28 m ρ c)
theorem W2_arg29 : W2 m ρ c (Proc.devRef .tc main_arg29) = m ((c.tc : Thread nD τ).loc main_arg29) :=
  (W2_of_ne m ρ c main_arg29 (by decide)).trans (W1_arg29 m ρ c)
theorem W2_arg30 : W2 m ρ c (Proc.devRef .tc main_arg30) = m ((c.tc : Thread nD τ).loc main_arg30) :=
  (W2_of_ne m ρ c main_arg30 (by decide)).trans (W1_arg30 m ρ c)
theorem W3_arg2 : W3 m ρ c (Proc.devRef .tc main_arg2) = m ((c.tc : Thread nD τ).loc main_arg2) := by
  show StableHlo.after hostOps1 (W2 m ρ c) (Proc.devRef .tc main_arg2) = _
  after_results
  exact W2_arg2 m ρ c
theorem W3_arg11 : W3 m ρ c (Proc.devRef .tc main_arg11) = m ((c.tc : Thread nD τ).loc main_arg11) := by
  show StableHlo.after hostOps1 (W2 m ρ c) (Proc.devRef .tc main_arg11) = _
  after_results
  exact W2_arg11 m ρ c
theorem W3_arg12 : W3 m ρ c (Proc.devRef .tc main_arg12) = m ((c.tc : Thread nD τ).loc main_arg12) := by
  show StableHlo.after hostOps1 (W2 m ρ c) (Proc.devRef .tc main_arg12) = _
  after_results
  exact W2_arg12 m ρ c
theorem W3_arg13 : W3 m ρ c (Proc.devRef .tc main_arg13) = m ((c.tc : Thread nD τ).loc main_arg13) := by
  show StableHlo.after hostOps1 (W2 m ρ c) (Proc.devRef .tc main_arg13) = _
  after_results
  exact W2_arg13 m ρ c
theorem W3_arg14 : W3 m ρ c (Proc.devRef .tc main_arg14) = m ((c.tc : Thread nD τ).loc main_arg14) := by
  show StableHlo.after hostOps1 (W2 m ρ c) (Proc.devRef .tc main_arg14) = _
  after_results
  exact W2_arg14 m ρ c
theorem W3_arg15 : W3 m ρ c (Proc.devRef .tc main_arg15) = m ((c.tc : Thread nD τ).loc main_arg15) := by
  show StableHlo.after hostOps1 (W2 m ρ c) (Proc.devRef .tc main_arg15) = _
  after_results
  exact W2_arg15 m ρ c
theorem W3_arg16 : W3 m ρ c (Proc.devRef .tc main_arg16) = m ((c.tc : Thread nD τ).loc main_arg16) := by
  show StableHlo.after hostOps1 (W2 m ρ c) (Proc.devRef .tc main_arg16) = _
  after_results
  exact W2_arg16 m ρ c
theorem W3_arg17 : W3 m ρ c (Proc.devRef .tc main_arg17) = m ((c.tc : Thread nD τ).loc main_arg17) := by
  show StableHlo.after hostOps1 (W2 m ρ c) (Proc.devRef .tc main_arg17) = _
  after_results
  exact W2_arg17 m ρ c
theorem W3_arg18 : W3 m ρ c (Proc.devRef .tc main_arg18) = m ((c.tc : Thread nD τ).loc main_arg18) := by
  show StableHlo.after hostOps1 (W2 m ρ c) (Proc.devRef .tc main_arg18) = _
  after_results
  exact W2_arg18 m ρ c
theorem W3_arg19 : W3 m ρ c (Proc.devRef .tc main_arg19) = m ((c.tc : Thread nD τ).loc main_arg19) := by
  show StableHlo.after hostOps1 (W2 m ρ c) (Proc.devRef .tc main_arg19) = _
  after_results
  exact W2_arg19 m ρ c
theorem W3_arg20 : W3 m ρ c (Proc.devRef .tc main_arg20) = m ((c.tc : Thread nD τ).loc main_arg20) := by
  show StableHlo.after hostOps1 (W2 m ρ c) (Proc.devRef .tc main_arg20) = _
  after_results
  exact W2_arg20 m ρ c
theorem W3_arg21 : W3 m ρ c (Proc.devRef .tc main_arg21) = m ((c.tc : Thread nD τ).loc main_arg21) := by
  show StableHlo.after hostOps1 (W2 m ρ c) (Proc.devRef .tc main_arg21) = _
  after_results
  exact W2_arg21 m ρ c
theorem W3_arg22 : W3 m ρ c (Proc.devRef .tc main_arg22) = m ((c.tc : Thread nD τ).loc main_arg22) := by
  show StableHlo.after hostOps1 (W2 m ρ c) (Proc.devRef .tc main_arg22) = _
  after_results
  exact W2_arg22 m ρ c
theorem W3_arg23 : W3 m ρ c (Proc.devRef .tc main_arg23) = m ((c.tc : Thread nD τ).loc main_arg23) := by
  show StableHlo.after hostOps1 (W2 m ρ c) (Proc.devRef .tc main_arg23) = _
  after_results
  exact W2_arg23 m ρ c
theorem W3_arg24 : W3 m ρ c (Proc.devRef .tc main_arg24) = m ((c.tc : Thread nD τ).loc main_arg24) := by
  show StableHlo.after hostOps1 (W2 m ρ c) (Proc.devRef .tc main_arg24) = _
  after_results
  exact W2_arg24 m ρ c
theorem W3_arg25 : W3 m ρ c (Proc.devRef .tc main_arg25) = m ((c.tc : Thread nD τ).loc main_arg25) := by
  show StableHlo.after hostOps1 (W2 m ρ c) (Proc.devRef .tc main_arg25) = _
  after_results
  exact W2_arg25 m ρ c
theorem W3_arg26 : W3 m ρ c (Proc.devRef .tc main_arg26) = m ((c.tc : Thread nD τ).loc main_arg26) := by
  show StableHlo.after hostOps1 (W2 m ρ c) (Proc.devRef .tc main_arg26) = _
  after_results
  exact W2_arg26 m ρ c
theorem W3_arg27 : W3 m ρ c (Proc.devRef .tc main_arg27) = m ((c.tc : Thread nD τ).loc main_arg27) := by
  show StableHlo.after hostOps1 (W2 m ρ c) (Proc.devRef .tc main_arg27) = _
  after_results
  exact W2_arg27 m ρ c
theorem W3_arg28 : W3 m ρ c (Proc.devRef .tc main_arg28) = m ((c.tc : Thread nD τ).loc main_arg28) := by
  show StableHlo.after hostOps1 (W2 m ρ c) (Proc.devRef .tc main_arg28) = _
  after_results
  exact W2_arg28 m ρ c
theorem W3_arg29 : W3 m ρ c (Proc.devRef .tc main_arg29) = m ((c.tc : Thread nD τ).loc main_arg29) := by
  show StableHlo.after hostOps1 (W2 m ρ c) (Proc.devRef .tc main_arg29) = _
  after_results
  exact W2_arg29 m ρ c
theorem W3_arg30 : W3 m ρ c (Proc.devRef .tc main_arg30) = m ((c.tc : Thread nD τ).loc main_arg30) := by
  show StableHlo.after hostOps1 (W2 m ρ c) (Proc.devRef .tc main_arg30) = _
  after_results
  exact W2_arg30 m ρ c
theorem W4_arg2 : W4 m ρ c (Proc.devRef .tc main_arg2) = m ((c.tc : Thread nD τ).loc main_arg2) :=
  (W4_of_ne m ρ c main_arg2 (by decide)).trans (W3_arg2 m ρ c)
theorem W4_arg19 : W4 m ρ c (Proc.devRef .tc main_arg19) = m ((c.tc : Thread nD τ).loc main_arg19) :=
  (W4_of_ne m ρ c main_arg19 (by decide)).trans (W3_arg19 m ρ c)
theorem W4_arg20 : W4 m ρ c (Proc.devRef .tc main_arg20) = m ((c.tc : Thread nD τ).loc main_arg20) :=
  (W4_of_ne m ρ c main_arg20 (by decide)).trans (W3_arg20 m ρ c)
theorem W4_arg21 : W4 m ρ c (Proc.devRef .tc main_arg21) = m ((c.tc : Thread nD τ).loc main_arg21) :=
  (W4_of_ne m ρ c main_arg21 (by decide)).trans (W3_arg21 m ρ c)
theorem W4_arg22 : W4 m ρ c (Proc.devRef .tc main_arg22) = m ((c.tc : Thread nD τ).loc main_arg22) :=
  (W4_of_ne m ρ c main_arg22 (by decide)).trans (W3_arg22 m ρ c)
theorem W4_arg23 : W4 m ρ c (Proc.devRef .tc main_arg23) = m ((c.tc : Thread nD τ).loc main_arg23) :=
  (W4_of_ne m ρ c main_arg23 (by decide)).trans (W3_arg23 m ρ c)
theorem W4_arg24 : W4 m ρ c (Proc.devRef .tc main_arg24) = m ((c.tc : Thread nD τ).loc main_arg24) :=
  (W4_of_ne m ρ c main_arg24 (by decide)).trans (W3_arg24 m ρ c)
theorem W4_arg25 : W4 m ρ c (Proc.devRef .tc main_arg25) = m ((c.tc : Thread nD τ).loc main_arg25) :=
  (W4_of_ne m ρ c main_arg25 (by decide)).trans (W3_arg25 m ρ c)
theorem W4_arg26 : W4 m ρ c (Proc.devRef .tc main_arg26) = m ((c.tc : Thread nD τ).loc main_arg26) :=
  (W4_of_ne m ρ c main_arg26 (by decide)).trans (W3_arg26 m ρ c)
theorem W4_arg27 : W4 m ρ c (Proc.devRef .tc main_arg27) = m ((c.tc : Thread nD τ).loc main_arg27) :=
  (W4_of_ne m ρ c main_arg27 (by decide)).trans (W3_arg27 m ρ c)
theorem W4_arg28 : W4 m ρ c (Proc.devRef .tc main_arg28) = m ((c.tc : Thread nD τ).loc main_arg28) :=
  (W4_of_ne m ρ c main_arg28 (by decide)).trans (W3_arg28 m ρ c)
theorem W4_arg29 : W4 m ρ c (Proc.devRef .tc main_arg29) = m ((c.tc : Thread nD τ).loc main_arg29) :=
  (W4_of_ne m ρ c main_arg29 (by decide)).trans (W3_arg29 m ρ c)
theorem W4_arg30 : W4 m ρ c (Proc.devRef .tc main_arg30) = m ((c.tc : Thread nD τ).loc main_arg30) :=
  (W4_of_ne m ρ c main_arg30 (by decide)).trans (W3_arg30 m ρ c)
theorem W5_arg2 : W5 m ρ c (Proc.devRef .tc main_arg2) = m ((c.tc : Thread nD τ).loc main_arg2) := by
  show StableHlo.after hostOps2 (W4 m ρ c) (Proc.devRef .tc main_arg2) = _
  after_results
  exact W4_arg2 m ρ c
theorem W5_arg19 : W5 m ρ c (Proc.devRef .tc main_arg19) = m ((c.tc : Thread nD τ).loc main_arg19) := by
  show StableHlo.after hostOps2 (W4 m ρ c) (Proc.devRef .tc main_arg19) = _
  after_results
  exact W4_arg19 m ρ c
theorem W5_arg20 : W5 m ρ c (Proc.devRef .tc main_arg20) = m ((c.tc : Thread nD τ).loc main_arg20) := by
  show StableHlo.after hostOps2 (W4 m ρ c) (Proc.devRef .tc main_arg20) = _
  after_results
  exact W4_arg20 m ρ c
theorem W5_arg21 : W5 m ρ c (Proc.devRef .tc main_arg21) = m ((c.tc : Thread nD τ).loc main_arg21) := by
  show StableHlo.after hostOps2 (W4 m ρ c) (Proc.devRef .tc main_arg21) = _
  after_results
  exact W4_arg21 m ρ c
theorem W5_arg22 : W5 m ρ c (Proc.devRef .tc main_arg22) = m ((c.tc : Thread nD τ).loc main_arg22) := by
  show StableHlo.after hostOps2 (W4 m ρ c) (Proc.devRef .tc main_arg22) = _
  after_results
  exact W4_arg22 m ρ c
theorem W5_arg23 : W5 m ρ c (Proc.devRef .tc main_arg23) = m ((c.tc : Thread nD τ).loc main_arg23) := by
  show StableHlo.after hostOps2 (W4 m ρ c) (Proc.devRef .tc main_arg23) = _
  after_results
  exact W4_arg23 m ρ c
theorem W5_arg24 : W5 m ρ c (Proc.devRef .tc main_arg24) = m ((c.tc : Thread nD τ).loc main_arg24) := by
  show StableHlo.after hostOps2 (W4 m ρ c) (Proc.devRef .tc main_arg24) = _
  after_results
  exact W4_arg24 m ρ c
theorem W5_arg25 : W5 m ρ c (Proc.devRef .tc main_arg25) = m ((c.tc : Thread nD τ).loc main_arg25) := by
  show StableHlo.after hostOps2 (W4 m ρ c) (Proc.devRef .tc main_arg25) = _
  after_results
  exact W4_arg25 m ρ c
theorem W5_arg26 : W5 m ρ c (Proc.devRef .tc main_arg26) = m ((c.tc : Thread nD τ).loc main_arg26) := by
  show StableHlo.after hostOps2 (W4 m ρ c) (Proc.devRef .tc main_arg26) = _
  after_results
  exact W4_arg26 m ρ c
theorem W5_arg27 : W5 m ρ c (Proc.devRef .tc main_arg27) = m ((c.tc : Thread nD τ).loc main_arg27) := by
  show StableHlo.after hostOps2 (W4 m ρ c) (Proc.devRef .tc main_arg27) = _
  after_results
  exact W4_arg27 m ρ c
theorem W5_arg28 : W5 m ρ c (Proc.devRef .tc main_arg28) = m ((c.tc : Thread nD τ).loc main_arg28) := by
  show StableHlo.after hostOps2 (W4 m ρ c) (Proc.devRef .tc main_arg28) = _
  after_results
  exact W4_arg28 m ρ c
theorem W5_arg29 : W5 m ρ c (Proc.devRef .tc main_arg29) = m ((c.tc : Thread nD τ).loc main_arg29) := by
  show StableHlo.after hostOps2 (W4 m ρ c) (Proc.devRef .tc main_arg29) = _
  after_results
  exact W4_arg29 m ρ c
theorem W5_arg30 : W5 m ρ c (Proc.devRef .tc main_arg30) = m ((c.tc : Thread nD τ).loc main_arg30) := by
  show StableHlo.after hostOps2 (W4 m ρ c) (Proc.devRef .tc main_arg30) = _
  after_results
  exact W4_arg30 m ρ c
theorem W6_arg2 : W6 m ρ c (Proc.devRef .tc main_arg2) = m ((c.tc : Thread nD τ).loc main_arg2) :=
  (W6_of_ne m ρ c main_arg2 (by decide)).trans (W5_arg2 m ρ c)
theorem W6_arg27 : W6 m ρ c (Proc.devRef .tc main_arg27) = m ((c.tc : Thread nD τ).loc main_arg27) :=
  (W6_of_ne m ρ c main_arg27 (by decide)).trans (W5_arg27 m ρ c)
theorem W6_arg28 : W6 m ρ c (Proc.devRef .tc main_arg28) = m ((c.tc : Thread nD τ).loc main_arg28) :=
  (W6_of_ne m ρ c main_arg28 (by decide)).trans (W5_arg28 m ρ c)
theorem W6_arg29 : W6 m ρ c (Proc.devRef .tc main_arg29) = m ((c.tc : Thread nD τ).loc main_arg29) :=
  (W6_of_ne m ρ c main_arg29 (by decide)).trans (W5_arg29 m ρ c)
theorem W6_arg30 : W6 m ρ c (Proc.devRef .tc main_arg30) = m ((c.tc : Thread nD τ).loc main_arg30) :=
  (W6_of_ne m ρ c main_arg30 (by decide)).trans (W5_arg30 m ρ c)
theorem W7_arg27 : W7 m ρ c (Proc.devRef .tc main_arg27) = m ((c.tc : Thread nD τ).loc main_arg27) := by
  show StableHlo.after hostOps3 (W6 m ρ c) (Proc.devRef .tc main_arg27) = _
  after_results
  exact W6_arg27 m ρ c
theorem W7_arg28 : W7 m ρ c (Proc.devRef .tc main_arg28) = m ((c.tc : Thread nD τ).loc main_arg28) := by
  show StableHlo.after hostOps3 (W6 m ρ c) (Proc.devRef .tc main_arg28) = _
  after_results
  exact W6_arg28 m ρ c
theorem W7_arg29 : W7 m ρ c (Proc.devRef .tc main_arg29) = m ((c.tc : Thread nD τ).loc main_arg29) := by
  show StableHlo.after hostOps3 (W6 m ρ c) (Proc.devRef .tc main_arg29) = _
  after_results
  exact W6_arg29 m ρ c
theorem W7_arg30 : W7 m ρ c (Proc.devRef .tc main_arg30) = m ((c.tc : Thread nD τ).loc main_arg30) := by
  show StableHlo.after hostOps3 (W6 m ρ c) (Proc.devRef .tc main_arg30) = _
  after_results
  exact W6_arg30 m ρ c

/-! ## The edge indices: sliced and flattened once, in the first stretch, and kept -/

theorem W1_v1 : W1 m ρ c (Proc.devRef .tc main_v1) = Cert.ReferenceIdeal.Read.val_main_v1 (F := Ideal) (m ((c.tc : Thread nD τ).loc main_arg1)) := by
  show StableHlo.after hostOps0 (W0 m ρ c) (Proc.devRef .tc main_v1) = _
  after_results
  all_goals rfl
theorem W1_v3 : W1 m ρ c (Proc.devRef .tc main_v3) = Cert.ReferenceIdeal.Read.val_main_v3 (F := Ideal) (m ((c.tc : Thread nD τ).loc main_arg1)) := by
  show StableHlo.after hostOps0 (W0 m ρ c) (Proc.devRef .tc main_v3) = _
  after_results
  all_goals rfl
theorem W2_v1 : W2 m ρ c (Proc.devRef .tc main_v1) = Cert.ReferenceIdeal.Read.val_main_v1 (F := Ideal) (m ((c.tc : Thread nD τ).loc main_arg1)) :=
  (W2_of_ne m ρ c main_v1 (by decide)).trans (W1_v1 m ρ c)
theorem W2_v3 : W2 m ρ c (Proc.devRef .tc main_v3) = Cert.ReferenceIdeal.Read.val_main_v3 (F := Ideal) (m ((c.tc : Thread nD τ).loc main_arg1)) :=
  (W2_of_ne m ρ c main_v3 (by decide)).trans (W1_v3 m ρ c)
theorem W3_v1 : W3 m ρ c (Proc.devRef .tc main_v1) = Cert.ReferenceIdeal.Read.val_main_v1 (F := Ideal) (m ((c.tc : Thread nD τ).loc main_arg1)) := by
  show StableHlo.after hostOps1 (W2 m ρ c) (Proc.devRef .tc main_v1) = _
  after_results
  exact W2_v1 m ρ c
theorem W3_v3 : W3 m ρ c (Proc.devRef .tc main_v3) = Cert.ReferenceIdeal.Read.val_main_v3 (F := Ideal) (m ((c.tc : Thread nD τ).loc main_arg1)) := by
  show StableHlo.after hostOps1 (W2 m ρ c) (Proc.devRef .tc main_v3) = _
  after_results
  exact W2_v3 m ρ c
theorem W4_v1 : W4 m ρ c (Proc.devRef .tc main_v1) = Cert.ReferenceIdeal.Read.val_main_v1 (F := Ideal) (m ((c.tc : Thread nD τ).loc main_arg1)) :=
  (W4_of_ne m ρ c main_v1 (by decide)).trans (W3_v1 m ρ c)
theorem W4_v3 : W4 m ρ c (Proc.devRef .tc main_v3) = Cert.ReferenceIdeal.Read.val_main_v3 (F := Ideal) (m ((c.tc : Thread nD τ).loc main_arg1)) :=
  (W4_of_ne m ρ c main_v3 (by decide)).trans (W3_v3 m ρ c)

/-! ## Layer 1 -/

theorem V1_arg0 : V1 m ρ c main_arg0 = m ((c.tc : Thread nD τ).loc main_arg0) := W1_arg0 m ρ c
theorem V1_arg3 : V1 m ρ c main_arg3 = m ((c.tc : Thread nD τ).loc main_arg3) := W1_arg3 m ρ c
theorem V1_arg4 : V1 m ρ c main_arg4 = m ((c.tc : Thread nD τ).loc main_arg4) := W1_arg4 m ρ c
theorem V1_arg5 : V1 m ρ c main_arg5 = m ((c.tc : Thread nD τ).loc main_arg5) := W1_arg5 m ρ c
theorem V1_arg6 : V1 m ρ c main_arg6 = m ((c.tc : Thread nD τ).loc main_arg6) := W1_arg6 m ρ c
theorem V1_arg7 : V1 m ρ c main_arg7 = m ((c.tc : Thread nD τ).loc main_arg7) := W1_arg7 m ρ c
theorem V1_arg8 : V1 m ρ c main_arg8 = m ((c.tc : Thread nD τ).loc main_arg8) := W1_arg8 m ρ c
theorem V1_arg9 : V1 m ρ c main_arg9 = m ((c.tc : Thread nD τ).loc main_arg9) := W1_arg9 m ρ c
theorem V1_arg10 : V1 m ρ c main_arg10 = m ((c.tc : Thread nD τ).loc main_arg10) := W1_arg10 m ρ c
set_option maxHeartbeats 4000000 in
theorem V1_v13 : V1 m ρ c main_v13 = agg11 (m ((c.tc : Thread nD τ).loc main_arg0)) (m ((c.tc : Thread nD τ).loc main_arg1)) := by
  show StableHlo.after hostOps0 (W0 m ρ c) (Proc.devRef .tc main_v13) = _
  after_results
  all_goals rfl
set_option maxHeartbeats 4000000 in
theorem W2_v14 : W2 m ρ c (Proc.devRef .tc main_v14) = H1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (W2_arr m ρ c 10).trans ((Cert.Gin.K0.value (V1 m ρ) c).trans ?_)
  rw [V1_arg0 m ρ c, V1_v13 m ρ c, V1_arg3 m ρ c, V1_arg4 m ρ c, V1_arg5 m ρ c, V1_arg6 m ρ c, V1_arg7 m ρ c, V1_arg8 m ρ c, V1_arg9 m ρ c, V1_arg10 m ρ c]
  rfl

/-! ## Layer 2 -/

theorem V3_arg11 : V3 m ρ c main_arg11 = m ((c.tc : Thread nD τ).loc main_arg11) := W3_arg11 m ρ c
theorem V3_arg12 : V3 m ρ c main_arg12 = m ((c.tc : Thread nD τ).loc main_arg12) := W3_arg12 m ρ c
theorem V3_arg13 : V3 m ρ c main_arg13 = m ((c.tc : Thread nD τ).loc main_arg13) := W3_arg13 m ρ c
theorem V3_arg14 : V3 m ρ c main_arg14 = m ((c.tc : Thread nD τ).loc main_arg14) := W3_arg14 m ρ c
theorem V3_arg15 : V3 m ρ c main_arg15 = m ((c.tc : Thread nD τ).loc main_arg15) := W3_arg15 m ρ c
theorem V3_arg16 : V3 m ρ c main_arg16 = m ((c.tc : Thread nD τ).loc main_arg16) := W3_arg16 m ρ c
theorem V3_arg17 : V3 m ρ c main_arg17 = m ((c.tc : Thread nD τ).loc main_arg17) := W3_arg17 m ρ c
theorem V3_arg18 : V3 m ρ c main_arg18 = m ((c.tc : Thread nD τ).loc main_arg18) := W3_arg18 m ρ c
set_option maxHeartbeats 4000000 in
theorem V3_v14 : V3 m ρ c main_v14 = H1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  show StableHlo.after hostOps1 (W2 m ρ c) (Proc.devRef .tc main_v14) = _
  after_results
  exact W2_v14 m ρ c
set_option maxHeartbeats 4000000 in
theorem V3_v24 : V3 m ρ c main_v24 = agg128 (H1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg1)) := by
  show StableHlo.after hostOps1 (W2 m ρ c) (Proc.devRef .tc main_v24) = _
  after_results
  rw [W2_v14 m ρ c, W2_v1 m ρ c, W2_v3 m ρ c]
  rfl
set_option maxHeartbeats 4000000 in
theorem W4_v25 : W4 m ρ c (Proc.devRef .tc main_v25) = H2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) := by
  refine (W4_arr m ρ c 10).trans ((Cert.Gin.K1.value (V3 m ρ) c).trans ?_)
  rw [V3_v14 m ρ c, V3_v24 m ρ c, V3_arg11 m ρ c, V3_arg12 m ρ c, V3_arg13 m ρ c, V3_arg14 m ρ c, V3_arg15 m ρ c, V3_arg16 m ρ c, V3_arg17 m ρ c, V3_arg18 m ρ c]
  rfl

/-! ## Layer 3 -/

theorem V5_arg19 : V5 m ρ c main_arg19 = m ((c.tc : Thread nD τ).loc main_arg19) := W5_arg19 m ρ c
theorem V5_arg20 : V5 m ρ c main_arg20 = m ((c.tc : Thread nD τ).loc main_arg20) := W5_arg20 m ρ c
theorem V5_arg21 : V5 m ρ c main_arg21 = m ((c.tc : Thread nD τ).loc main_arg21) := W5_arg21 m ρ c
theorem V5_arg22 : V5 m ρ c main_arg22 = m ((c.tc : Thread nD τ).loc main_arg22) := W5_arg22 m ρ c
theorem V5_arg23 : V5 m ρ c main_arg23 = m ((c.tc : Thread nD τ).loc main_arg23) := W5_arg23 m ρ c
theorem V5_arg24 : V5 m ρ c main_arg24 = m ((c.tc : Thread nD τ).loc main_arg24) := W5_arg24 m ρ c
theorem V5_arg25 : V5 m ρ c main_arg25 = m ((c.tc : Thread nD τ).loc main_arg25) := W5_arg25 m ρ c
theorem V5_arg26 : V5 m ρ c main_arg26 = m ((c.tc : Thread nD τ).loc main_arg26) := W5_arg26 m ρ c
set_option maxHeartbeats 4000000 in
theorem V5_v25 : V5 m ρ c main_v25 = H2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) := by
  show StableHlo.after hostOps2 (W4 m ρ c) (Proc.devRef .tc main_v25) = _
  after_results
  exact W4_v25 m ρ c
set_option maxHeartbeats 4000000 in
theorem V5_v35 : V5 m ρ c main_v35 = agg128 (H2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))) (m ((c.tc : Thread nD τ).loc main_arg1)) := by
  show StableHlo.after hostOps2 (W4 m ρ c) (Proc.devRef .tc main_v35) = _
  after_results
  rw [W4_v25 m ρ c, W4_v1 m ρ c, W4_v3 m ρ c]
  rfl
set_option maxHeartbeats 4000000 in
theorem W6_v36 : W6 m ρ c (Proc.devRef .tc main_v36) = H3 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) := by
  refine (W6_arr m ρ c 10).trans ((Cert.Gin.K2.value (V5 m ρ) c).trans ?_)
  rw [V5_v25 m ρ c, V5_v35 m ρ c, V5_arg19 m ρ c, V5_arg20 m ρ c, V5_arg21 m ρ c, V5_arg22 m ρ c, V5_arg23 m ρ c, V5_arg24 m ρ c, V5_arg25 m ρ c, V5_arg26 m ρ c]
  rfl

/-! ## The pooling and the head -/

theorem V7_arg27 : V7 m ρ c main_arg27 = m ((c.tc : Thread nD τ).loc main_arg27) := W7_arg27 m ρ c
theorem V7_arg28 : V7 m ρ c main_arg28 = m ((c.tc : Thread nD τ).loc main_arg28) := W7_arg28 m ρ c
theorem V7_arg29 : V7 m ρ c main_arg29 = m ((c.tc : Thread nD τ).loc main_arg29) := W7_arg29 m ρ c
theorem V7_arg30 : V7 m ρ c main_arg30 = m ((c.tc : Thread nD τ).loc main_arg30) := W7_arg30 m ρ c
set_option maxHeartbeats 4000000 in
theorem V7_v39 : V7 m ρ c main_v39 = pool (H3 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26))) (m ((c.tc : Thread nD τ).loc main_arg2)) := by
  show StableHlo.after hostOps3 (W6 m ρ c) (Proc.devRef .tc main_v39) = _
  after_results
  rw [W6_v36 m ρ c, W6_arg2 m ρ c]
  rfl
set_option maxHeartbeats 4000000 in
/-- The result buffer at the last boundary is the network of the launch contents of the arguments. -/
theorem W8_v40 : W8 m ρ c (Proc.devRef .tc main_v40) = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) := by
  refine (W8_arr m ρ c 5).trans ((Cert.Gin.K3.value (V7 m ρ) c).trans ?_)
  rw [V7_v39 m ρ c, V7_arg27 m ρ c, V7_arg28 m ρ c, V7_arg29 m ρ c, V7_arg30 m ρ c]
  rfl

end Cert.Gin.KNet

end
-- ==== Proof.RefLayers.lean ====
/-
  The reference program, layer by layer, is the specification.

  Each layer of that program is a chain of whole-array operations: the sum of the node features and
  their neighbour sum, a contraction with the first weight matrix, four row vectors (bias, running mean,
  the scale g · rsqrt (v + ε), shift) broadcast over the 100000 rows and applied pointwise, a ReLU, a
  contraction with the second weight matrix, a broadcast bias and a second ReLU. Read at row r and column
  q, every broadcast reads its vector at the column, each contraction is a finite sum over the contracted
  axis, and the chain is literally the specification's formula for that entry. Nothing is rearranged, so no
  law of the extended reals beyond reading definitions is used, and no finiteness.

  The neighbour sums and the pooled rows are scatter-adds whose targets depend on the edge and batch
  index arrays; they are never opened here. A layer is stated as a function of the two arrays it is fed
  (the previous activations and their neighbour sum), whatever those are.

  Between layers the program applies one more ReLU to an array that is already a ReLU; max (max x 0) 0 is
  max x 0, so that stage equals the one before it.

  The read-out head is the same reading with one ReLU: contraction, broadcast bias, ReLU, contraction
  onto a single column, and a bias of length one read at its only entry.
-/
import proofs.«175696_j22084721836226_1_alg».proof.Proof.Gen.ReferenceIdeal.Read
import proofs.«175696_j22084721836226_1_alg».proof.Proof.Spec
import Idealize.ShloMosaic.Lib.ValueIdx
import Idealize.ShloMosaic.PureOps.Ideal.Laws

set_option maxRecDepth 16384

noncomputable section

namespace Cert.Gin.Ref

open Cert.ReferenceIdeal Cert.ReferenceIdeal.Read
open Idealize.ShloMosaic Idealize.ShloMosaic.ValueIdx
open scoped BigOperators

/-- Layer 1, first half: at row `r` and hidden unit `k`, the stage after the first ReLU is Linear → BatchNorm → ReLU
    of the row `h r + agg r`. The four row broadcasts read their vector at `k`; the contraction runs over the 11 input features. -/
theorem hidden1 (x0 : (⟨S100000x11, .f32⟩ : BufTy).Contents (Elt Ideal)) (x1 : (⟨S2x1600000, .i32⟩ : BufTy).Contents (Elt Ideal)) (x3 : (⟨S11x128, .f32⟩ : BufTy).Contents (Elt Ideal)) (x4 x5 x6 x7 x8 : (⟨S128, .f32⟩ : BufTy).Contents (Elt Ideal))
    (r : Fin 100000) (k : Fin 128) :
    val_main_v32 (F := Ideal) x0 x1 x3 x4 x5 x6 x7 x8 (ix2 r k)
      = Cert.Gin.hidden (fun j => x0 (ix2 r j) + val_main_v13 (F := Ideal) x0 x1 (ix2 r j)) x3 x4 x5 x6 x7 x8 k := by
  have el : ∀ j : Fin 11, lidx_main_v15 (ix2 r k) j = ix2 r j := fun j => funext fun a => Fin.ext (by match a with | ⟨0, _⟩ => rfl | ⟨1, _⟩ => rfl)
  have er : ∀ j : Fin 11, ridx_main_v15 (ix2 r k) j = ix2 j k := fun j => funext fun a => Fin.ext (by match a with | ⟨0, _⟩ => rfl | ⟨1, _⟩ => rfl)
  have eba : idx_main_v16 (idx_main_v17 (ix2 r k)) = ix1 k := funext fun a => Fin.ext (by match a with | ⟨0, _⟩ => rfl)
  have emu : idx_main_v19 (idx_main_v20 (ix2 r k)) = ix1 k := funext fun a => Fin.ext (by match a with | ⟨0, _⟩ => rfl)
  have esc : idx_main_v26 (idx_main_v27 (ix2 r k)) = ix1 k := funext fun a => Fin.ext (by match a with | ⟨0, _⟩ => rfl)
  have ebe : idx_main_v29 (idx_main_v30 (ix2 r k)) = ix1 k := funext fun a => Fin.ext (by match a with | ⟨0, _⟩ => rfl)
  simp only [val_main_v32_apply, val_main_v31_apply, val_main_v30_apply, val_main_v29_apply, val_main_v28_apply, val_main_v27_apply, val_main_v26_apply, val_main_v25_apply, val_main_v24_apply, val_main_v23_apply, val_main_v22_apply, val_main_cst_1_apply, val_main_v21_apply, val_main_v20_apply, val_main_v19_apply, val_main_v18_apply, val_main_v17_apply, val_main_v16_apply, val_main_v15_apply, val_main_v14_apply, val_main_call0_v0_apply, val_main_call0_cst_apply,
    el, er, eba, emu, esc, ebe,
    Ideal.addf_def, Ideal.subf_def, Ideal.mulf_def, Ideal.maximumf_def, Ideal.hostUnary_rsqrt_def, Ideal.ofBits_def]
  rfl

/-- Layer 1: the stage after the second ReLU is the specification's layer of the stages it is fed. -/
theorem layer1 (x0 : (⟨S100000x11, .f32⟩ : BufTy).Contents (Elt Ideal)) (x1 : (⟨S2x1600000, .i32⟩ : BufTy).Contents (Elt Ideal)) (x3 : (⟨S11x128, .f32⟩ : BufTy).Contents (Elt Ideal)) (x4 x5 x6 x7 x8 : (⟨S128, .f32⟩ : BufTy).Contents (Elt Ideal)) (x9 : (⟨S128x128, .f32⟩ : BufTy).Contents (Elt Ideal)) (x10 : (⟨S128, .f32⟩ : BufTy).Contents (Elt Ideal)) :
    val_main_v37 (F := Ideal) x0 x1 x3 x4 x5 x6 x7 x8 x9 x10
      = Cert.Gin.MLP (x0) (val_main_v13 (F := Ideal) x0 x1) x3 x4 x5 x6 x7 x8 x9 x10 := by
  funext i
  obtain ⟨r, q, rfl⟩ : ∃ (r : Fin 100000) (q : Fin 128), i = ix2 r q := ⟨i 0, i 1, eq_ix2 i⟩
  have el : ∀ k : Fin 128, lidx_main_v33 (ix2 r q) k = ix2 r k := fun k => funext fun a => Fin.ext (by match a with | ⟨0, _⟩ => rfl | ⟨1, _⟩ => rfl)
  have er : ∀ k : Fin 128, ridx_main_v33 (ix2 r q) k = ix2 k q := fun k => funext fun a => Fin.ext (by match a with | ⟨0, _⟩ => rfl | ⟨1, _⟩ => rfl)
  have ebb : idx_main_v34 (idx_main_v35 (ix2 r q)) = ix1 q := funext fun a => Fin.ext (by match a with | ⟨0, _⟩ => rfl)
  simp only [val_main_v37_apply, val_main_v36_apply, val_main_v35_apply, val_main_v34_apply, val_main_v33_apply, val_main_call1_v0_apply, val_main_call1_cst_apply,
    el, er, ebb, hidden1,
    Ideal.addf_def, Ideal.maximumf_def, Ideal.ofBits_def]
  rfl

/-- The reference's extra ReLU after layer 1 changes nothing: a layer's output is already a ReLU. -/
theorem relu1 (x0 : (⟨S100000x11, .f32⟩ : BufTy).Contents (Elt Ideal)) (x1 : (⟨S2x1600000, .i32⟩ : BufTy).Contents (Elt Ideal)) (x3 : (⟨S11x128, .f32⟩ : BufTy).Contents (Elt Ideal)) (x4 x5 x6 x7 x8 : (⟨S128, .f32⟩ : BufTy).Contents (Elt Ideal)) (x9 : (⟨S128x128, .f32⟩ : BufTy).Contents (Elt Ideal)) (x10 : (⟨S128, .f32⟩ : BufTy).Contents (Elt Ideal)) :
    val_main_v38 (F := Ideal) x0 x1 x3 x4 x5 x6 x7 x8 x9 x10 = val_main_v37 (F := Ideal) x0 x1 x3 x4 x5 x6 x7 x8 x9 x10 := by
  funext i
  rw [val_main_v38_apply, val_main_call2_v0_apply, val_main_call2_cst_apply, layer1]
  exact Cert.Gin.MLP_relu _ _ _ _ _ _ _ _ _ _ i

/-- Layer 2, first half: at row `r` and hidden unit `k`, the stage after the first ReLU is Linear → BatchNorm → ReLU
    of the row `h r + agg r`. The four row broadcasts read their vector at `k`; the contraction runs over the 128 input features. -/
theorem hidden2 (x0 : (⟨S100000x11, .f32⟩ : BufTy).Contents (Elt Ideal)) (x1 : (⟨S2x1600000, .i32⟩ : BufTy).Contents (Elt Ideal)) (x3 : (⟨S11x128, .f32⟩ : BufTy).Contents (Elt Ideal)) (x4 x5 x6 x7 x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 x15 x16 : (⟨S128, .f32⟩ : BufTy).Contents (Elt Ideal))
    (r : Fin 100000) (k : Fin 128) :
    val_main_v67 (F := Ideal) x0 x1 x3 x4 x5 x6 x7 x8 x9 x10 x11 x12 x13 x14 x15 x16 (ix2 r k)
      = Cert.Gin.hidden (fun j => val_main_v38 (F := Ideal) x0 x1 x3 x4 x5 x6 x7 x8 x9 x10 (ix2 r j) + val_main_v48 (F := Ideal) x0 x1 x3 x4 x5 x6 x7 x8 x9 x10 (ix2 r j)) x11 x12 x13 x14 x15 x16 k := by
  have el : ∀ j : Fin 128, lidx_main_v50 (ix2 r k) j = ix2 r j := fun j => funext fun a => Fin.ext (by match a with | ⟨0, _⟩ => rfl | ⟨1, _⟩ => rfl)
  have er : ∀ j : Fin 128, ridx_main_v50 (ix2 r k) j = ix2 j k := fun j => funext fun a => Fin.ext (by match a with | ⟨0, _⟩ => rfl | ⟨1, _⟩ => rfl)
  have eba : idx_main_v51 (idx_main_v52 (ix2 r k)) = ix1 k := funext fun a => Fin.ext (by match a with | ⟨0, _⟩ => rfl)
  have emu : idx_main_v54 (idx_main_v55 (ix2 r k)) = ix1 k := funext fun a => Fin.ext (by match a with | ⟨0, _⟩ => rfl)
  have esc : idx_main_v61 (idx_main_v62 (ix2 r k)) = ix1 k := funext fun a => Fin.ext (by match a with | ⟨0, _⟩ => rfl)
  have ebe : idx_main_v64 (idx_main_v65 (ix2 r k)) = ix1 k := funext fun a => Fin.ext (by match a with | ⟨0, _⟩ => rfl)
  simp only [val_main_v67_apply, val_main_v66_apply, val_main_v65_apply, val_main_v64_apply, val_main_v63_apply, val_main_v62_apply, val_main_v61_apply, val_main_v60_apply, val_main_v59_apply, val_main_v58_apply, val_main_v57_apply, val_main_cst_5_apply, val_main_v56_apply, val_main_v55_apply, val_main_v54_apply, val_main_v53_apply, val_main_v52_apply, val_main_v51_apply, val_main_v50_apply, val_main_v49_apply, val_main_call3_v0_apply, val_main_call3_cst_apply,
    el, er, eba, emu, esc, ebe,
    Ideal.addf_def, Ideal.subf_def, Ideal.mulf_def, Ideal.maximumf_def, Ideal.hostUnary_rsqrt_def, Ideal.ofBits_def]
  rfl

/-- Layer 2: the stage after the second ReLU is the specification's layer of the stages it is fed. -/
theorem layer2 (x0 : (⟨S100000x11, .f32⟩ : BufTy).Contents (Elt Ideal)) (x1 : (⟨S2x1600000, .i32⟩ : BufTy).Contents (Elt Ideal)) (x3 : (⟨S11x128, .f32⟩ : BufTy).Contents (Elt Ideal)) (x4 x5 x6 x7 x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 x15 x16 : (⟨S128, .f32⟩ : BufTy).Contents (Elt Ideal)) (x17 : (⟨S128x128, .f32⟩ : BufTy).Contents (Elt Ideal)) (x18 : (⟨S128, .f32⟩ : BufTy).Contents (Elt Ideal)) :
    val_main_v72 (F := Ideal) x0 x1 x3 x4 x5 x6 x7 x8 x9 x10 x11 x12 x13 x14 x15 x16 x17 x18
      = Cert.Gin.MLP (val_main_v38 (F := Ideal) x0 x1 x3 x4 x5 x6 x7 x8 x9 x10) (val_main_v48 (F := Ideal) x0 x1 x3 x4 x5 x6 x7 x8 x9 x10) x11 x12 x13 x14 x15 x16 x17 x18 := by
  funext i
  obtain ⟨r, q, rfl⟩ : ∃ (r : Fin 100000) (q : Fin 128), i = ix2 r q := ⟨i 0, i 1, eq_ix2 i⟩
  have el : ∀ k : Fin 128, lidx_main_v68 (ix2 r q) k = ix2 r k := fun k => funext fun a => Fin.ext (by match a with | ⟨0, _⟩ => rfl | ⟨1, _⟩ => rfl)
  have er : ∀ k : Fin 128, ridx_main_v68 (ix2 r q) k = ix2 k q := fun k => funext fun a => Fin.ext (by match a with | ⟨0, _⟩ => rfl | ⟨1, _⟩ => rfl)
  have ebb : idx_main_v69 (idx_main_v70 (ix2 r q)) = ix1 q := funext fun a => Fin.ext (by match a with | ⟨0, _⟩ => rfl)
  simp only [val_main_v72_apply, val_main_v71_apply, val_main_v70_apply, val_main_v69_apply, val_main_v68_apply, val_main_call4_v0_apply, val_main_call4_cst_apply,
    el, er, ebb, hidden2,
    Ideal.addf_def, Ideal.maximumf_def, Ideal.ofBits_def]
  rfl

/-- The reference's extra ReLU after layer 2 changes nothing: a layer's output is already a ReLU. -/
theorem relu2 (x0 : (⟨S100000x11, .f32⟩ : BufTy).Contents (Elt Ideal)) (x1 : (⟨S2x1600000, .i32⟩ : BufTy).Contents (Elt Ideal)) (x3 : (⟨S11x128, .f32⟩ : BufTy).Contents (Elt Ideal)) (x4 x5 x6 x7 x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 x15 x16 : (⟨S128, .f32⟩ : BufTy).Contents (Elt Ideal)) (x17 : (⟨S128x128, .f32⟩ : BufTy).Contents (Elt Ideal)) (x18 : (⟨S128, .f32⟩ : BufTy).Contents (Elt Ideal)) :
    val_main_v73 (F := Ideal) x0 x1 x3 x4 x5 x6 x7 x8 x9 x10 x11 x12 x13 x14 x15 x16 x17 x18 = val_main_v72 (F := Ideal) x0 x1 x3 x4 x5 x6 x7 x8 x9 x10 x11 x12 x13 x14 x15 x16 x17 x18 := by
  funext i
  rw [val_main_v73_apply, val_main_call5_v0_apply, val_main_call5_cst_apply, layer2]
  exact Cert.Gin.MLP_relu _ _ _ _ _ _ _ _ _ _ i

/-- Layer 3, first half: at row `r` and hidden unit `k`, the stage after the first ReLU is Linear → BatchNorm → ReLU
    of the row `h r + agg r`. The four row broadcasts read their vector at `k`; the contraction runs over the 128 input features. -/
theorem hidden3 (x0 : (⟨S100000x11, .f32⟩ : BufTy).Contents (Elt Ideal)) (x1 : (⟨S2x1600000, .i32⟩ : BufTy).Contents (Elt Ideal)) (x3 : (⟨S11x128, .f32⟩ : BufTy).Contents (Elt Ideal)) (x4 x5 x6 x7 x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 x15 x16 : (⟨S128, .f32⟩ : BufTy).Contents (Elt Ideal)) (x17 : (⟨S128x128, .f32⟩ : BufTy).Contents (Elt Ideal)) (x18 : (⟨S128, .f32⟩ : BufTy).Contents (Elt Ideal)) (x19 : (⟨S128x128, .f32⟩ : BufTy).Contents (Elt Ideal)) (x20 x21 x22 x23 x24 : (⟨S128, .f32⟩ : BufTy).Contents (Elt Ideal))
    (r : Fin 100000) (k : Fin 128) :
    val_main_v102 (F := Ideal) x0 x1 x3 x4 x5 x6 x7 x8 x9 x10 x11 x12 x13 x14 x15 x16 x17 x18 x19 x20 x21 x22 x23 x24 (ix2 r k)
      = Cert.Gin.hidden (fun j => val_main_v73 (F := Ideal) x0 x1 x3 x4 x5 x6 x7 x8 x9 x10 x11 x12 x13 x14 x15 x16 x17 x18 (ix2 r j) + val_main_v83 (F := Ideal) x0 x1 x3 x4 x5 x6 x7 x8 x9 x10 x11 x12 x13 x14 x15 x16 x17 x18 (ix2 r j)) x19 x20 x21 x22 x23 x24 k := by
  have el : ∀ j : Fin 128, lidx_main_v85 (ix2 r k) j = ix2 r j := fun j => funext fun a => Fin.ext (by match a with | ⟨0, _⟩ => rfl | ⟨1, _⟩ => rfl)
  have er : ∀ j : Fin 128, ridx_main_v85 (ix2 r k) j = ix2 j k := fun j => funext fun a => Fin.ext (by match a with | ⟨0, _⟩ => rfl | ⟨1, _⟩ => rfl)
  have eba : idx_main_v86 (idx_main_v87 (ix2 r k)) = ix1 k := funext fun a => Fin.ext (by match a with | ⟨0, _⟩ => rfl)
  have emu : idx_main_v89 (idx_main_v90 (ix2 r k)) = ix1 k := funext fun a => Fin.ext (by match a with | ⟨0, _⟩ => rfl)
  have esc : idx_main_v96 (idx_main_v97 (ix2 r k)) = ix1 k := funext fun a => Fin.ext (by match a with | ⟨0, _⟩ => rfl)
  have ebe : idx_main_v99 (idx_main_v100 (ix2 r k)) = ix1 k := funext fun a => Fin.ext (by match a with | ⟨0, _⟩ => rfl)
  simp only [val_main_v102_apply, val_main_v101_apply, val_main_v100_apply, val_main_v99_apply, val_main_v98_apply, val_main_v97_apply, val_main_v96_apply, val_main_v95_apply, val_main_v94_apply, val_main_v93_apply, val_main_v92_apply, val_main_cst_9_apply, val_main_v91_apply, val_main_v90_apply, val_main_v89_apply, val_main_v88_apply, val_main_v87_apply, val_main_v86_apply, val_main_v85_apply, val_main_v84_apply, val_main_call6_v0_apply, val_main_call6_cst_apply,
    el, er, eba, emu, esc, ebe,
    Ideal.addf_def, Ideal.subf_def, Ideal.mulf_def, Ideal.maximumf_def, Ideal.hostUnary_rsqrt_def, Ideal.ofBits_def]
  rfl

/-- Layer 3: the stage after the second ReLU is the specification's layer of the stages it is fed. -/
theorem layer3 (x0 : (⟨S100000x11, .f32⟩ : BufTy).Contents (Elt Ideal)) (x1 : (⟨S2x1600000, .i32⟩ : BufTy).Contents (Elt Ideal)) (x3 : (⟨S11x128, .f32⟩ : BufTy).Contents (Elt Ideal)) (x4 x5 x6 x7 x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 x15 x16 : (⟨S128, .f32⟩ : BufTy).Contents (Elt Ideal)) (x17 : (⟨S128x128, .f32⟩ : BufTy).Contents (Elt Ideal)) (x18 : (⟨S128, .f32⟩ : BufTy).Contents (Elt Ideal)) (x19 : (⟨S128x128, .f32⟩ : BufTy).Contents (Elt Ideal)) (x20 x21 x22 x23 x24 : (⟨S128, .f32⟩ : BufTy).Contents (Elt Ideal)) (x25 : (⟨S128x128, .f32⟩ : BufTy).Contents (Elt Ideal)) (x26 : (⟨S128, .f32⟩ : BufTy).Contents (Elt Ideal)) :
    val_main_v107 (F := Ideal) x0 x1 x3 x4 x5 x6 x7 x8 x9 x10 x11 x12 x13 x14 x15 x16 x17 x18 x19 x20 x21 x22 x23 x24 x25 x26
      = Cert.Gin.MLP (val_main_v73 (F := Ideal) x0 x1 x3 x4 x5 x6 x7 x8 x9 x10 x11 x12 x13 x14 x15 x16 x17 x18) (val_main_v83 (F := Ideal) x0 x1 x3 x4 x5 x6 x7 x8 x9 x10 x11 x12 x13 x14 x15 x16 x17 x18) x19 x20 x21 x22 x23 x24 x25 x26 := by
  funext i
  obtain ⟨r, q, rfl⟩ : ∃ (r : Fin 100000) (q : Fin 128), i = ix2 r q := ⟨i 0, i 1, eq_ix2 i⟩
  have el : ∀ k : Fin 128, lidx_main_v103 (ix2 r q) k = ix2 r k := fun k => funext fun a => Fin.ext (by match a with | ⟨0, _⟩ => rfl | ⟨1, _⟩ => rfl)
  have er : ∀ k : Fin 128, ridx_main_v103 (ix2 r q) k = ix2 k q := fun k => funext fun a => Fin.ext (by match a with | ⟨0, _⟩ => rfl | ⟨1, _⟩ => rfl)
  have ebb : idx_main_v104 (idx_main_v105 (ix2 r q)) = ix1 q := funext fun a => Fin.ext (by match a with | ⟨0, _⟩ => rfl)
  simp only [val_main_v107_apply, val_main_v106_apply, val_main_v105_apply, val_main_v104_apply, val_main_v103_apply, val_main_call7_v0_apply, val_main_call7_cst_apply,
    el, er, ebb, hidden3,
    Ideal.addf_def, Ideal.maximumf_def, Ideal.ofBits_def]
  rfl

/-- The head, first half: at pooled row `r` and unit `k`, the stage after the head's ReLU is Linear → ReLU of pooled row `r`. -/
theorem headHidden (x0 : (⟨S100000x11, .f32⟩ : BufTy).Contents (Elt Ideal)) (x1 : (⟨S2x1600000, .i32⟩ : BufTy).Contents (Elt Ideal)) (x2 : (⟨S100000, .i32⟩ : BufTy).Contents (Elt Ideal)) (x3 : (⟨S11x128, .f32⟩ : BufTy).Contents (Elt Ideal)) (x4 x5 x6 x7 x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 x15 x16 : (⟨S128, .f32⟩ : BufTy).Contents (Elt Ideal)) (x17 : (⟨S128x128, .f32⟩ : BufTy).Contents (Elt Ideal)) (x18 : (⟨S128, .f32⟩ : BufTy).Contents (Elt Ideal)) (x19 : (⟨S128x128, .f32⟩ : BufTy).Contents (Elt Ideal)) (x20 x21 x22 x23 x24 : (⟨S128, .f32⟩ : BufTy).Contents (Elt Ideal)) (x25 : (⟨S128x128, .f32⟩ : BufTy).Contents (Elt Ideal)) (x26 : (⟨S128, .f32⟩ : BufTy).Contents (Elt Ideal)) (x27 : (⟨S128x128, .f32⟩ : BufTy).Contents (Elt Ideal)) (x28 : (⟨S128, .f32⟩ : BufTy).Contents (Elt Ideal))
    (r : Fin 2048) (k : Fin 128) :
    val_main_v115 (F := Ideal) x0 x1 x2 x3 x4 x5 x6 x7 x8 x9 x10 x11 x12 x13 x14 x15 x16 x17 x18 x19 x20 x21 x22 x23 x24 x25 x26 x27 x28 (ix2 r k)
      = max ((∑ j : Fin 128, val_main_v110 (F := Ideal) x0 x1 x2 x3 x4 x5 x6 x7 x8 x9 x10 x11 x12 x13 x14 x15 x16 x17 x18 x19 x20 x21 x22 x23 x24 x25 x26 (ix2 r j) * x27 (ix2 j k)) + x28 (ix1 k)) Cert.Gin.zeroF := by
  have el : ∀ j : Fin 128, lidx_main_v111 (ix2 r k) j = ix2 r j := fun j => funext fun a => Fin.ext (by match a with | ⟨0, _⟩ => rfl | ⟨1, _⟩ => rfl)
  have er : ∀ j : Fin 128, ridx_main_v111 (ix2 r k) j = ix2 j k := fun j => funext fun a => Fin.ext (by match a with | ⟨0, _⟩ => rfl | ⟨1, _⟩ => rfl)
  have eb : idx_main_v112 (idx_main_v113 (ix2 r k)) = ix1 k := funext fun a => Fin.ext (by match a with | ⟨0, _⟩ => rfl)
  simp only [val_main_v115_apply, val_main_v114_apply, val_main_v113_apply, val_main_v112_apply, val_main_v111_apply, val_main_call8_v0_apply, val_main_call8_cst_apply,
    el, er, eb,
    Ideal.addf_def, Ideal.maximumf_def, Ideal.ofBits_def]

/-- The head: the last stage is the specification's read-out of the pooled rows. The output has one column, so the
    bias vector of length one is read at its only entry. -/
theorem head (x0 : (⟨S100000x11, .f32⟩ : BufTy).Contents (Elt Ideal)) (x1 : (⟨S2x1600000, .i32⟩ : BufTy).Contents (Elt Ideal)) (x2 : (⟨S100000, .i32⟩ : BufTy).Contents (Elt Ideal)) (x3 : (⟨S11x128, .f32⟩ : BufTy).Contents (Elt Ideal)) (x4 x5 x6 x7 x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 x13 x14 x15 x16 : (⟨S128, .f32⟩ : BufTy).Contents (Elt Ideal)) (x17 : (⟨S128x128, .f32⟩ : BufTy).Contents (Elt Ideal)) (x18 : (⟨S128, .f32⟩ : BufTy).Contents (Elt Ideal)) (x19 : (⟨S128x128, .f32⟩ : BufTy).Contents (Elt Ideal)) (x20 x21 x22 x23 x24 : (⟨S128, .f32⟩ : BufTy).Contents (Elt Ideal)) (x25 : (⟨S128x128, .f32⟩ : BufTy).Contents (Elt Ideal)) (x26 : (⟨S128, .f32⟩ : BufTy).Contents (Elt Ideal)) (x27 : (⟨S128x128, .f32⟩ : BufTy).Contents (Elt Ideal)) (x28 : (⟨S128, .f32⟩ : BufTy).Contents (Elt Ideal)) (x29 : (⟨S128x1, .f32⟩ : BufTy).Contents (Elt Ideal)) (x30 : (⟨S1, .f32⟩ : BufTy).Contents (Elt Ideal)) :
    val_main_v119 (F := Ideal) x0 x1 x2 x3 x4 x5 x6 x7 x8 x9 x10 x11 x12 x13 x14 x15 x16 x17 x18 x19 x20 x21 x22 x23 x24 x25 x26 x27 x28 x29 x30
      = Cert.Gin.HEAD (val_main_v110 (F := Ideal) x0 x1 x2 x3 x4 x5 x6 x7 x8 x9 x10 x11 x12 x13 x14 x15 x16 x17 x18 x19 x20 x21 x22 x23 x24 x25 x26) x27 x28 x29 x30 := by
  funext i
  obtain ⟨r, q, rfl⟩ : ∃ (r : Fin 2048) (q : Fin 1), i = ix2 r q := ⟨i 0, i 1, eq_ix2 i⟩
  have el : ∀ k : Fin 128, lidx_main_v116 (ix2 r q) k = ix2 r k := fun k => funext fun a => Fin.ext (by match a with | ⟨0, _⟩ => rfl | ⟨1, _⟩ => rfl)
  have er : ∀ k : Fin 128, ridx_main_v116 (ix2 r q) k = ix2 k q := fun k => funext fun a => Fin.ext (by match a with | ⟨0, _⟩ => rfl | ⟨1, _⟩ => rfl)
  have eb : idx_main_v117 (idx_main_v118 (ix2 r q)) = ix1 q :=
    funext fun a => Fin.ext (by match a with | ⟨0, _⟩ => exact (Nat.lt_one_iff.mp q.isLt).symm)
  simp only [val_main_v119_apply, val_main_v118_apply, val_main_v117_apply, val_main_v116_apply,
    el, er, eb, headHidden,
    Ideal.addf_def]
  rfl

end Cert.Gin.Ref

end
-- ==== Proof.RefNet.lean ====
/-
  The reference's result as the network of its arguments: its gathers and scatter-adds are literally the
  network's, each dense layer is the specification's layer of the stages it is fed, and the extra ReLU the
  reference applies between layers changes nothing, a layer's output being a ReLU already.
-/
import proofs.«175696_j22084721836226_1_alg».proof.Proof.Net
import proofs.«175696_j22084721836226_1_alg».proof.Proof.RefLayers

set_option maxRecDepth 16384

noncomputable section

namespace Cert.Gin.RefNet

open Cert.ReferenceIdeal Cert.ReferenceIdeal.Read Idealize.ShloMosaic
open Cert.Gin.Net

/-! ## The reference's gathers and scatter-adds are the network's -/

theorem v13_eq (x0 : F32 S100000x11) (x1 : I32 S2x1600000) : val_main_v13 (F := Ideal) x0 x1 = agg11 x0 x1 := rfl
theorem v48_eq (x0 : F32 S100000x11) (x1 : I32 S2x1600000) (x3 : F32 S11x128) (x4 x5 x6 x7 x8 : F32 S128) (x9 : F32 S128x128) (x10 : F32 S128) : val_main_v48 (F := Ideal) x0 x1 x3 x4 x5 x6 x7 x8 x9 x10 = agg128 (val_main_v38 (F := Ideal) x0 x1 x3 x4 x5 x6 x7 x8 x9 x10) x1 := rfl
theorem v83_eq (x0 : F32 S100000x11) (x1 : I32 S2x1600000) (x3 : F32 S11x128) (x4 x5 x6 x7 x8 : F32 S128) (x9 : F32 S128x128) (x10 : F32 S128) (x11 : F32 S128x128) (x12 x13 x14 x15 x16 : F32 S128) (x17 : F32 S128x128) (x18 : F32 S128) : val_main_v83 (F := Ideal) x0 x1 x3 x4 x5 x6 x7 x8 x9 x10 x11 x12 x13 x14 x15 x16 x17 x18 = agg128 (val_main_v73 (F := Ideal) x0 x1 x3 x4 x5 x6 x7 x8 x9 x10 x11 x12 x13 x14 x15 x16 x17 x18) x1 := rfl
theorem v110_eq (x0 : F32 S100000x11) (x1 : I32 S2x1600000) (x2 : I32 S100000) (x3 : F32 S11x128) (x4 x5 x6 x7 x8 : F32 S128) (x9 : F32 S128x128) (x10 : F32 S128) (x11 : F32 S128x128) (x12 x13 x14 x15 x16 : F32 S128) (x17 : F32 S128x128) (x18 : F32 S128) (x19 : F32 S128x128) (x20 x21 x22 x23 x24 : F32 S128) (x25 : F32 S128x128) (x26 : F32 S128) : val_main_v110 (F := Ideal) x0 x1 x2 x3 x4 x5 x6 x7 x8 x9 x10 x11 x12 x13 x14 x15 x16 x17 x18 x19 x20 x21 x22 x23 x24 x25 x26 = pool (val_main_v107 (F := Ideal) x0 x1 x3 x4 x5 x6 x7 x8 x9 x10 x11 x12 x13 x14 x15 x16 x17 x18 x19 x20 x21 x22 x23 x24 x25 x26) x2 := rfl

/-! ## Layer by layer -/

theorem h1 (x0 : F32 S100000x11) (x1 : I32 S2x1600000) (x3 : F32 S11x128) (x4 x5 x6 x7 x8 : F32 S128) (x9 : F32 S128x128) (x10 : F32 S128) : val_main_v37 (F := Ideal) x0 x1 x3 x4 x5 x6 x7 x8 x9 x10 = H1 x0 x1 x3 x4 x5 x6 x7 x8 x9 x10 := by
  rw [Cert.Gin.Ref.layer1, v13_eq]; rfl
theorem h1r (x0 : F32 S100000x11) (x1 : I32 S2x1600000) (x3 : F32 S11x128) (x4 x5 x6 x7 x8 : F32 S128) (x9 : F32 S128x128) (x10 : F32 S128) : val_main_v38 (F := Ideal) x0 x1 x3 x4 x5 x6 x7 x8 x9 x10 = H1 x0 x1 x3 x4 x5 x6 x7 x8 x9 x10 := by
  rw [Cert.Gin.Ref.relu1, h1]
theorem h2 (x0 : F32 S100000x11) (x1 : I32 S2x1600000) (x3 : F32 S11x128) (x4 x5 x6 x7 x8 : F32 S128) (x9 : F32 S128x128) (x10 : F32 S128) (x11 : F32 S128x128) (x12 x13 x14 x15 x16 : F32 S128) (x17 : F32 S128x128) (x18 : F32 S128) : val_main_v72 (F := Ideal) x0 x1 x3 x4 x5 x6 x7 x8 x9 x10 x11 x12 x13 x14 x15 x16 x17 x18 = H2 x0 x1 x3 x4 x5 x6 x7 x8 x9 x10 x11 x12 x13 x14 x15 x16 x17 x18 := by
  rw [Cert.Gin.Ref.layer2, v48_eq, h1r]; rfl
theorem h2r (x0 : F32 S100000x11) (x1 : I32 S2x1600000) (x3 : F32 S11x128) (x4 x5 x6 x7 x8 : F32 S128) (x9 : F32 S128x128) (x10 : F32 S128) (x11 : F32 S128x128) (x12 x13 x14 x15 x16 : F32 S128) (x17 : F32 S128x128) (x18 : F32 S128) : val_main_v73 (F := Ideal) x0 x1 x3 x4 x5 x6 x7 x8 x9 x10 x11 x12 x13 x14 x15 x16 x17 x18 = H2 x0 x1 x3 x4 x5 x6 x7 x8 x9 x10 x11 x12 x13 x14 x15 x16 x17 x18 := by
  rw [Cert.Gin.Ref.relu2, h2]
theorem h3 (x0 : F32 S100000x11) (x1 : I32 S2x1600000) (x3 : F32 S11x128) (x4 x5 x6 x7 x8 : F32 S128) (x9 : F32 S128x128) (x10 : F32 S128) (x11 : F32 S128x128) (x12 x13 x14 x15 x16 : F32 S128) (x17 : F32 S128x128) (x18 : F32 S128) (x19 : F32 S128x128) (x20 x21 x22 x23 x24 : F32 S128) (x25 : F32 S128x128) (x26 : F32 S128) : val_main_v107 (F := Ideal) x0 x1 x3 x4 x5 x6 x7 x8 x9 x10 x11 x12 x13 x14 x15 x16 x17 x18 x19 x20 x21 x22 x23 x24 x25 x26 = H3 x0 x1 x3 x4 x5 x6 x7 x8 x9 x10 x11 x12 x13 x14 x15 x16 x17 x18 x19 x20 x21 x22 x23 x24 x25 x26 := by
  rw [Cert.Gin.Ref.layer3, v83_eq, h2r]; rfl
/-- The reference's result stage is the network of its arguments. -/
theorem ref_eq (x0 : F32 S100000x11) (x1 : I32 S2x1600000) (x2 : I32 S100000) (x3 : F32 S11x128) (x4 x5 x6 x7 x8 : F32 S128) (x9 : F32 S128x128) (x10 : F32 S128) (x11 : F32 S128x128) (x12 x13 x14 x15 x16 : F32 S128) (x17 : F32 S128x128) (x18 : F32 S128) (x19 : F32 S128x128) (x20 x21 x22 x23 x24 : F32 S128) (x25 : F32 S128x128) (x26 : F32 S128) (x27 : F32 S128x128) (x28 : F32 S128) (x29 : F32 S128x1) (x30 : F32 S1) : val_main_v119 (F := Ideal) x0 x1 x2 x3 x4 x5 x6 x7 x8 x9 x10 x11 x12 x13 x14 x15 x16 x17 x18 x19 x20 x21 x22 x23 x24 x25 x26 x27 x28 x29 x30 = net x0 x1 x2 x3 x4 x5 x6 x7 x8 x9 x10 x11 x12 x13 x14 x15 x16 x17 x18 x19 x20 x21 x22 x23 x24 x25 x26 x27 x28 x29 x30 := by
  rw [Cert.Gin.Ref.head, v110_eq, h3]; rfl

end Cert.Gin.RefNet

end
-- ==== Proof.lean ====
/-
  A three-layer GIN with a read-out head: the kernel against its plain reference, as extended reals.

  Both programs compute, from node features x, edge indices and graph ids,
    H1 = layer₁ (x, Σ_{j→i} x_j),  H2 = layer₂ (H1, Σ_{j→i} H1_j),  H3 = layer₃ (H2, Σ_{j→i} H2_j),
    result = head (Σ_{i in graph} H3_i),
  where a layer is Linear → BatchNorm (running statistics) → ReLU → Linear → ReLU of h + agg, and the head is
  Linear → ReLU → Linear (Proof/Spec.lean). The neighbour sums and the pooling are the same host gathers and
  scatter-adds in both programs and are never opened (Proof/Net.lean). The kernel runs each layer and the head as a
  kernel region over row blocks (Proof/Region0–3.lean: what a block writes back is the specification's rows, and the
  blocks tile the array), with the host operations in between (Proof/KernelNet.lean, over the run of Proof/RunValue.lean);
  the reference is a straight line of host operations (Proof/RefLayers.lean, Proof/RefNet.lean) that applies one more
  ReLU between layers, which changes nothing since a layer's output is a ReLU already. Exact arithmetic makes a
  matrix product into a zero accumulator the plain sum and a change of float format the identity; no law used
  needs the inputs finite, so the precondition is never opened. The ideal pass recorded no rewrite, so the kernel's
  idealization is the kernel: that conjunct is `True`.
-/
import proofs.«175696_j22084721836226_1_alg».proof.Defs
import proofs.«175696_j22084721836226_1_alg».proof.Proof.Gen.Kernel
import proofs.«175696_j22084721836226_1_alg».proof.Proof.Gen.Kernel.Skeleton
import proofs.«175696_j22084721836226_1_alg».proof.Proof.Gen.Kernel.Launch
import proofs.«175696_j22084721836226_1_alg».proof.Proof.Gen.Kernel.Points
import proofs.«175696_j22084721836226_1_alg».proof.Proof.Gen.Kernel.Frame
import proofs.«175696_j22084721836226_1_alg».proof.Proof.Gen.KernelIdeal
import proofs.«175696_j22084721836226_1_alg».proof.Proof.Gen.KernelIdeal.Skeleton
import proofs.«175696_j22084721836226_1_alg».proof.Proof.Gen.KernelIdeal.Launch
import proofs.«175696_j22084721836226_1_alg».proof.Proof.Gen.KernelIdeal.Points
import proofs.«175696_j22084721836226_1_alg».proof.Proof.Gen.KernelIdeal.Frame
import proofs.«175696_j22084721836226_1_alg».proof.Proof.Gen.ReferenceIdeal
import proofs.«175696_j22084721836226_1_alg».proof.Proof.Gen.ReferenceIdeal.Run
import proofs.«175696_j22084721836226_1_alg».proof.Proof.Gen.ReferenceIdeal.Read
import proofs.«175696_j22084721836226_1_alg».proof.Proof.Gen.Pre_finite_inputs
import proofs.«175696_j22084721836226_1_alg».proof.Proof.RunValue
import proofs.«175696_j22084721836226_1_alg».proof.Proof.KernelNet
import proofs.«175696_j22084721836226_1_alg».proof.Proof.RefNet
import Idealize.ShloMosaic.Adequacy
import Idealize.ShloMosaic.Init

set_option maxRecDepth 16384

noncomputable section

namespace Cert.Proof

open Idealize.ShloMosaic Idealize.SL.Sem

/-- The word-level kernel runs and leaves its arguments as launched. -/
theorem frame_k : Cert.frame_Kernel :=
  fun m ρ _ => Cert.Kernel.Gen.frame m ρ
/-- So does the idealized kernel. -/
theorem frame_ki : Cert.frame_KernelIdeal :=
  fun m ρ _ => Cert.KernelIdeal.Gen.frame m ρ
/-- The reference's run, with the result dropped. -/
theorem frame_ri : Cert.frame_ReferenceIdeal :=
  fun m ρ _ => (θ_run Cert.ReferenceIdeal.defs _ _).mono (fun _ h c => (h c).2) (Cert.ReferenceIdeal.Value.run (F := Ideal) m ρ)

set_option maxHeartbeats 4000000 in
/-- Run from memories that agree on the arguments, both programs end with the network of the arguments in their result. -/
theorem algebraic : Cert.algebraic_KernelIdeal_ReferenceIdeal := by
  intro m ρ m' ρ' _ hagree
  refine ⟨fun c => Cert.Gin.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)), ?_, ?_⟩
  · exact (θ_run Cert.KernelIdeal.defs _ _).mono
      (fun r h c => ⟨(h c).1.trans (Cert.Gin.KNet.W8_v40 m ρ c), (h c).2⟩) (Cert.Gin.Run.run_value m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v119_eq, Cert.Gin.RefNet.ref_eq]
    obtain ⟨e0, e1, e2, e3, e4, e5, e6, e7, e8, e9, e10, e11, e12, e13, e14, e15, e16, e17, e18, e19, e20, e21, e22, e23, e24, e25, e26, e27, e28, e29, e30⟩ := hagree c
    rw [e0, e1, e2, e3, e4, e5, e6, e7, e8, e9, e10, e11, e12, e13, e14, e15, e16, e17, e18, e19, e20, e21, e22, e23, e24, e25, e26, e27, e28, e29, e30]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
